-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x1433 : Shape := ⟨2, ![10000, 1433]⟩
abbrev S10000x10000 : Shape := ⟨2, ![10000, 10000]⟩
abbrev S1433x500 : Shape := ⟨2, ![1433, 500]⟩
abbrev S500 : Shape := ⟨1, ![500]⟩
abbrev S500x7 : Shape := ⟨2, ![500, 7]⟩
abbrev S7 : Shape := ⟨1, ![7]⟩
abbrev S_ : Shape := ⟨0, ![]⟩

class Facts : Prop where
  bcast_S_S10000x1433 : S_.BroadcastsInDim S10000x1433 (![] : Fin 0 → Fin S10000x1433.rank)
  reducesTo_S10000x1433_S_d0_1 : S10000x1433.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S1433x500 : S_.BroadcastsInDim S1433x500 (![] : Fin 0 → Fin S1433x500.rank)
  reducesTo_S1433x500_S_d0_1 : S1433x500.ReducesTo [0, 1] S_
  bcast_S_S500 : S_.BroadcastsInDim S500 (![] : Fin 0 → Fin S500.rank)
  reducesTo_S500_S_d0 : S500.ReducesTo [0] S_
  bcast_S_S500x7 : S_.BroadcastsInDim S500x7 (![] : Fin 0 → Fin S500x7.rank)
  reducesTo_S500x7_S_d0_1 : S500x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg4 : FVec F S500x7 .f32) (main_arg5 : FVec F S7 .f32) (main_v13 : IVec S_ 1) (main_v16 : IVec S500 1) : IVec S_ 1 :=
  let main_c_5 : IVec S_ 1 := constantI S_ 1 1#1
  let main_v17 : IVec S_ 1 := (fun x v => Host.reduce IntOp.andi x v reducesTo_S500_S_d0 h_S_) main_v16 main_c_5
  let main_v18 : IVec S_ 1 := andi main_v13 main_v17
  let main_v19 : FVec F S500x7 .f32 := Host.absf main_arg4
  let main_cst_6 : FVec F S_ .f32 := constant S_ .f32 0x7F800000#32
  let main_v20 : FVec F S500x7 .f32 := broadcastInDim S500x7 ![] bcast_S_S500x7 main_cst_6
  let main_v21 : IVec S500x7 1 := cmpf .olt main_v19 main_v20
  let main_c_7 : IVec S_ 1 := constantI S_ 1 1#1
  let main_v22 : IVec S_ 1 := (fun x v => Host.reduce IntOp.andi x v reducesTo_S500x7_S_d0_1 h_S_) main_v21 main_c_7
  let main_v23 : IVec S_ 1 := andi main_v18 main_v22
  let main_v24 : FVec F S7 .f32 := Host.absf main_arg5
  let main_cst_8 : FVec F S_ .f32 := constant S_ .f32 0x7F800000#32
  let main_v25 : FVec F S7 .f32 := broadcastInDim S7 ![] bcast_S_S7 main_cst_8
  let main_v26 : IVec S7 1 := cmpf .olt main_v24 main_v25
  let main_c_9 : IVec S_ 1 := constantI S_ 1 1#1
  let main_v27 : IVec S_ 1 := (fun x v => Host.reduce IntOp.andi x v reducesTo_S7_S_d0 h_S_) main_v26 main_c_9
  let main_v28 : IVec S_ 1 := andi main_v23 main_v27
  main_v28

def fn {F : FTy → Type} [FloatOps F] (main_arg0 : FVec F S10000x1433 .f32) (main_arg1 : FVec F S10000x10000 .f32) (main_arg2 : FVec F S1433x500 .f32) (main_arg3 : FVec F S500 .f32) (main_arg4 : FVec F S500x7 .f32) (main_arg5 : FVec F S7 .f32) : IVec S_ 1 :=
  let main_v0 : FVec F S10000x1433 .f32 := Host.absf main_arg0
  let main_cst : FVec F S_ .f32 := constant S_ .f32 0x7F800000#32
  let main_v1 : FVec F S10000x1433 .f32 := broadcastInDim S10000x1433 ![] bcast_S_S10000x1433 main_cst
  let main_v2 : IVec S10000x1433 1 := cmpf .olt main_v0 main_v1
  let main_c : IVec S_ 1 := constantI S_ 1 1#1
  let main_v3 : IVec S_ 1 := (fun x v => Host.reduce IntOp.andi x v reducesTo_S10000x1433_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S1433x500 .f32 := Host.absf main_arg2
  let main_cst_2 : FVec F S_ .f32 := constant S_ .f32 0x7F800000#32
  let main_v10 : FVec F S1433x500 .f32 := broadcastInDim S1433x500 ![] bcast_S_S1433x500 main_cst_2
  let main_v11 : IVec S1433x500 1 := cmpf .olt main_v9 main_v10
  let main_c_3 : IVec S_ 1 := constantI S_ 1 1#1
  let main_v12 : IVec S_ 1 := (fun x v => Host.reduce IntOp.andi x v reducesTo_S1433x500_S_d0_1 h_S_) main_v11 main_c_3
  let main_v13 : IVec S_ 1 := andi main_v8 main_v12
  let main_v14 : FVec F S500 .f32 := Host.absf main_arg3
  let main_cst_4 : FVec F S_ .f32 := constant S_ .f32 0x7F800000#32
  let main_v15 : FVec F S500 .f32 := broadcastInDim S500 ![] bcast_S_S500 main_cst_4
  let main_v16 : IVec S500 1 := cmpf .olt main_v14 main_v15
  fn_part1 (F := F) main_arg4 main_arg5 main_v13 main_v16
-- ==== Kernel.lean ====
abbrev S10000x1433 : Shape := ⟨2, ![10000, 1433]⟩
abbrev S10000x10000 : Shape := ⟨2, ![10000, 10000]⟩
abbrev S1433x500 : Shape := ⟨2, ![1433, 500]⟩
abbrev S500 : Shape := ⟨1, ![500]⟩
abbrev S500x7 : Shape := ⟨2, ![500, 7]⟩
abbrev S7 : Shape := ⟨1, ![7]⟩
abbrev S_ : Shape := ⟨0, ![]⟩
abbrev S1433x512 : Shape := ⟨2, ![1433, 512]⟩
abbrev S1 : Shape := ⟨1, ![1]⟩
abbrev S1x512 : Shape := ⟨2, ![1, 512]⟩
abbrev S2 : Shape := ⟨1, ![2]⟩
abbrev S512x128 : Shape := ⟨2, ![512, 128]⟩
abbrev S1x128 : Shape := ⟨2, ![1, 128]⟩
abbrev S10000x128 : Shape := ⟨2, ![10000, 128]⟩
abbrev S10000x7 : Shape := ⟨2, ![10000, 7]⟩
abbrev S1000x1433 : Shape := ⟨2, ![1000, 1433]⟩
abbrev S400x10000 : Shape := ⟨2, ![400, 10000]⟩
abbrev S400x128 : Shape := ⟨2, ![400, 128]⟩
abbrev S10000x512 : Shape := ⟨2, ![10000, 512]⟩
abbrev S1000x512 : Shape := ⟨2, ![1000, 512]⟩
abbrev S400x512 : Shape := ⟨2, ![400, 512]⟩
abbrev S400x2500 : Shape := ⟨2, ![400, 2500]⟩
abbrev S2500x512 : Shape := ⟨2, ![2500, 512]⟩

abbrev nBuf : Space → Nat
  | .hbm => 39
  | .vmem => 12
  | .smem => 0
  | _ => 0

abbrev bufTy : (tb : Table) → Fin (tcTables nBuf tb) → BufTy
  | .hbm, ⟨0, _⟩ => ⟨S10000x1433, .f32⟩
  | .hbm, ⟨1, _⟩ => ⟨S10000x10000, .f32⟩
  | .hbm, ⟨2, _⟩ => ⟨S1433x500, .f32⟩
  | .hbm, ⟨3, _⟩ => ⟨S500, .f32⟩
  | .hbm, ⟨4, _⟩ => ⟨S500x7, .f32⟩
  | .hbm, ⟨5, _⟩ => ⟨S7, .f32⟩
  | .hbm, ⟨6, _⟩ => ⟨S_, .bf16⟩
  | .hbm, ⟨7, _⟩ => ⟨S1433x512, .bf16⟩
  | .hbm, ⟨8, _⟩ => ⟨S1433x500, .bf16⟩
  | .hbm, ⟨9, _⟩ => ⟨S_, .i32⟩
  | .hbm, ⟨10, _⟩ => ⟨S1, .i32⟩
  | .hbm, ⟨11, _⟩ => ⟨S1433x512, .bf16⟩
  | .hbm, ⟨12, _⟩ => ⟨S_, .f32⟩
  | .hbm, ⟨13, _⟩ => ⟨S1x512, .f32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S1, .i32⟩
  | .hbm, ⟨18, _⟩ => ⟨S2, .i32⟩
  | .hbm, ⟨19, _⟩ => ⟨S1x512, .f32⟩
  | .hbm, ⟨20, _⟩ => ⟨S_, .bf16⟩
  | .hbm, ⟨21, _⟩ => ⟨S512x128, .bf16⟩
  | .hbm, ⟨22, _⟩ => ⟨S500x7, .bf16⟩
  | .hbm, ⟨23, _⟩ => ⟨S_, .i32⟩
  | .hbm, ⟨24, _⟩ => ⟨S1, .i32⟩
  | .hbm, ⟨25, _⟩ => ⟨S_, .i32⟩
  | .hbm, ⟨26, _⟩ => ⟨S1, .i32⟩
  | .hbm, ⟨27, _⟩ => ⟨S2, .i32⟩
  | .hbm, ⟨28, _⟩ => ⟨S512x128, .bf16⟩
  | .hbm, ⟨29, _⟩ => ⟨S_, .f32⟩
  | .hbm, ⟨30, _⟩ => ⟨S1x128, .f32⟩
  | .hbm, ⟨31, _⟩ => ⟨S_, .i32⟩
  | .hbm, ⟨32, _⟩ => ⟨S1, .i32⟩
  | .hbm, ⟨33, _⟩ => ⟨S_, .i32⟩
  | .hbm, ⟨34, _⟩ => ⟨S1, .i32⟩
  | .hbm, ⟨35, _⟩ => ⟨S2, .i32⟩
  | .hbm, ⟨36, _⟩ => ⟨S1x128, .f32⟩
  | .hbm, ⟨37, _⟩ => ⟨S10000x128, .f32⟩
  | .hbm, ⟨38, _⟩ => ⟨S10000x7, .f32⟩
  | .local _ .vmem, ⟨0, _⟩ => ⟨S1000x1433, .f32⟩
  | .local _ .vmem, ⟨1, _⟩ => ⟨S1000x1433, .f32⟩
  | .local _ .vmem, ⟨2, _⟩ => ⟨S1433x512, .bf16⟩
  | .local _ .vmem, ⟨3, _⟩ => ⟨S1x512, .f32⟩
  | .local _ .vmem, ⟨4, _⟩ => ⟨S512x128, .bf16⟩
  | .local _ .vmem, ⟨5, _⟩ => ⟨S400x10000, .f32⟩
  | .local _ .vmem, ⟨6, _⟩ => ⟨S400x10000, .f32⟩
  | .local _ .vmem, ⟨7, _⟩ => ⟨S1x128, .f32⟩
  | .local _ .vmem, ⟨8, _⟩ => ⟨S400x128, .f32⟩
  | .local _ .vmem, ⟨9, _⟩ => ⟨S400x128, .f32⟩
  | .local _ .vmem, ⟨10, _⟩ => ⟨S10000x512, .bf16⟩
  | .local _ .vmem, ⟨11, _⟩ => ⟨S10000x128, .bf16⟩
  | _, _ => ⟨S10000x1433, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_cst : Ref sig .tc := ⟨.hbm, 6, rfl⟩
abbrev main_call0_v0 : Ref sig .tc := ⟨.hbm, 7, rfl⟩
abbrev main_call0_v1 : Ref sig .tc := ⟨.hbm, 8, rfl⟩
abbrev main_call0_c : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_c_1 : Ref sig .tc := ⟨.hbm, 14, rfl⟩
abbrev main_call0_v5 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_cst_3 : Ref sig .tc := ⟨.hbm, 20, rfl⟩
abbrev main_call0_v9 : Ref sig .tc := ⟨.hbm, 21, rfl⟩
abbrev main_call0_v10 : Ref sig .tc := ⟨.hbm, 22, rfl⟩
abbrev main_call0_c_4 : Ref sig .tc := ⟨.hbm, 23, rfl⟩
abbrev main_call0_v11 : Ref sig .tc := ⟨.hbm, 24, rfl⟩
abbrev main_call0_c_5 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst_6 : Ref sig .tc := ⟨.hbm, 29, rfl⟩
abbrev main_call0_v15 : Ref sig .tc := ⟨.hbm, 30, rfl⟩
abbrev main_call0_c_7 : Ref sig .tc := ⟨.hbm, 31, rfl⟩
abbrev main_call0_v16 : Ref sig .tc := ⟨.hbm, 32, rfl⟩
abbrev main_call0_c_8 : Ref sig .tc := ⟨.hbm, 33, rfl⟩
abbrev main_call0_v17 : Ref sig .tc := ⟨.hbm, 34, rfl⟩
abbrev main_call0_v18 : Ref sig .tc := ⟨.hbm, 35, rfl⟩
abbrev main_call0_v19 : Ref sig .tc := ⟨.hbm, 36, rfl⟩
abbrev main_call0_v20 : Ref sig .tc := ⟨.hbm, 37, rfl⟩
abbrev main_v0 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![60], ![false]⟩

def k0_cond1 (i : grid0.Coords) : BitVec 1 :=
  let arg0 : BitVec 32 := BitVec.ofNat 32 (i 0).val
  let c10_i32 : BitVec 32 := 10#32
  let v0 : BitVec 1 := Scalar.cmpi .slt arg0 c10_i32
  let v1 : BitVec 32 := Scalar.extui v0
  let c0_i32 : BitVec 32 := 0#32
  let v2 : BitVec 1 := Scalar.cmpi .ne v1 c0_i32
  v2

def k0_off1 (i : grid0.Coords) : Fin 2 → Nat :=
  let arg0 : BitVec 32 := BitVec.ofNat 32 (i 0).val
  let c10_i32_7 : BitVec 32 := 10#32
  let c0_i32_8 : BitVec 32 := 0#32
  let v17 : BitVec 1 := Scalar.cmpi .eq c10_i32_7 c0_i32_8
  let c1_i32 : BitVec 32 := 1#32
  let v18 : BitVec 32 := Scalar.select v17 c1_i32 c10_i32_7
  let v19 : BitVec 32 := Scalar.remsi arg0 v18
  let c0_i32_10 : BitVec 32 := 0#32
  let v21 : BitVec 1 := Scalar.cmpi .slt v19 c0_i32_10
  let c0_i32_11 : BitVec 32 := 0#32
  let v22 : BitVec 1 := Scalar.cmpi .slt v18 c0_i32_11
  let v23 : BitVec 1 := Scalar.xori v21 v22
  let c0_i32_9 : BitVec 32 := 0#32
  let v20 : BitVec 1 := Scalar.cmpi .ne v19 c0_i32_9
  let v24 : BitVec 1 := Scalar.andi v23 v20
  let v25 : BitVec 32 := Scalar.addi v19 v18
  let v26 : BitVec 32 := Scalar.select v24 v25 v19
  let c1000_i32 : BitVec 32 := 1000#32
  let v27 : BitVec 32 := Scalar.muli v26 c1000_i32
  let v28 : Index := Scalar.indexCast v27
  let c0_12 : Index := 0#32
  ![v28.toNat, 0]
def k0_cond2 (i : grid0.Coords) : BitVec 1 :=
  let arg0 : BitVec 32 := BitVec.ofNat 32 (i 0).val
  let c10_i32_0 : BitVec 32 := 10#32
  let v3 : BitVec 1 := Scalar.cmpi .sge arg0 c10_i32_0
  let c35_i32 : BitVec 32 := 35#32
  let v4 : BitVec 1 := Scalar.cmpi .slt arg0 c35_i32
  let v5 : BitVec 1 := Scalar.andi v3 v4
  let v6 : BitVec 32 := Scalar.extui v5
  let c0_i32_1 : BitVec 32 := 0#32
  let v7 : BitVec 1 := Scalar.cmpi .ne v6 c0_i32_1
  v7

def k0_off2 (i : grid0.Coords) : Fin 2 → Nat :=
  let arg0 : BitVec 32 := BitVec.ofNat 32 (i 0).val
  let c10_i32_26 : BitVec 32 := 10#32
  let v43 : BitVec 32 := Scalar.subi arg0 c10_i32_26
  let c25_i32 : BitVec 32 := 25#32
  let c0_i32_27 : BitVec 32 := 0#32
  let v44 : BitVec 1 := Scalar.cmpi .eq c25_i32 c0_i32_27
  let c1_i32 : BitVec 32 := 1#32
  let v45 : BitVec 32 := Scalar.select v44 c1_i32 c25_i32
  let v46 : BitVec 32 := Scalar.remsi v43 v45
  let c0_i32_29 : BitVec 32 := 0#32
  let v48 : BitVec 1 := Scalar.cmpi .slt v46 c0_i32_29
  let c0_i32_30 : BitVec 32 := 0#32
  let v49 : BitVec 1 := Scalar.cmpi .slt v45 c0_i32_30
  let v50 : BitVec 1 := Scalar.xori v48 v49
  let c0_i32_28 : BitVec 32 := 0#32
  let v47 : BitVec 1 := Scalar.cmpi .ne v46 c0_i32_28
  let v51 : BitVec 1 := Scalar.andi v50 v47
  let v52 : BitVec 32 := Scalar.addi v46 v45
  let v53 : BitVec 32 := Scalar.select v51 v52 v46
  let c400_i32 : BitVec 32 := 400#32
  let v54 : BitVec 32 := Scalar.muli v53 c400_i32
  let v55 : Index := Scalar.indexCast v54
  let c0_31 : Index := 0#32
  ![v55.toNat, 0]
def k0_cond3 (i : grid0.Coords) : BitVec 1 :=
  let arg0 : BitVec 32 := BitVec.ofNat 32 (i 0).val
  let c35_i32_2 : BitVec 32 := 35#32
  let v8 : BitVec 1 := Scalar.cmpi .sge arg0 c35_i32_2
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let c9_i32 : BitVec 32 := 9#32
  let v0 : BitVec 32 := Scalar.minsi arg0 c9_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c10_i32 : BitVec 32 := 10#32
  let v0 : BitVec 1 := Scalar.cmpi .slt arg0 c10_i32
  let c35_i32 : BitVec 32 := 35#32
  let v1 : BitVec 1 := Scalar.cmpi .slt arg0 c35_i32
  let c10_i32_0 : BitVec 32 := 10#32
  let v2 : BitVec 32 := Scalar.subi arg0 c10_i32_0
  let c35_i32_1 : BitVec 32 := 35#32
  let v3 : BitVec 32 := Scalar.subi arg0 c35_i32_1
  let v4 : BitVec 32 := Scalar.select v1 v2 v3
  let c0_i32 : BitVec 32 := 0#32
  let v5 : BitVec 32 := Scalar.select v0 c0_i32 v4
  let c0_i32_2 : BitVec 32 := 0#32
  let c0_i32_3 : BitVec 32 := 0#32
  ![v5.toNat, c0_i32_2.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c35_i32 : BitVec 32 := 35#32
  let v0 : BitVec 32 := Scalar.subi arg0 c35_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S1000x1433 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1433x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x10000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S400x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S1433x512 : S_.BroadcastsInDim S1433x512 (![] : Fin 0 → Fin S1433x512.rank)
  bitsLt_bf16_f32 : FTy.bits .bf16 < FTy.bits .f32
  bcast_S_S1 : S_.BroadcastsInDim S1 (![] : Fin 0 → Fin S1.rank)
  bcast_S_S1x512 : S_.BroadcastsInDim S1x512 (![] : Fin 0 → Fin S1x512.rank)
  concatenates_S1_S1_S2_d0 : Shape.Concatenates [S1, S1] S2 0
  bcast_S_S512x128 : S_.BroadcastsInDim S512x128 (![] : Fin 0 → Fin S512x128.rank)
  bcast_S_S1x128 : S_.BroadcastsInDim S1x128 (![] : Fin 0 → Fin S1x128.rank)
  slices_S10000x128_S10000x7_0_0 : S10000x128.Slices ![0, 0] S10000x7
  inb_S1000x1433_S1000x1433_0_0 : ∀ a, (![0, 0] : Fin 2 → Nat) a + S1000x1433.size a ≤ S1000x1433.size a
  h_S1000x1433 : 0 < S1000x1433.numel
  inb_S1433x512_S1433x512_0_0 : ∀ a, (![0, 0] : Fin 2 → Nat) a + S1433x512.size a ≤ S1433x512.size a
  h_S1433x512 : 0 < S1433x512.numel
  shapeCasts_S1433x512_S1433x512 : S1433x512.ShapeCasts S1433x512
  h_S1000x512 : 0 < S1000x512.numel
  shapeCasts_S1000x512_S1000x512 : S1000x512.ShapeCasts S1000x512
  inb_S400x10000_S400x2500_0_0 : ∀ a, (![0, 0] : Fin 2 → Nat) a + S400x2500.size a ≤ S400x10000.size a
  h_S400x2500 : 0 < S400x2500.numel
  inb_S10000x512_S2500x512_0_0 : ∀ a, (![0, 0] : Fin 2 → Nat) a + S2500x512.size a ≤ S10000x512.size a
  h_S2500x512 : 0 < S2500x512.numel
  inb_S400x10000_S400x2500_0_2500 : ∀ a, (![0, 2500] : Fin 2 → Nat) a + S400x2500.size a ≤ S400x10000.size a
  inb_S10000x512_S2500x512_2500_0 : ∀ a, (![2500, 0] : Fin 2 → Nat) a + S2500x512.size a ≤ S10000x512.size a
  inb_S400x10000_S400x2500_0_5000 : ∀ a, (![0, 5000] : Fin 2 → Nat) a + S400x2500.size a ≤ S400x10000.size a
  inb_S10000x512_S2500x512_5000_0 : ∀ a, (![5000, 0] : Fin 2 → Nat) a + S2500x512.size a ≤ S10000x512.size a
  inb_S400x10000_S400x2500_0_7500 : ∀ a, (![0, 7500] : Fin 2 → Nat) a + S400x2500.size a ≤ S400x10000.size a
  inb_S10000x512_S2500x512_7500_0 : ∀ a, (![7500, 0] : Fin 2 → Nat) a + S2500x512.size a ≤ S10000x512.size a
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S400x512 : S1x512.Broadcasts S400x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  h_S400x128 : 0 < S400x128.numel
  shapeCasts_S400x128_S400x128 : S400x128.ShapeCasts S400x128
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  scatter_S1433x512_S1_S1433x500_01_n_1_0_wf : ScatterDims.WF S1433x512 S1 S1433x500 [0, 1] [] [1] 0
  scatter_S1x512_S2_S500_0_0_01_0_wf : ScatterDims.WF S1x512 S2 S500 [0] [0] [0, 1] 0
  scatter_S512x128_S2_S500x7_01_n_01_0_wf : ScatterDims.WF S512x128 S2 S500x7 [0, 1] [] [0, 1] 0
  scatter_S1x128_S2_S7_0_0_01_0_wf : ScatterDims.WF S1x128 S2 S7 [0] [0] [0, 1] 0
  dot_S1000x1433_S1433x512_S1000x512_1_0_0_1_n_n_wf : DotDims.WF S1000x1433 S1433x512 S1000x512 [1] [0] [0] [1] [] []
  dot_S400x2500_S2500x512_S400x512_1_0_0_1_n_n_wf : DotDims.WF S400x2500 S2500x512 S400x512 [1] [0] [0] [1] [] []
  dot_S400x512_S512x128_S400x128_1_0_0_1_n_n_wf : DotDims.WF S400x512 S512x128 S400x128 [1] [0] [0] [1] [] []
  dot_S400x10000_S10000x128_S400x128_1_0_0_1_n_n_wf : DotDims.WF S400x10000 S10000x128 S400x128 [1] [0] [0] [1] [] []
  hrank0 : 0 < grid0.rank
  k0_off1_inb : ∀ i : grid0.Coords, ∀ (k0_h1 : k0_cond1 i = 1#1), ∀ a, (k0_off1 i) a + S1000x512.size a ≤ S10000x512.size a
  k0_off1_packedbf16 : ∀ i : grid0.Coords, ∀ (k0_h1 : k0_cond1 i = 1#1), (Rect.unit (s := S10000x512) (k0_off1 i) S1000x512.size (k0_off1_inb i k0_h1)).PackedRows (EltTy.packing .bf16)
  k0_off2_inb : ∀ i : grid0.Coords, ∀ (k0_h2 : k0_cond2 i = 1#1), ∀ a, (k0_off2 i) a + S400x128.size a ≤ S10000x128.size a
  k0_off2_packedbf16 : ∀ i : grid0.Coords, ∀ (k0_h2 : k0_cond2 i = 1#1), (Rect.unit (s := S10000x128) (k0_off2 i) S400x128.size (k0_off2_inb i k0_h2)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1433.size a ≤ S10000x1433.size a
  hwx0_0 : ∀ i : grid0.Coords, EltTy.bits .f32 = 32 ∨ (Rect.block (s := S10000x1433) S1000x1433.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1433x512.size a ≤ S1433x512.size a
  hwx0_1 : ∀ i : grid0.Coords, EltTy.bits .bf16 = 32 ∨ (Rect.block (s := S1433x512) S1433x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S512x128.size a
  hwx0_3 : ∀ i : grid0.Coords, EltTy.bits .bf16 = 32 ∨ (Rect.block (s := S512x128) S512x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x10000.size a ≤ S10000x10000.size a
  hwx0_4 : ∀ i : grid0.Coords, EltTy.bits .f32 = 32 ∨ (Rect.block (s := S10000x10000) S400x10000.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x128.size a ≤ S10000x128.size a
  hwx0_6 : ∀ i : grid0.Coords, EltTy.bits .f32 = 32 ∨ (Rect.block (s := S10000x128) S400x128.size (cc0_transform_6 i) (hinb0_6 i)).WholeWords (EltTy.packing .f32)

variable [Facts₀]

def scatter_S1433x512_S1_S1433x500_01_n_1_0 : ScatterDims S1433x512 S1 S1433x500 where
  updateWindowDims := [0, 1]
  insertedWindowDims := []
  scatterDimsToOperandDims := [1]
  indexVectorDim := 0
  wf := scatter_S1433x512_S1_S1433x500_01_n_1_0_wf
def scatter_S1x512_S2_S500_0_0_01_0 : ScatterDims S1x512 S2 S500 where
  updateWindowDims := [0]
  insertedWindowDims := [0]
  scatterDimsToOperandDims := [0, 1]
  indexVectorDim := 0
  wf := scatter_S1x512_S2_S500_0_0_01_0_wf
def scatter_S512x128_S2_S500x7_01_n_01_0 : ScatterDims S512x128 S2 S500x7 where
  updateWindowDims := [0, 1]
  insertedWindowDims := []
  scatterDimsToOperandDims := [0, 1]
  indexVectorDim := 0
  wf := scatter_S512x128_S2_S500x7_01_n_01_0_wf
def scatter_S1x128_S2_S7_0_0_01_0 : ScatterDims S1x128 S2 S7 where
  updateWindowDims := [0]
  insertedWindowDims := [0]
  scatterDimsToOperandDims := [0, 1]
  indexVectorDim := 0
  wf := scatter_S1x128_S2_S7_0_0_01_0_wf
def dot_S1000x1433_S1433x512_S1000x512_1_0_0_1_n_n : DotDims S1000x1433 S1433x512 S1000x512 where
  lhsContracting := [1]
  rhsContracting := [0]
  lhsNonContracting := [0]
  rhsNonContracting := [1]
  lhsBatch := []
  rhsBatch := []
  wf := dot_S1000x1433_S1433x512_S1000x512_1_0_0_1_n_n_wf
def dot_S400x2500_S2500x512_S400x512_1_0_0_1_n_n : DotDims S400x2500 S2500x512 S400x512 where
  lhsContracting := [1]
  rhsContracting := [0]
  lhsNonContracting := [0]
  rhsNonContracting := [1]
  lhsBatch := []
  rhsBatch := []
  wf := dot_S400x2500_S2500x512_S400x512_1_0_0_1_n_n_wf
def dot_S400x512_S512x128_S400x128_1_0_0_1_n_n : DotDims S400x512 S512x128 S400x128 where
  lhsContracting := [1]
  rhsContracting := [0]
  lhsNonContracting := [0]
  rhsNonContracting := [1]
  lhsBatch := []
  rhsBatch := []
  wf := dot_S400x512_S512x128_S400x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_arg0) S1000x1433.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v3) S1433x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v8) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v14) S512x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S400x10000.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v19) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v20) S400x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond3 i == 1#1) | ⟨_ + 7, h⟩ => absurd h (Nat.not_lt.2 (Nat.le_add_left _ _))

class Facts : Prop extends Facts₀ where

variable [Facts]
-- ==== ReferenceIdeal.lean ====
abbrev S10000x1433 : Shape := ⟨2, ![10000, 1433]⟩
abbrev S10000x10000 : Shape := ⟨2, ![10000, 10000]⟩
abbrev S1433x500 : Shape := ⟨2, ![1433, 500]⟩
abbrev S500 : Shape := ⟨1, ![500]⟩
abbrev S500x7 : Shape := ⟨2, ![500, 7]⟩
abbrev S7 : Shape := ⟨1, ![7]⟩
abbrev S10000x500 : Shape := ⟨2, ![10000, 500]⟩
abbrev S1x500 : Shape := ⟨2, ![1, 500]⟩
abbrev S_ : Shape := ⟨0, ![]⟩
abbrev S10000x7 : Shape := ⟨2, ![10000, 7]⟩
abbrev S1x7 : Shape := ⟨2, ![1, 7]⟩

abbrev nBuf : Space → Nat
  | .hbm => 19
  | .vmem => 0
  | .smem => 0
  | _ => 0

abbrev bufTy : (tb : Table) → Fin (tcTables nBuf tb) → BufTy
  | .hbm, ⟨0, _⟩ => ⟨S10000x1433, .f32⟩
  | .hbm, ⟨1, _⟩ => ⟨S10000x10000, .f32⟩
  | .hbm, ⟨2, _⟩ => ⟨S1433x500, .f32⟩
  | .hbm, ⟨3, _⟩ => ⟨S500, .f32⟩
  | .hbm, ⟨4, _⟩ => ⟨S500x7, .f32⟩
  | .hbm, ⟨5, _⟩ => ⟨S7, .f32⟩
  | .hbm, ⟨6, _⟩ => ⟨S10000x500, .f32⟩
  | .hbm, ⟨7, _⟩ => ⟨S10000x500, .f32⟩
  | .hbm, ⟨8, _⟩ => ⟨S1x500, .f32⟩
  | .hbm, ⟨9, _⟩ => ⟨S10000x500, .f32⟩
  | .hbm, ⟨10, _⟩ => ⟨S10000x500, .f32⟩
  | .hbm, ⟨11, _⟩ => ⟨S_, .f32⟩
  | .hbm, ⟨12, _⟩ => ⟨S10000x500, .f32⟩
  | .hbm, ⟨13, _⟩ => ⟨S10000x500, .f32⟩
  | .hbm, ⟨14, _⟩ => ⟨S10000x7, .f32⟩
  | .hbm, ⟨15, _⟩ => ⟨S10000x7, .f32⟩
  | .hbm, ⟨16, _⟩ => ⟨S1x7, .f32⟩
  | .hbm, ⟨17, _⟩ => ⟨S10000x7, .f32⟩
  | .hbm, ⟨18, _⟩ => ⟨S10000x7, .f32⟩
  | _, _ => ⟨S10000x1433, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  bcast_S500_S1x500_1 : S500.BroadcastsInDim S1x500 (![1] : Fin 1 → Fin S1x500.rank)
  bcast_S1x500_S10000x500_0_1 : S1x500.BroadcastsInDim S10000x500 (![0, 1] : Fin 2 → Fin S10000x500.rank)
  bcast_S_S10000x500 : S_.BroadcastsInDim S10000x500 (![] : Fin 0 → Fin S10000x500.rank)
  bcast_S7_S1x7_1 : S7.BroadcastsInDim S1x7 (![1] : Fin 1 → Fin S1x7.rank)
  bcast_S1x7_S10000x7_0_1 : S1x7.BroadcastsInDim S10000x7 (![0, 1] : Fin 2 → Fin S10000x7.rank)
  dot_S10000x1433_S1433x500_S10000x500_1_0_0_1_n_n_wf : DotDims.WF S10000x1433 S1433x500 S10000x500 [1] [0] [0] [1] [] []
  dot_S10000x10000_S10000x500_S10000x500_1_0_0_1_n_n_wf : DotDims.WF S10000x10000 S10000x500 S10000x500 [1] [0] [0] [1] [] []
  dot_S10000x500_S500x7_S10000x7_1_0_0_1_n_n_wf : DotDims.WF S10000x500 S500x7 S10000x7 [1] [0] [0] [1] [] []
  dot_S10000x10000_S10000x7_S10000x7_1_0_0_1_n_n_wf : DotDims.WF S10000x10000 S10000x7 S10000x7 [1] [0] [0] [1] [] []

variable [Facts₀]

def dot_S10000x1433_S1433x500_S10000x500_1_0_0_1_n_n : DotDims S10000x1433 S1433x500 S10000x500 where
  lhsContracting := [1]
  rhsContracting := [0]
  lhsNonContracting := [0]
  rhsNonContracting := [1]
  lhsBatch := []
  rhsBatch := []
  wf := dot_S10000x1433_S1433x500_S10000x500_1_0_0_1_n_n_wf
def dot_S10000x10000_S10000x500_S10000x500_1_0_0_1_n_n : DotDims S10000x10000 S10000x500 S10000x500 where
  lhsContracting := [1]
  rhsContracting := [0]
  lhsNonContracting := [0]
  rhsNonContracting := [1]
  lhsBatch := []
  rhsBatch := []
  wf := dot_S10000x10000_S10000x500_S10000x500_1_0_0_1_n_n_wf
def dot_S10000x500_S500x7_S10000x7_1_0_0_1_n_n : DotDims S10000x500 S500x7 S10000x7 where
  lhsContracting := [1]
  rhsContracting := [0]
  lhsNonContracting := [0]
  rhsNonContracting := [1]
  lhsBatch := []
  rhsBatch := []
  wf := dot_S10000x500_S500x7_S10000x7_1_0_0_1_n_n_wf
def dot_S10000x10000_S10000x7_S10000x7_1_0_0_1_n_n : DotDims S10000x10000 S10000x7 S10000x7 where
  lhsContracting := [1]
  rhsContracting := [0]
  lhsNonContracting := [0]
  rhsNonContracting := [1]
  lhsBatch := []
  rhsBatch := []
  wf := dot_S10000x10000_S10000x7_S10000x7_1_0_0_1_n_n_wf

class Facts : Prop extends Facts₀ where

variable [Facts]
-- ==== Proof.RunsK.lean ====
import proofs.«139825_g28415503630501_cont_9to1_332_19_alg».proof.Proof.Gen.Kernel.Frame
import proofs.«139825_g28415503630501_cont_9to1_332_19_alg».proof.Proof.Gen.Kernel.Skeleton
import Idealize.ShloMosaic.Lib.WritesUnit
import Idealize.ShloMosaic.Lib.Pipeline.Value
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The kernel body, phase by phase, on any whole staging memrefs

Each phase reads its input blocks, and one scratch array, and overwrites a band of rows of a scratch array (phases one
and two) or the result's block (phase three). The three theorems below run the printed body in each phase and name
what it leaves: the scratch array with the band overwritten by the phase's payload, everything else as it was. -/

theorem hz : (![0, 0] : Fin 2 → Nat) = fun _ => 0 := funext fun a => by fin_cases a <;> rfl

/-- One store through the whole-shape rectangle at zero offsets leaves its payload, whatever the buffer held. -/
theorem read_writes_unit_zero {sig' : RefSig} {κ : Kind} {sp : Space} {S : Shape} {e : EltTy} {Val : EltTy → Type}
    (v : View sig' κ sp S e) (f : v.ty.Contents Val) {off : Fin S.rank → ℕ} (h : off = fun _ => 0)
    (inb : ∀ a, off a + S.size a ≤ S.size a) (w : (Rect.unit off S.size inb).shape.Idx → Val e) :
    v.read Val (v.writes Val f [⟨Rect.unit off S.size inb, w⟩]) = w := by
  funext y
  exact View.read_writes_cons_unit_of_mem v f inb w [] y y h (fun a => by show (y a).val = 0 + (y a).val; omega)

/-- Phase one's band of the first scratch array: rows `off … off + 1000` overwritten by the product of the block of `x`
    with the padded first weight matrix, the other rows as they were. -/
def newA (i : grid0.Coords) (h1 : k0_cond1 i = 1#1) (arg8 : Memref sig .tc .vmem S10000x512 .bf16) (harg8 : arg8.IsWhole)
    (x1 : Vec F S1000x1433 .f32) (x2 : Vec F S1433x512 .bf16) (x8 : Vec F S10000x512 .bf16) : Vec F S10000x512 .bf16 :=
  arg8.view.read (Elt F) (arg8.view.writes (Elt F) (harg8.unread x8)
    [⟨Rect.unit (s := S10000x512) (k0_off1 i) S1000x512.size (k0_off1_inb i h1), k0_pay1 x1 x2⟩])

/-- Phase two's payload: the block of 400 rows of the adjacency matrix against the first scratch array, four runs of
    2500 nodes one after another, plus the bias, rectified, times the padded second weight matrix. -/
def payB (x3 : Vec F S1x512 .f32) (x4 : Vec F S512x128 .bf16) (x5 : Vec F S400x10000 .f32) (x8 : Vec F S10000x512 .bf16) :
    FVec F S400x128 .bf16 :=
  k0_pay2 (k0_pay4 (View.ld x5 (Rect.unit (s := S400x10000) ![0, 0] S400x2500.size inb_S400x10000_S400x2500_0_0))
    (View.ld x8 (Rect.unit (s := S10000x512) ![0, 0] S2500x512.size inb_S10000x512_S2500x512_0_0))
    (View.ld x5 (Rect.unit (s := S400x10000) ![0, 2500] S400x2500.size inb_S400x10000_S400x2500_0_2500))
    (View.ld x8 (Rect.unit (s := S10000x512) ![2500, 0] S2500x512.size inb_S10000x512_S2500x512_2500_0))
    (View.ld x5 (Rect.unit (s := S400x10000) ![0, 5000] S400x2500.size inb_S400x10000_S400x2500_0_5000))
    (View.ld x8 (Rect.unit (s := S10000x512) ![5000, 0] S2500x512.size inb_S10000x512_S2500x512_5000_0))
    (View.ld x5 (Rect.unit (s := S400x10000) ![0, 7500] S400x2500.size inb_S400x10000_S400x2500_0_7500))
    (View.ld x8 (Rect.unit (s := S10000x512) ![7500, 0] S2500x512.size inb_S10000x512_S2500x512_7500_0))
    x3 x4)

/-- Phase two's band of the second scratch array. -/
def newB (i : grid0.Coords) (h2 : k0_cond2 i = 1#1) (arg9 : Memref sig .tc .vmem S10000x128 .bf16) (harg9 : arg9.IsWhole)
    (x3 : Vec F S1x512 .f32) (x4 : Vec F S512x128 .bf16) (x5 : Vec F S400x10000 .f32) (x8 : Vec F S10000x512 .bf16)
    (x9 : Vec F S10000x128 .bf16) : Vec F S10000x128 .bf16 :=
  arg9.view.read (Elt F) (arg9.view.writes (Elt F) (harg9.unread x9)
    [⟨Rect.unit (s := S10000x128) (k0_off2 i) S400x128.size (k0_off2_inb i h2), payB x3 x4 x5 x8⟩])

set_option maxHeartbeats 1000000 in
/-- Phase one. -/
theorem runA (c : Dev nD) (i : grid0.Coords) (arg1 : Memref sig .tc .vmem S1000x1433 .f32) (harg1 : arg1.IsWhole) (arg2 : Memref sig .tc .vmem S1433x512 .bf16) (harg2 : arg2.IsWhole) (arg3 : Memref sig .tc .vmem S1x512 .f32) (harg3 : arg3.IsWhole) (arg4 : Memref sig .tc .vmem S512x128 .bf16) (harg4 : arg4.IsWhole) (arg5 : Memref sig .tc .vmem S400x10000 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x512 .bf16) (harg8 : arg8.IsWhole) (arg9 : Memref sig .tc .vmem S10000x128 .bf16) (harg9 : arg9.IsWhole)
    (hc1 : k0_cond1 i = 1#1) (hc2 : ¬ k0_cond2 i = 1#1) (hc3 : ¬ k0_cond3 i = 1#1)
    (x1 : Vec F S1000x1433 .f32) (x2 : Vec F S1433x512 .bf16) (x8 : Vec F S10000x512 .bf16) (E : Set ℕ) (K : PUnit → sProp 𝕄) :
    iprop(owns (c : Thread nD τ) arg1 fullShare x1 ∗ owns (c : Thread nD τ) arg2 fullShare x2 ∗ owns (c : Thread nD τ) arg8 fullShare x8
        ∗ (iprop(owns (c : Thread nD τ) arg1 fullShare x1 ∗ owns (c : Thread nD τ) arg2 fullShare x2
            ∗ owns (c : Thread nD τ) arg8 fullShare (newA i hc1 arg8 harg8 x1 x2 x8)) -∗ K ⟨⟩))
      ⊢ wp frame (wpE (defs₀ (F := F)) Variants.none c none) E (cc0__gcn_kernel i arg1 harg1 arg2 harg2 arg3 harg3 arg4 harg4 arg5 harg5 arg6 harg6 arg7 harg7 arg8 harg8 arg9 harg9) K := by
  simp only [cc0__gcn_kernel_eq_skeleton]; unfold cc0__gcn_kernel_skel
  unfold owns
  iintro ⟨⟨%f1, %hf1, H1⟩, ⟨%f2, %hf2, H2⟩, ⟨%f8, %hf8, H8⟩, Hk⟩
  obtain rfl := harg1.eq_unread hf1; obtain rfl := harg2.eq_unread hf2; obtain rfl := harg8.eq_unread hf8
  sl_exec (disch := first | exact hc1 | exact hc2 | exact hc3)
  sl_step
  iapply Hk
  isplitl [H1]
  · iexists _; isplitr; · ipureintro; exact harg1.read_unread _
    iexact H1
  isplitl [H2]
  · iexists _; isplitr; · ipureintro; exact harg2.read_unread _
    iexact H2
  iexists _; isplitr
  swap; · iexact H8
  ipureintro
  unfold newA
  simp only [View.readAt_eq_ld, Memref.IsWhole.read_unread, View.ld_unit_zero (S := S1000x1433) hz, View.ld_unit_zero (S := S1433x512) hz]

set_option maxHeartbeats 1000000 in
/-- Phase two. -/
theorem runB (c : Dev nD) (i : grid0.Coords) (arg1 : Memref sig .tc .vmem S1000x1433 .f32) (harg1 : arg1.IsWhole) (arg2 : Memref sig .tc .vmem S1433x512 .bf16) (harg2 : arg2.IsWhole) (arg3 : Memref sig .tc .vmem S1x512 .f32) (harg3 : arg3.IsWhole) (arg4 : Memref sig .tc .vmem S512x128 .bf16) (harg4 : arg4.IsWhole) (arg5 : Memref sig .tc .vmem S400x10000 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x512 .bf16) (harg8 : arg8.IsWhole) (arg9 : Memref sig .tc .vmem S10000x128 .bf16) (harg9 : arg9.IsWhole)
    (hc1 : ¬ k0_cond1 i = 1#1) (hc2 : k0_cond2 i = 1#1) (hc3 : ¬ k0_cond3 i = 1#1)
    (x3 : Vec F S1x512 .f32) (x4 : Vec F S512x128 .bf16) (x5 : Vec F S400x10000 .f32) (x8 : Vec F S10000x512 .bf16)
    (x9 : Vec F S10000x128 .bf16) (E : Set ℕ) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg8 fullShare x8 ∗ owns (c : Thread nD τ) arg9 fullShare x9
        ∗ (iprop(owns (c : Thread nD τ) arg3 fullShare x3 ∗ owns (c : Thread nD τ) arg4 fullShare x4 ∗ owns (c : Thread nD τ) arg5 fullShare x5
            ∗ owns (c : Thread nD τ) arg8 fullShare x8
            ∗ owns (c : Thread nD τ) arg9 fullShare (newB i hc2 arg9 harg9 x3 x4 x5 x8 x9)) -∗ K ⟨⟩))
      ⊢ wp frame (wpE (defs₀ (F := F)) Variants.none c none) E (cc0__gcn_kernel i arg1 harg1 arg2 harg2 arg3 harg3 arg4 harg4 arg5 harg5 arg6 harg6 arg7 harg7 arg8 harg8 arg9 harg9) K := by
  simp only [cc0__gcn_kernel_eq_skeleton]; unfold cc0__gcn_kernel_skel; simp only [k0_part1_eq_skeleton]; unfold k0_part1_skel
  unfold owns
  iintro ⟨⟨%f3, %hf3, H3⟩, ⟨%f4, %hf4, H4⟩, ⟨%f5, %hf5, H5⟩, ⟨%f8, %hf8, H8⟩, ⟨%f9, %hf9, H9⟩, Hk⟩
  obtain rfl := harg3.eq_unread hf3; obtain rfl := harg4.eq_unread hf4; obtain rfl := harg5.eq_unread hf5
  obtain rfl := harg8.eq_unread hf8; obtain rfl := harg9.eq_unread hf9
  sl_exec (disch := first | exact hc1 | exact hc2 | exact hc3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H8]
  · iexists _; isplitr; · ipureintro; exact harg8.read_unread _
    iexact H8
  iexists _; isplitr
  swap; · iexact H9
  ipureintro
  unfold newB payB
  simp only [View.readAt_eq_ld, Memref.IsWhole.read_unread, View.ld_unit_zero (S := S1x512) hz, View.ld_unit_zero (S := S512x128) hz]

set_option maxHeartbeats 1000000 in
/-- Phase three. -/
theorem runC (c : Dev nD) (i : grid0.Coords) (arg1 : Memref sig .tc .vmem S1000x1433 .f32) (harg1 : arg1.IsWhole) (arg2 : Memref sig .tc .vmem S1433x512 .bf16) (harg2 : arg2.IsWhole) (arg3 : Memref sig .tc .vmem S1x512 .f32) (harg3 : arg3.IsWhole) (arg4 : Memref sig .tc .vmem S512x128 .bf16) (harg4 : arg4.IsWhole) (arg5 : Memref sig .tc .vmem S400x10000 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x512 .bf16) (harg8 : arg8.IsWhole) (arg9 : Memref sig .tc .vmem S10000x128 .bf16) (harg9 : arg9.IsWhole)
    (hc1 : ¬ k0_cond1 i = 1#1) (hc2 : ¬ k0_cond2 i = 1#1) (hc3 : k0_cond3 i = 1#1)
    (x5 : Vec F S400x10000 .f32) (x6 : Vec F S1x128 .f32) (x7 : Vec F S400x128 .f32) (x9 : Vec F S10000x128 .bf16)
    (E : Set ℕ) (K : PUnit → sProp 𝕄) :
    iprop(owns (c : Thread nD τ) arg5 fullShare x5 ∗ owns (c : Thread nD τ) arg6 fullShare x6 ∗ owns (c : Thread nD τ) arg7 fullShare x7
        ∗ owns (c : Thread nD τ) arg9 fullShare x9
        ∗ (iprop(owns (c : Thread nD τ) arg5 fullShare x5 ∗ owns (c : Thread nD τ) arg6 fullShare x6
            ∗ owns (c : Thread nD τ) arg7 fullShare (k0_pay3 x5 x9 x6) ∗ owns (c : Thread nD τ) arg9 fullShare x9) -∗ K ⟨⟩))
      ⊢ wp frame (wpE (defs₀ (F := F)) Variants.none c none) E (cc0__gcn_kernel i arg1 harg1 arg2 harg2 arg3 harg3 arg4 harg4 arg5 harg5 arg6 harg6 arg7 harg7 arg8 harg8 arg9 harg9) K := by
  simp only [cc0__gcn_kernel_eq_skeleton]; unfold cc0__gcn_kernel_skel
  unfold owns
  iintro ⟨⟨%f5, %hf5, H5⟩, ⟨%f6, %hf6, H6⟩, ⟨%f7, %hf7, H7⟩, ⟨%f9, %hf9, H9⟩, Hk⟩
  obtain rfl := harg5.eq_unread hf5; obtain rfl := harg6.eq_unread hf6; obtain rfl := harg7.eq_unread hf7
  obtain rfl := harg9.eq_unread hf9
  sl_exec (disch := first | exact hc1 | exact hc2 | exact hc3)
  sl_step
  iapply Hk
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    rw [read_writes_unit_zero _ _ hz]
    simp only [View.readAt_eq_ld, Memref.IsWhole.read_unread, View.ld_unit_zero (S := S400x10000) hz, View.ld_unit_zero (S := S10000x128) hz, View.ld_unit_zero (S := S1x128) hz]
  iexists _; isplitr; · ipureintro; exact harg9.read_unread _
  iexact H9

end Cert.Kernel.Gen
end
-- ==== Proof.PhasesK.lean ====
import proofs.«139825_g28415503630501_cont_9to1_332_19_alg».proof.Proof.Gen.Kernel.Frame
import proofs.«139825_g28415503630501_cont_9to1_332_19_alg».proof.Proof.Gen.Kernel.Skeleton

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three phases over the grid, in closed form

The grid has 60 points. Points 0–9 multiply a block of 1000 rows of `x` by the padded first weight matrix and keep the
product in rows `1000·t …` of the first scratch array; points 10–34 aggregate a block of 400 rows of the adjacency
matrix against that array, add the bias, rectify, multiply by the padded second weight matrix and keep the product
in rows `400·(t − 10) …` of the second scratch array; points 35–59 aggregate the same block rows against the second
scratch array, add the second bias and store the block of the result. -/

theorem hcond1 : ∀ t : Fin cfg0.N, k0_cond1 (grid0.coords t) = 1#1 ↔ t.val < 10 :=
  (by decide +kernel : ∀ t : Fin grid0.N, k0_cond1 (grid0.coords t) = 1#1 ↔ t.val < 10)
theorem hcond2 : ∀ t : Fin cfg0.N, k0_cond2 (grid0.coords t) = 1#1 ↔ (10 ≤ t.val ∧ t.val < 35) :=
  (by decide +kernel : ∀ t : Fin grid0.N, k0_cond2 (grid0.coords t) = 1#1 ↔ (10 ≤ t.val ∧ t.val < 35))
theorem hcond3 : ∀ t : Fin cfg0.N, k0_cond3 (grid0.coords t) = 1#1 ↔ 35 ≤ t.val :=
  (by decide +kernel : ∀ t : Fin grid0.N, k0_cond3 (grid0.coords t) = 1#1 ↔ 35 ≤ t.val)

/-- In the first phase the rows stored are `1000·t …`. -/
theorem hoff1 : ∀ t : Fin cfg0.N, t.val < 10 → k0_off1 (grid0.coords t) = ![1000 * t.val, 0] :=
  (by decide +kernel : ∀ t : Fin grid0.N, t.val < 10 → k0_off1 (grid0.coords t) = ![1000 * t.val, 0])
/-- In the second phase the rows stored are `400·(t − 10) …`. -/
theorem hoff2 : ∀ t : Fin cfg0.N, 10 ≤ t.val → t.val < 35 → k0_off2 (grid0.coords t) = ![400 * (t.val - 10), 0] :=
  (by decide +kernel : ∀ t : Fin grid0.N, 10 ≤ t.val → t.val < 35 → k0_off2 (grid0.coords t) = ![400 * (t.val - 10), 0])

/-- The result's window is idle before the third phase, and its block is not written back there. -/
theorem idle6 : ∀ t : Fin cfg0.N, t.val < 35 → cfg0.idle 6 (grid0.coords t) = true :=
  (by decide +kernel : ∀ t : Fin grid0.N, t.val < 35 → cfg0.idle 6 (grid0.coords t) = true)
theorem live6 : ∀ t : Fin cfg0.N, 35 ≤ t.val → cfg0.idle 6 (grid0.coords t) = false :=
  (by decide +kernel : ∀ t : Fin grid0.N, 35 ≤ t.val → cfg0.idle 6 (grid0.coords t) = false)
theorem noFlush6 : ∀ t : Fin cfg0.N, t.val < 35 → (cfg0.win 6).flush t = false :=
  (by decide +kernel : ∀ t : Fin grid0.N, t.val < 35 → (cfg0.win 6).flush t = false)
theorem flush6 : ∀ t : Fin cfg0.N, 35 ≤ t.val → (cfg0.win 6).flush t = true :=
  (by decide +kernel : ∀ t : Fin grid0.N, 35 ≤ t.val → (cfg0.win 6).flush t = true)
/-- No input window is ever idle. -/
theorem liveIn : ∀ (w : Fin 7), w.val < 6 → ∀ t : Fin cfg0.N, cfg0.idle w (grid0.coords t) = false :=
  (by decide +kernel : ∀ (w : Fin 7), w.val < 6 → ∀ t : Fin grid0.N, cfg0.idle w (grid0.coords t) = false)

/-- The block indices of the windows that move: `x`'s block is `min t 9`, the adjacency matrix's block is `t − 10` in
    the second phase and `t − 35` in the third, the result's block is `t − 35` in the third phase. -/
theorem index0 : ∀ t : Fin cfg0.N, t.val < 10 → (cfg0.win 0).index t = ![t.val, 0] :=
  (by decide +kernel : ∀ t : Fin grid0.N, t.val < 10 → win0_0.index t = ![t.val, 0])
theorem index4B : ∀ t : Fin cfg0.N, 10 ≤ t.val → t.val < 35 → (cfg0.win 4).index t = ![t.val - 10, 0] :=
  (by decide +kernel : ∀ t : Fin grid0.N, 10 ≤ t.val → t.val < 35 → win0_4.index t = ![t.val - 10, 0])
theorem index4C : ∀ t : Fin cfg0.N, 35 ≤ t.val → (cfg0.win 4).index t = ![t.val - 35, 0] :=
  (by decide +kernel : ∀ t : Fin grid0.N, 35 ≤ t.val → win0_4.index t = ![t.val - 35, 0])
theorem index6C : ∀ t : Fin cfg0.N, 35 ≤ t.val → (cfg0.win 6).index t = ![t.val - 35, 0] :=
  (by decide +kernel : ∀ t : Fin grid0.N, 35 ≤ t.val → win0_6.index t = ![t.val - 35, 0])
theorem indexFixed : ∀ t : Fin cfg0.N, (cfg0.win 1).index t = ![0, 0] ∧ (cfg0.win 2).index t = ![0, 0] ∧ (cfg0.win 3).index t = ![0, 0] ∧ (cfg0.win 5).index t = ![0, 0] :=
  (by decide +kernel : ∀ t : Fin grid0.N, win0_1.index t = ![0, 0] ∧ win0_2.index t = ![0, 0] ∧ win0_3.index t = ![0, 0] ∧ win0_5.index t = ![0, 0])

end Cert.Kernel.Gen
end
-- ==== Proof.ScratchK.lean ====
import proofs.«139825_g28415503630501_cont_9to1_332_19_alg».proof.Proof.Gen.Kernel.Frame
import proofs.«139825_g28415503630501_cont_9to1_332_19_alg».proof.Proof.Gen.Kernel.Skeleton
import proofs.«139825_g28415503630501_cont_9to1_332_19_alg».proof.Proof.RunsK
import proofs.«139825_g28415503630501_cont_9to1_332_19_alg».proof.Proof.PhasesK
import Idealize.ShloMosaic.Lib.ValueIdx
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## What the two scratch arrays and the result's blocks hold

Row `r` of the first scratch array is written at point `r / 1000` (phase one), as row `r % 1000` of that point's
payload; row `r` of the second at point `10 + r / 400` (phase two), as row `r % 400` of that point's payload, which
reads the whole first scratch array; the result's block at a point of phase three is that point's payload, which
reads the whole second scratch array. -/

theorem N60 : cfg0.N = 60 := N_0

/-- The point of phase one that writes row `r` of the first scratch array. -/
def ptA (r : ℕ) (h : r < 10000) : Fin cfg0.N := ⟨r / 1000, by have : cfg0.N = 60 := N_0; omega⟩
/-- The point of phase two that writes row `r` of the second scratch array. -/
def ptB (r : ℕ) (h : r < 10000) : Fin cfg0.N := ⟨10 + r / 400, by have : cfg0.N = 60 := N_0; omega⟩

/-- The first scratch array once phase one is over: `x · W1p`, block of rows by block of rows. -/
def S1 (c : Dev nD) : Vec F S10000x512 .bf16 := fun y =>
  k0_pay1 (iblk m c 0 (ptA (y 0).val (idx2_lt0 y))) (iblk m c 1 (ptA (y 0).val (idx2_lt0 y)))
    (ix2 (⟨(y 0).val % 1000, Nat.mod_lt _ (by norm_num)⟩ : Fin 1000) (⟨(y 1).val, idx2_lt1 y⟩ : Fin 512))

/-- The second scratch array once phase two is over. -/
def S2 (c : Dev nD) : Vec F S10000x128 .bf16 := fun y =>
  payB (iblk m c 2 (ptB (y 0).val (idx2_lt0 y))) (iblk m c 3 (ptB (y 0).val (idx2_lt0 y)))
    (iblk m c 4 (ptB (y 0).val (idx2_lt0 y))) (S1 m c)
    (ix2 (⟨(y 0).val % 400, Nat.mod_lt _ (by norm_num)⟩ : Fin 400) (⟨(y 1).val, idx2_lt1 y⟩ : Fin 128))

/-- The result's block at a point of phase three. -/
def out6 (c : Dev nD) (t : Fin cfg0.N) : Vec F S400x128 .f32 := k0_pay3 (iblk m c 4 t) (S2 m c) (iblk m c 5 t)

/-- What is known of the scratch arrays before point `n`: the rows the points before `n` have written hold their
    final contents. -/
def Inv (c : Dev nD) (n : ℕ) (d8 : Vec F S10000x512 .bf16) (d9 : Vec F S10000x128 .bf16) : Prop :=
  (∀ y : S10000x512.Idx, (y 0).val < 1000 * min n 10 → d8 y = S1 m c y)
    ∧ (∀ y : S10000x128.Idx, (y 0).val < 400 * (min n 35 - 10) → d9 y = S2 m c y)

theorem Inv_zero (c : Dev nD) (d8 : Vec F S10000x512 .bf16) (d9 : Vec F S10000x128 .bf16) : Inv m c 0 d8 d9 :=
  ⟨fun y hy => absurd hy (by simp), fun y hy => absurd hy (by simp)⟩

/-- After phase one the first scratch array is `S1`. -/
theorem Inv.full1 {c : Dev nD} {n : ℕ} {d8 : Vec F S10000x512 .bf16} {d9 : Vec F S10000x128 .bf16} (h : Inv m c n d8 d9)
    (hn : 10 ≤ n) : d8 = S1 m c :=
  funext fun y => h.1 y (by have := idx2_lt0 y; omega)

/-- After phase two the second scratch array is `S2`. -/
theorem Inv.full2 {c : Dev nD} {n : ℕ} {d8 : Vec F S10000x512 .bf16} {d9 : Vec F S10000x128 .bf16} (h : Inv m c n d8 d9)
    (hn : 35 ≤ n) : d9 = S2 m c :=
  funext fun y => h.2 y (by have := idx2_lt0 y; omega)

/-- A point of phase one adds its band of rows to what is known of the first scratch array. -/
theorem Inv.stepA {c : Dev nD} (t : Fin cfg0.N) (ht : t.val < 10) (h1 : k0_cond1 (grid0.coords t) = 1#1)
    (arg8 : Memref sig .tc .vmem S10000x512 .bf16) (harg8 : arg8.IsWhole)
    {d8 : Vec F S10000x512 .bf16} {d9 : Vec F S10000x128 .bf16} (h : Inv m c t.val d8 d9) :
    Inv m c (t.val + 1) (newA (grid0.coords t) h1 arg8 harg8 (iblk m c 0 t) (iblk m c 1 t) d8) d9 := by
  refine ⟨fun y hy => ?_, fun y hy => h.2 y (by omega)⟩
  unfold newA
  rw [View.read_writes_cons_rows (o := 1000 * t.val) (W := 1000) _ _ (k0_off1_inb _ h1) _ [] y (hoff1 t ht) rfl rfl]
  split
  · next hmem =>
    have hpt : ptA (y 0).val (idx2_lt0 y) = t := Fin.ext (by show (y 0).val / 1000 = t.val; omega)
    unfold S1
    rw [hpt]
    congr 1
    funext a
    match a with
    | ⟨0, _⟩ => exact Fin.ext (by show (y 0).val - 1000 * t.val = (y 0).val % 1000; omega)
    | ⟨1, _⟩ => exact Fin.ext (by show (y 1).val - 0 = (y 1).val; omega)
  · next hmem =>
    rw [View.writes_nil, Memref.IsWhole.read_unread]
    exact h.1 y (by omega)

/-- A point of phase two adds its band of rows to what is known of the second scratch array. -/
theorem Inv.stepB {c : Dev nD} (t : Fin cfg0.N) (ht : 10 ≤ t.val) (ht' : t.val < 35) (h2 : k0_cond2 (grid0.coords t) = 1#1)
    (arg9 : Memref sig .tc .vmem S10000x128 .bf16) (harg9 : arg9.IsWhole)
    {d8 : Vec F S10000x512 .bf16} {d9 : Vec F S10000x128 .bf16} (h : Inv m c t.val d8 d9) :
    Inv m c (t.val + 1) d8 (newB (grid0.coords t) h2 arg9 harg9 (iblk m c 2 t) (iblk m c 3 t) (iblk m c 4 t) d8 d9) := by
  have hd8 : d8 = S1 m c := h.full1 m ht
  refine ⟨fun y hy => h.1 y (by omega), fun y hy => ?_⟩
  unfold newB
  rw [View.read_writes_cons_rows (o := 400 * (t.val - 10)) (W := 400) _ _ (k0_off2_inb _ h2) _ [] y (hoff2 t ht ht') rfl rfl]
  split
  · next hmem =>
    have hpt : ptB (y 0).val (idx2_lt0 y) = t := Fin.ext (by show 10 + (y 0).val / 400 = t.val; omega)
    unfold S2
    rw [hpt, hd8]
    congr 1
    funext a
    match a with
    | ⟨0, _⟩ => exact Fin.ext (by show (y 0).val - 400 * (t.val - 10) = (y 0).val % 400; omega)
    | ⟨1, _⟩ => exact Fin.ext (by show (y 1).val - 0 = (y 1).val; omega)
  · next hmem =>
    rw [View.writes_nil, Memref.IsWhole.read_unread]
    exact h.2 y (by omega)

/-- A point of phase three changes neither scratch array. -/
theorem Inv.stepC {c : Dev nD} (n : ℕ) (hn : 35 ≤ n) {d8 : Vec F S10000x512 .bf16} {d9 : Vec F S10000x128 .bf16}
    (h : Inv m c n d8 d9) : Inv m c (n + 1) d8 d9 :=
  ⟨fun y hy => h.1 y (by omega), fun y hy => h.2 y (by omega)⟩

end Cert.Kernel.Gen
end
-- ==== Proof.BodyK.lean ====
import proofs.«139825_g28415503630501_cont_9to1_332_19_alg».proof.Proof.Gen.Kernel.Frame
import proofs.«139825_g28415503630501_cont_9to1_332_19_alg».proof.Proof.Gen.Kernel.Skeleton
import proofs.«139825_g28415503630501_cont_9to1_332_19_alg».proof.Proof.ScratchK
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## The proof data of the pipeline, the body at every point, the run

The invariant carried from point to point holds the two scratch arrays at SOME contents of which the rows written so
far are known (`Inv`); the staging buffers of the inputs hold their blocks, and the result's staging buffer is left
alone until phase three, whose points store the block that is written back. -/

/-- Each window's current staging memref at point `t`, spelled as the pipeline passes it, and its wholeness. -/
abbrev ms0_0 (t : Fin cfg0.N) : Memref sig .tc .vmem S1000x1433 .f32 := win0_0.stage (cfg0.slots t 0)
abbrev ms0_1 (t : Fin cfg0.N) : Memref sig .tc .vmem S1433x512 .bf16 := win0_1.stage (cfg0.slots t 1)
abbrev ms0_2 (t : Fin cfg0.N) : Memref sig .tc .vmem S1x512 .f32 := win0_2.stage (cfg0.slots t 2)
abbrev ms0_3 (t : Fin cfg0.N) : Memref sig .tc .vmem S512x128 .bf16 := win0_3.stage (cfg0.slots t 3)
abbrev ms0_4 (t : Fin cfg0.N) : Memref sig .tc .vmem S400x10000 .f32 := win0_4.stage (cfg0.slots t 4)
abbrev ms0_5 (t : Fin cfg0.N) : Memref sig .tc .vmem S1x128 .f32 := win0_5.stage (cfg0.slots t 5)
abbrev ms0_6 (t : Fin cfg0.N) : Memref sig .tc .vmem S400x128 .f32 := win0_6.stage (cfg0.slots t 6)
/-- The two scratch arrays: whole scoped buffers of the kernel's own. -/
abbrev scM0 : Memref sig .tc .vmem S10000x512 .bf16 := Memref.whole cc0_scratch0
abbrev scM1 : Memref sig .tc .vmem S10000x128 .bf16 := Memref.whole cc0_scratch1

/-- What the launch hands the region: the two scratch arrays at some contents and the generator register. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- The invariant before point `n`. -/
def PhiS (c : Dev nD) (n : ℕ) : sProp 𝕄 :=
  iprop(iprop(∃ d8, ∃ d9, ⌜Inv m c n d8 d9⌝ ∗ owns (c : Thread nD τ) scM0 fullShare d8 ∗ owns (c : Thread nD τ) scM1 fullShare d9) ∗ (∃ r, prngReg c r))

/-- The proof data: the arrays as the region finds them; after the body each input's buffer at its block and the
    result's at the block phase three stores; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 m c t
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out6 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t)

theorem leaves_in (c : Dev nD) (t : Fin cfg0.N) (w : Fin 7) (hw : w.val < 6) :
    (dats m 0 c).leavesExact w t = owns (c : Thread nD τ) ((cfg0.win w).stage (cfg0.slots t w)) fullShare ((dats m 0 c).after w t) := by
  unfold Dat.leavesExact; rw [liveIn w hw t]

set_option maxHeartbeats 4800000 in
/-- The body at any point: the phase is read off the point (`by_cases`), the phase's run applies, and what is known of
    the scratch arrays grows by the band of rows the point wrote. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) from rfl,
    show (dats m 0 c).Φ t.castSucc = PhiS m c t.val from (by dsimp only [dats]; simp only [Fin.coe_castSucc])]
  rw [leaves_in m c t 0 (by decide), leaves_in m c t 1 (by decide), leaves_in m c t 2 (by decide),
    leaves_in m c t 3 (by decide), leaves_in m c t 4 (by decide), leaves_in m c t 5 (by decide),
    after0_0, after0_1, after0_2, after0_3, after0_4, after0_5]
  have hN : t.val < 60 := lt_of_lt_of_eq t.isLt N_0
  unfold PhiS
  by_cases hA : t.val < 10
  · have h1 : k0_cond1 (grid0.coords t) = 1#1 := (hcond1 t).mpr hA
    have h2 : ¬ k0_cond2 (grid0.coords t) = 1#1 := fun h => by have := (hcond2 t).mp h; omega
    have h3 : ¬ k0_cond3 (grid0.coords t) = 1#1 := fun h => by have := (hcond3 t).mp h; omega
    rw [Dat.leavesExact_idle (dats m 0 c) 6 t (idle6 t (by omega)) (noFlush6 t (by omega))]
    iintro ⟨⟨⟨%d8, %d9, %hinv, HS0, HS1⟩, Hg⟩, Ho, ⟨%e0, H0⟩, ⟨%e1, H1⟩, ⟨%e2, H2⟩, ⟨%e3, H3⟩, ⟨%e4, H4⟩, ⟨%e5, H5⟩, H6⟩
    iapply (runA c (grid0.coords t) _ _ _ _ _ _ _ _ _ _ _ _ _ _ _ _ _ _ h1 h2 h3 (iblk m c 0 t) (iblk m c 1 t) d8 Set.univ _)
    isplitl [H0]; · iexact H0
    isplitl [H1]; · iexact H1
    isplitl [HS0]; · iexact HS0
    iintro ⟨H0, H1, HS0⟩
    isplitl [HS0 HS1 Hg]
    · isplitl [HS0 HS1]
      · iexists _; iexists _; isplitr; · ipureintro; exact hinv.stepA m t hA h1 scM0 (Memref.isWhole_whole _)
        isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · by_cases hB : t.val < 35
    · have h1 : ¬ k0_cond1 (grid0.coords t) = 1#1 := fun h => by have := (hcond1 t).mp h; omega
      have h2 : k0_cond2 (grid0.coords t) = 1#1 := (hcond2 t).mpr ⟨by omega, hB⟩
      have h3 : ¬ k0_cond3 (grid0.coords t) = 1#1 := fun h => by have := (hcond3 t).mp h; omega
      rw [Dat.leavesExact_idle (dats m 0 c) 6 t (idle6 t (by omega)) (noFlush6 t (by omega))]
      iintro ⟨⟨⟨%d8, %d9, %hinv, HS0, HS1⟩, Hg⟩, Ho, ⟨%e0, H0⟩, ⟨%e1, H1⟩, ⟨%e2, H2⟩, ⟨%e3, H3⟩, ⟨%e4, H4⟩, ⟨%e5, H5⟩, H6⟩
      iapply (runB c (grid0.coords t) _ _ _ _ _ _ _ _ _ _ _ _ _ _ _ _ _ _ h1 h2 h3 (iblk m c 2 t) (iblk m c 3 t) (iblk m c 4 t) d8 d9 Set.univ _)
      isplitl [H2]; · iexact H2
      isplitl [H3]; · iexact H3
      isplitl [H4]; · iexact H4
      isplitl [HS0]; · iexact HS0
      isplitl [HS1]; · iexact HS1
      iintro ⟨H2, H3, H4, HS0, HS1⟩
      isplitl [HS0 HS1 Hg]
      · isplitl [HS0 HS1]
        · iexists _; iexists _; isplitr; · ipureintro; exact hinv.stepB m t (by omega) hB h2 scM1 (Memref.isWhole_whole _)
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have h1 : ¬ k0_cond1 (grid0.coords t) = 1#1 := fun h => by have := (hcond1 t).mp h; omega
      have h2 : ¬ k0_cond2 (grid0.coords t) = 1#1 := fun h => by have := (hcond2 t).mp h; omega
      have h3 : k0_cond3 (grid0.coords t) = 1#1 := (hcond3 t).mpr (by omega)
      rw [show (dats m 0 c).leavesExact 6 t = owns (c : Thread nD τ) (ms0_6 t) fullShare ((dats m 0 c).after 6 t) from by
        unfold Dat.leavesExact; rw [live6 t (by omega)], after0_6]
      unfold out6
      iintro ⟨⟨⟨%d8, %d9, %hinv, HS0, HS1⟩, Hg⟩, Ho, ⟨%e0, H0⟩, ⟨%e1, H1⟩, ⟨%e2, H2⟩, ⟨%e3, H3⟩, ⟨%e4, H4⟩, ⟨%e5, H5⟩, ⟨%e6, H6⟩⟩
      obtain rfl := hinv.full2 m (by omega)
      iapply (runC c (grid0.coords t) _ _ _ _ _ _ _ _ _ _ _ _ _ _ _ _ _ _ h1 h2 h3 (iblk m c 4 t) (iblk m c 5 t) _ (S2 m c) Set.univ _)
      isplitl [H4]; · iexact H4
      isplitl [H5]; · iexact H5
      isplitl [H6]; · iexact H6
      isplitl [HS1]; · iexact HS1
      iintro ⟨H4, H5, H6, HS1⟩
      isplitl [HS0 HS1 Hg]
      · isplitl [HS0 HS1]
        · iexists _; iexists _; isplitr; · ipureintro; exact hinv.stepC m _ (by omega)
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: nothing is known of the scratch arrays. -/
theorem hin (c : Dev nD) : Pipeline.ΦA spec0 c ⊢ (dats m 0 c).Φ 0 := by
  rw [show (dats m 0 c).Φ 0 = PhiS m c 0 from rfl, PhiA0_eq]
  unfold PhiS
  iintro ⟨⟨⟨%d8, H8⟩, ⟨%d9, H9⟩⟩, Hg⟩
  isplitl [H8 H9]
  · iexists d8; iexists d9; isplitr; · ipureintro; exact Inv_zero m c d8 d9
    isplitl [H8]; · iexact H8
    iexact H9
  iexact Hg

/-- After the last point the invariant gives the scratch arrays back at some contents. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS
  iintro ⟨⟨%d8, %d9, %hinv, H8, H9⟩, Hg⟩
  isplitl [H8 H9]
  · isplitl [H8]; · iexists _; iexact H8
    iexists _; iexact H9
  iexact Hg

set_option backward.isDefEq.respectTransparency.types false in
/-- Every weakly fair execution of @main terminates, every array of the pipeline ending at what the library computes
    from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end, faults nowhere and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Gen
end
-- ==== Proof.RunsI.lean ====
import proofs.«139825_g28415503630501_cont_9to1_332_19_alg».proof.Proof.Gen.KernelIdeal.Frame
import proofs.«139825_g28415503630501_cont_9to1_332_19_alg».proof.Proof.Gen.KernelIdeal.Skeleton
import Idealize.ShloMosaic.Lib.WritesUnit
import Idealize.ShloMosaic.Lib.Pipeline.Value
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The kernel body, phase by phase, on any whole staging memrefs

Each phase reads its input blocks, and one scratch array, and overwrites a band of rows of a scratch array (phases one
and two) or the result's block (phase three). The three theorems below run the printed body in each phase and name
what it leaves: the scratch array with the band overwritten by the phase's payload, everything else as it was. -/

theorem hz : (![0, 0] : Fin 2 → Nat) = fun _ => 0 := funext fun a => by fin_cases a <;> rfl

/-- One store through the whole-shape rectangle at zero offsets leaves its payload, whatever the buffer held. -/
theorem read_writes_unit_zero {sig' : RefSig} {κ : Kind} {sp : Space} {S : Shape} {e : EltTy} {Val : EltTy → Type}
    (v : View sig' κ sp S e) (f : v.ty.Contents Val) {off : Fin S.rank → ℕ} (h : off = fun _ => 0)
    (inb : ∀ a, off a + S.size a ≤ S.size a) (w : (Rect.unit off S.size inb).shape.Idx → Val e) :
    v.read Val (v.writes Val f [⟨Rect.unit off S.size inb, w⟩]) = w := by
  funext y
  exact View.read_writes_cons_unit_of_mem v f inb w [] y y h (fun a => by show (y a).val = 0 + (y a).val; omega)

/-- Phase one's band of the first scratch array: rows `off … off + 1000` overwritten by the product of the block of `x`
    with the padded first weight matrix, the other rows as they were. -/
def newA (i : grid0.Coords) (h1 : k0_cond1 i = 1#1) (arg8 : Memref sig .tc .vmem S10000x512 .bf16) (harg8 : arg8.IsWhole)
    (x1 : Vec F S1000x1433 .f32) (x2 : Vec F S1433x512 .bf16) (x8 : Vec F S10000x512 .bf16) : Vec F S10000x512 .bf16 :=
  arg8.view.read (Elt F) (arg8.view.writes (Elt F) (harg8.unread x8)
    [⟨Rect.unit (s := S10000x512) (k0_off1 i) S1000x512.size (k0_off1_inb i h1), k0_pay1 x1 x2⟩])

/-- Phase two's payload: the block of 400 rows of the adjacency matrix against the first scratch array, four runs of
    2500 nodes one after another, plus the bias, rectified, times the padded second weight matrix. -/
def payB (x3 : Vec F S1x512 .f32) (x4 : Vec F S512x128 .bf16) (x5 : Vec F S400x10000 .f32) (x8 : Vec F S10000x512 .bf16) :
    FVec F S400x128 .bf16 :=
  k0_pay2 (k0_pay4 (View.ld x5 (Rect.unit (s := S400x10000) ![0, 0] S400x2500.size inb_S400x10000_S400x2500_0_0))
    (View.ld x8 (Rect.unit (s := S10000x512) ![0, 0] S2500x512.size inb_S10000x512_S2500x512_0_0))
    (View.ld x5 (Rect.unit (s := S400x10000) ![0, 2500] S400x2500.size inb_S400x10000_S400x2500_0_2500))
    (View.ld x8 (Rect.unit (s := S10000x512) ![2500, 0] S2500x512.size inb_S10000x512_S2500x512_2500_0))
    (View.ld x5 (Rect.unit (s := S400x10000) ![0, 5000] S400x2500.size inb_S400x10000_S400x2500_0_5000))
    (View.ld x8 (Rect.unit (s := S10000x512) ![5000, 0] S2500x512.size inb_S10000x512_S2500x512_5000_0))
    (View.ld x5 (Rect.unit (s := S400x10000) ![0, 7500] S400x2500.size inb_S400x10000_S400x2500_0_7500))
    (View.ld x8 (Rect.unit (s := S10000x512) ![7500, 0] S2500x512.size inb_S10000x512_S2500x512_7500_0))
    x3 x4)

/-- Phase two's band of the second scratch array. -/
def newB (i : grid0.Coords) (h2 : k0_cond2 i = 1#1) (arg9 : Memref sig .tc .vmem S10000x128 .bf16) (harg9 : arg9.IsWhole)
    (x3 : Vec F S1x512 .f32) (x4 : Vec F S512x128 .bf16) (x5 : Vec F S400x10000 .f32) (x8 : Vec F S10000x512 .bf16)
    (x9 : Vec F S10000x128 .bf16) : Vec F S10000x128 .bf16 :=
  arg9.view.read (Elt F) (arg9.view.writes (Elt F) (harg9.unread x9)
    [⟨Rect.unit (s := S10000x128) (k0_off2 i) S400x128.size (k0_off2_inb i h2), payB x3 x4 x5 x8⟩])

set_option maxHeartbeats 1000000 in
/-- Phase one. -/
theorem runA (c : Dev nD) (i : grid0.Coords) (arg1 : Memref sig .tc .vmem S1000x1433 .f32) (harg1 : arg1.IsWhole) (arg2 : Memref sig .tc .vmem S1433x512 .bf16) (harg2 : arg2.IsWhole) (arg3 : Memref sig .tc .vmem S1x512 .f32) (harg3 : arg3.IsWhole) (arg4 : Memref sig .tc .vmem S512x128 .bf16) (harg4 : arg4.IsWhole) (arg5 : Memref sig .tc .vmem S400x10000 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x512 .bf16) (harg8 : arg8.IsWhole) (arg9 : Memref sig .tc .vmem S10000x128 .bf16) (harg9 : arg9.IsWhole)
    (hc1 : k0_cond1 i = 1#1) (hc2 : ¬ k0_cond2 i = 1#1) (hc3 : ¬ k0_cond3 i = 1#1)
    (x1 : Vec F S1000x1433 .f32) (x2 : Vec F S1433x512 .bf16) (x8 : Vec F S10000x512 .bf16) (E : Set ℕ) (K : PUnit → sProp 𝕄) :
    iprop(owns (c : Thread nD τ) arg1 fullShare x1 ∗ owns (c : Thread nD τ) arg2 fullShare x2 ∗ owns (c : Thread nD τ) arg8 fullShare x8
        ∗ (iprop(owns (c : Thread nD τ) arg1 fullShare x1 ∗ owns (c : Thread nD τ) arg2 fullShare x2
            ∗ owns (c : Thread nD τ) arg8 fullShare (newA i hc1 arg8 harg8 x1 x2 x8)) -∗ K ⟨⟩))
      ⊢ wp frame (wpE (defs₀ (F := F)) Variants.none c none) E (cc0__gcn_kernel i arg1 harg1 arg2 harg2 arg3 harg3 arg4 harg4 arg5 harg5 arg6 harg6 arg7 harg7 arg8 harg8 arg9 harg9) K := by
  simp only [cc0__gcn_kernel_eq_skeleton]; unfold cc0__gcn_kernel_skel
  unfold owns
  iintro ⟨⟨%f1, %hf1, H1⟩, ⟨%f2, %hf2, H2⟩, ⟨%f8, %hf8, H8⟩, Hk⟩
  obtain rfl := harg1.eq_unread hf1; obtain rfl := harg2.eq_unread hf2; obtain rfl := harg8.eq_unread hf8
  sl_exec (disch := first | exact hc1 | exact hc2 | exact hc3)
  sl_step
  iapply Hk
  isplitl [H1]
  · iexists _; isplitr; · ipureintro; exact harg1.read_unread _
    iexact H1
  isplitl [H2]
  · iexists _; isplitr; · ipureintro; exact harg2.read_unread _
    iexact H2
  iexists _; isplitr
  swap; · iexact H8
  ipureintro
  unfold newA
  simp only [View.readAt_eq_ld, Memref.IsWhole.read_unread, View.ld_unit_zero (S := S1000x1433) hz, View.ld_unit_zero (S := S1433x512) hz]

set_option maxHeartbeats 1000000 in
/-- Phase two. -/
theorem runB (c : Dev nD) (i : grid0.Coords) (arg1 : Memref sig .tc .vmem S1000x1433 .f32) (harg1 : arg1.IsWhole) (arg2 : Memref sig .tc .vmem S1433x512 .bf16) (harg2 : arg2.IsWhole) (arg3 : Memref sig .tc .vmem S1x512 .f32) (harg3 : arg3.IsWhole) (arg4 : Memref sig .tc .vmem S512x128 .bf16) (harg4 : arg4.IsWhole) (arg5 : Memref sig .tc .vmem S400x10000 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x512 .bf16) (harg8 : arg8.IsWhole) (arg9 : Memref sig .tc .vmem S10000x128 .bf16) (harg9 : arg9.IsWhole)
    (hc1 : ¬ k0_cond1 i = 1#1) (hc2 : k0_cond2 i = 1#1) (hc3 : ¬ k0_cond3 i = 1#1)
    (x3 : Vec F S1x512 .f32) (x4 : Vec F S512x128 .bf16) (x5 : Vec F S400x10000 .f32) (x8 : Vec F S10000x512 .bf16)
    (x9 : Vec F S10000x128 .bf16) (E : Set ℕ) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg8 fullShare x8 ∗ owns (c : Thread nD τ) arg9 fullShare x9
        ∗ (iprop(owns (c : Thread nD τ) arg3 fullShare x3 ∗ owns (c : Thread nD τ) arg4 fullShare x4 ∗ owns (c : Thread nD τ) arg5 fullShare x5
            ∗ owns (c : Thread nD τ) arg8 fullShare x8
            ∗ owns (c : Thread nD τ) arg9 fullShare (newB i hc2 arg9 harg9 x3 x4 x5 x8 x9)) -∗ K ⟨⟩))
      ⊢ wp frame (wpE (defs₀ (F := F)) Variants.none c none) E (cc0__gcn_kernel i arg1 harg1 arg2 harg2 arg3 harg3 arg4 harg4 arg5 harg5 arg6 harg6 arg7 harg7 arg8 harg8 arg9 harg9) K := by
  simp only [cc0__gcn_kernel_eq_skeleton]; unfold cc0__gcn_kernel_skel; simp only [k0_part1_eq_skeleton]; unfold k0_part1_skel
  unfold owns
  iintro ⟨⟨%f3, %hf3, H3⟩, ⟨%f4, %hf4, H4⟩, ⟨%f5, %hf5, H5⟩, ⟨%f8, %hf8, H8⟩, ⟨%f9, %hf9, H9⟩, Hk⟩
  obtain rfl := harg3.eq_unread hf3; obtain rfl := harg4.eq_unread hf4; obtain rfl := harg5.eq_unread hf5
  obtain rfl := harg8.eq_unread hf8; obtain rfl := harg9.eq_unread hf9
  sl_exec (disch := first | exact hc1 | exact hc2 | exact hc3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H8]
  · iexists _; isplitr; · ipureintro; exact harg8.read_unread _
    iexact H8
  iexists _; isplitr
  swap; · iexact H9
  ipureintro
  unfold newB payB
  simp only [View.readAt_eq_ld, Memref.IsWhole.read_unread, View.ld_unit_zero (S := S1x512) hz, View.ld_unit_zero (S := S512x128) hz]

set_option maxHeartbeats 1000000 in
/-- Phase three. -/
theorem runC (c : Dev nD) (i : grid0.Coords) (arg1 : Memref sig .tc .vmem S1000x1433 .f32) (harg1 : arg1.IsWhole) (arg2 : Memref sig .tc .vmem S1433x512 .bf16) (harg2 : arg2.IsWhole) (arg3 : Memref sig .tc .vmem S1x512 .f32) (harg3 : arg3.IsWhole) (arg4 : Memref sig .tc .vmem S512x128 .bf16) (harg4 : arg4.IsWhole) (arg5 : Memref sig .tc .vmem S400x10000 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x512 .bf16) (harg8 : arg8.IsWhole) (arg9 : Memref sig .tc .vmem S10000x128 .bf16) (harg9 : arg9.IsWhole)
    (hc1 : ¬ k0_cond1 i = 1#1) (hc2 : ¬ k0_cond2 i = 1#1) (hc3 : k0_cond3 i = 1#1)
    (x5 : Vec F S400x10000 .f32) (x6 : Vec F S1x128 .f32) (x7 : Vec F S400x128 .f32) (x9 : Vec F S10000x128 .bf16)
    (E : Set ℕ) (K : PUnit → sProp 𝕄) :
    iprop(owns (c : Thread nD τ) arg5 fullShare x5 ∗ owns (c : Thread nD τ) arg6 fullShare x6 ∗ owns (c : Thread nD τ) arg7 fullShare x7
        ∗ owns (c : Thread nD τ) arg9 fullShare x9
        ∗ (iprop(owns (c : Thread nD τ) arg5 fullShare x5 ∗ owns (c : Thread nD τ) arg6 fullShare x6
            ∗ owns (c : Thread nD τ) arg7 fullShare (k0_pay3 x5 x9 x6) ∗ owns (c : Thread nD τ) arg9 fullShare x9) -∗ K ⟨⟩))
      ⊢ wp frame (wpE (defs₀ (F := F)) Variants.none c none) E (cc0__gcn_kernel i arg1 harg1 arg2 harg2 arg3 harg3 arg4 harg4 arg5 harg5 arg6 harg6 arg7 harg7 arg8 harg8 arg9 harg9) K := by
  simp only [cc0__gcn_kernel_eq_skeleton]; unfold cc0__gcn_kernel_skel
  unfold owns
  iintro ⟨⟨%f5, %hf5, H5⟩, ⟨%f6, %hf6, H6⟩, ⟨%f7, %hf7, H7⟩, ⟨%f9, %hf9, H9⟩, Hk⟩
  obtain rfl := harg5.eq_unread hf5; obtain rfl := harg6.eq_unread hf6; obtain rfl := harg7.eq_unread hf7
  obtain rfl := harg9.eq_unread hf9
  sl_exec (disch := first | exact hc1 | exact hc2 | exact hc3)
  sl_step
  iapply Hk
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    rw [read_writes_unit_zero _ _ hz]
    simp only [View.readAt_eq_ld, Memref.IsWhole.read_unread, View.ld_unit_zero (S := S400x10000) hz, View.ld_unit_zero (S := S10000x128) hz, View.ld_unit_zero (S := S1x128) hz]
  iexists _; isplitr; · ipureintro; exact harg9.read_unread _
  iexact H9

end Cert.KernelIdeal.Gen
end
-- ==== Proof.PhasesI.lean ====
import proofs.«139825_g28415503630501_cont_9to1_332_19_alg».proof.Proof.Gen.KernelIdeal.Frame
import proofs.«139825_g28415503630501_cont_9to1_332_19_alg».proof.Proof.Gen.KernelIdeal.Skeleton

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three phases over the grid, in closed form

The grid has 60 points. Points 0–9 multiply a block of 1000 rows of `x` by the padded first weight matrix and keep the
product in rows `1000·t …` of the first scratch array; points 10–34 aggregate a block of 400 rows of the adjacency
matrix against that array, add the bias, rectify, multiply by the padded second weight matrix and keep the product
in rows `400·(t − 10) …` of the second scratch array; points 35–59 aggregate the same block rows against the second
scratch array, add the second bias and store the block of the result. -/

theorem hcond1 : ∀ t : Fin cfg0.N, k0_cond1 (grid0.coords t) = 1#1 ↔ t.val < 10 :=
  (by decide +kernel : ∀ t : Fin grid0.N, k0_cond1 (grid0.coords t) = 1#1 ↔ t.val < 10)
theorem hcond2 : ∀ t : Fin cfg0.N, k0_cond2 (grid0.coords t) = 1#1 ↔ (10 ≤ t.val ∧ t.val < 35) :=
  (by decide +kernel : ∀ t : Fin grid0.N, k0_cond2 (grid0.coords t) = 1#1 ↔ (10 ≤ t.val ∧ t.val < 35))
theorem hcond3 : ∀ t : Fin cfg0.N, k0_cond3 (grid0.coords t) = 1#1 ↔ 35 ≤ t.val :=
  (by decide +kernel : ∀ t : Fin grid0.N, k0_cond3 (grid0.coords t) = 1#1 ↔ 35 ≤ t.val)

/-- In the first phase the rows stored are `1000·t …`. -/
theorem hoff1 : ∀ t : Fin cfg0.N, t.val < 10 → k0_off1 (grid0.coords t) = ![1000 * t.val, 0] :=
  (by decide +kernel : ∀ t : Fin grid0.N, t.val < 10 → k0_off1 (grid0.coords t) = ![1000 * t.val, 0])
/-- In the second phase the rows stored are `400·(t − 10) …`. -/
theorem hoff2 : ∀ t : Fin cfg0.N, 10 ≤ t.val → t.val < 35 → k0_off2 (grid0.coords t) = ![400 * (t.val - 10), 0] :=
  (by decide +kernel : ∀ t : Fin grid0.N, 10 ≤ t.val → t.val < 35 → k0_off2 (grid0.coords t) = ![400 * (t.val - 10), 0])

/-- The result's window is idle before the third phase, and its block is not written back there. -/
theorem idle6 : ∀ t : Fin cfg0.N, t.val < 35 → cfg0.idle 6 (grid0.coords t) = true :=
  (by decide +kernel : ∀ t : Fin grid0.N, t.val < 35 → cfg0.idle 6 (grid0.coords t) = true)
theorem live6 : ∀ t : Fin cfg0.N, 35 ≤ t.val → cfg0.idle 6 (grid0.coords t) = false :=
  (by decide +kernel : ∀ t : Fin grid0.N, 35 ≤ t.val → cfg0.idle 6 (grid0.coords t) = false)
theorem noFlush6 : ∀ t : Fin cfg0.N, t.val < 35 → (cfg0.win 6).flush t = false :=
  (by decide +kernel : ∀ t : Fin grid0.N, t.val < 35 → (cfg0.win 6).flush t = false)
theorem flush6 : ∀ t : Fin cfg0.N, 35 ≤ t.val → (cfg0.win 6).flush t = true :=
  (by decide +kernel : ∀ t : Fin grid0.N, 35 ≤ t.val → (cfg0.win 6).flush t = true)
/-- No input window is ever idle. -/
theorem liveIn : ∀ (w : Fin 7), w.val < 6 → ∀ t : Fin cfg0.N, cfg0.idle w (grid0.coords t) = false :=
  (by decide +kernel : ∀ (w : Fin 7), w.val < 6 → ∀ t : Fin grid0.N, cfg0.idle w (grid0.coords t) = false)

/-- The block indices of the windows that move: `x`'s block is `min t 9`, the adjacency matrix's block is `t − 10` in
    the second phase and `t − 35` in the third, the result's block is `t − 35` in the third phase. -/
theorem index0 : ∀ t : Fin cfg0.N, t.val < 10 → (cfg0.win 0).index t = ![t.val, 0] :=
  (by decide +kernel : ∀ t : Fin grid0.N, t.val < 10 → win0_0.index t = ![t.val, 0])
theorem index4B : ∀ t : Fin cfg0.N, 10 ≤ t.val → t.val < 35 → (cfg0.win 4).index t = ![t.val - 10, 0] :=
  (by decide +kernel : ∀ t : Fin grid0.N, 10 ≤ t.val → t.val < 35 → win0_4.index t = ![t.val - 10, 0])
theorem index4C : ∀ t : Fin cfg0.N, 35 ≤ t.val → (cfg0.win 4).index t = ![t.val - 35, 0] :=
  (by decide +kernel : ∀ t : Fin grid0.N, 35 ≤ t.val → win0_4.index t = ![t.val - 35, 0])
theorem index6C : ∀ t : Fin cfg0.N, 35 ≤ t.val → (cfg0.win 6).index t = ![t.val - 35, 0] :=
  (by decide +kernel : ∀ t : Fin grid0.N, 35 ≤ t.val → win0_6.index t = ![t.val - 35, 0])
theorem indexFixed : ∀ t : Fin cfg0.N, (cfg0.win 1).index t = ![0, 0] ∧ (cfg0.win 2).index t = ![0, 0] ∧ (cfg0.win 3).index t = ![0, 0] ∧ (cfg0.win 5).index t = ![0, 0] :=
  (by decide +kernel : ∀ t : Fin grid0.N, win0_1.index t = ![0, 0] ∧ win0_2.index t = ![0, 0] ∧ win0_3.index t = ![0, 0] ∧ win0_5.index t = ![0, 0])

end Cert.KernelIdeal.Gen
end
-- ==== Proof.ScratchI.lean ====
import proofs.«139825_g28415503630501_cont_9to1_332_19_alg».proof.Proof.Gen.KernelIdeal.Frame
import proofs.«139825_g28415503630501_cont_9to1_332_19_alg».proof.Proof.Gen.KernelIdeal.Skeleton
import proofs.«139825_g28415503630501_cont_9to1_332_19_alg».proof.Proof.RunsI
import proofs.«139825_g28415503630501_cont_9to1_332_19_alg».proof.Proof.PhasesI
import Idealize.ShloMosaic.Lib.ValueIdx
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## What the two scratch arrays and the result's blocks hold

Row `r` of the first scratch array is written at point `r / 1000` (phase one), as row `r % 1000` of that point's
payload; row `r` of the second at point `10 + r / 400` (phase two), as row `r % 400` of that point's payload, which
reads the whole first scratch array; the result's block at a point of phase three is that point's payload, which
reads the whole second scratch array. -/

theorem N60 : cfg0.N = 60 := N_0

/-- The point of phase one that writes row `r` of the first scratch array. -/
def ptA (r : ℕ) (h : r < 10000) : Fin cfg0.N := ⟨r / 1000, by have : cfg0.N = 60 := N_0; omega⟩
/-- The point of phase two that writes row `r` of the second scratch array. -/
def ptB (r : ℕ) (h : r < 10000) : Fin cfg0.N := ⟨10 + r / 400, by have : cfg0.N = 60 := N_0; omega⟩

/-- The first scratch array once phase one is over: `x · W1p`, block of rows by block of rows. -/
def S1 (c : Dev nD) : Vec F S10000x512 .bf16 := fun y =>
  k0_pay1 (iblk m c 0 (ptA (y 0).val (idx2_lt0 y))) (iblk m c 1 (ptA (y 0).val (idx2_lt0 y)))
    (ix2 (⟨(y 0).val % 1000, Nat.mod_lt _ (by norm_num)⟩ : Fin 1000) (⟨(y 1).val, idx2_lt1 y⟩ : Fin 512))

/-- The second scratch array once phase two is over. -/
def S2 (c : Dev nD) : Vec F S10000x128 .bf16 := fun y =>
  payB (iblk m c 2 (ptB (y 0).val (idx2_lt0 y))) (iblk m c 3 (ptB (y 0).val (idx2_lt0 y)))
    (iblk m c 4 (ptB (y 0).val (idx2_lt0 y))) (S1 m c)
    (ix2 (⟨(y 0).val % 400, Nat.mod_lt _ (by norm_num)⟩ : Fin 400) (⟨(y 1).val, idx2_lt1 y⟩ : Fin 128))

/-- The result's block at a point of phase three. -/
def out6 (c : Dev nD) (t : Fin cfg0.N) : Vec F S400x128 .f32 := k0_pay3 (iblk m c 4 t) (S2 m c) (iblk m c 5 t)

/-- What is known of the scratch arrays before point `n`: the rows the points before `n` have written hold their
    final contents. -/
def Inv (c : Dev nD) (n : ℕ) (d8 : Vec F S10000x512 .bf16) (d9 : Vec F S10000x128 .bf16) : Prop :=
  (∀ y : S10000x512.Idx, (y 0).val < 1000 * min n 10 → d8 y = S1 m c y)
    ∧ (∀ y : S10000x128.Idx, (y 0).val < 400 * (min n 35 - 10) → d9 y = S2 m c y)

theorem Inv_zero (c : Dev nD) (d8 : Vec F S10000x512 .bf16) (d9 : Vec F S10000x128 .bf16) : Inv m c 0 d8 d9 :=
  ⟨fun y hy => absurd hy (by simp), fun y hy => absurd hy (by simp)⟩

/-- After phase one the first scratch array is `S1`. -/
theorem Inv.full1 {c : Dev nD} {n : ℕ} {d8 : Vec F S10000x512 .bf16} {d9 : Vec F S10000x128 .bf16} (h : Inv m c n d8 d9)
    (hn : 10 ≤ n) : d8 = S1 m c :=
  funext fun y => h.1 y (by have := idx2_lt0 y; omega)

/-- After phase two the second scratch array is `S2`. -/
theorem Inv.full2 {c : Dev nD} {n : ℕ} {d8 : Vec F S10000x512 .bf16} {d9 : Vec F S10000x128 .bf16} (h : Inv m c n d8 d9)
    (hn : 35 ≤ n) : d9 = S2 m c :=
  funext fun y => h.2 y (by have := idx2_lt0 y; omega)

/-- A point of phase one adds its band of rows to what is known of the first scratch array. -/
theorem Inv.stepA {c : Dev nD} (t : Fin cfg0.N) (ht : t.val < 10) (h1 : k0_cond1 (grid0.coords t) = 1#1)
    (arg8 : Memref sig .tc .vmem S10000x512 .bf16) (harg8 : arg8.IsWhole)
    {d8 : Vec F S10000x512 .bf16} {d9 : Vec F S10000x128 .bf16} (h : Inv m c t.val d8 d9) :
    Inv m c (t.val + 1) (newA (grid0.coords t) h1 arg8 harg8 (iblk m c 0 t) (iblk m c 1 t) d8) d9 := by
  refine ⟨fun y hy => ?_, fun y hy => h.2 y (by omega)⟩
  unfold newA
  rw [View.read_writes_cons_rows (o := 1000 * t.val) (W := 1000) _ _ (k0_off1_inb _ h1) _ [] y (hoff1 t ht) rfl rfl]
  split
  · next hmem =>
    have hpt : ptA (y 0).val (idx2_lt0 y) = t := Fin.ext (by show (y 0).val / 1000 = t.val; omega)
    unfold S1
    rw [hpt]
    congr 1
    funext a
    match a with
    | ⟨0, _⟩ => exact Fin.ext (by show (y 0).val - 1000 * t.val = (y 0).val % 1000; omega)
    | ⟨1, _⟩ => exact Fin.ext (by show (y 1).val - 0 = (y 1).val; omega)
  · next hmem =>
    rw [View.writes_nil, Memref.IsWhole.read_unread]
    exact h.1 y (by omega)

/-- A point of phase two adds its band of rows to what is known of the second scratch array. -/
theorem Inv.stepB {c : Dev nD} (t : Fin cfg0.N) (ht : 10 ≤ t.val) (ht' : t.val < 35) (h2 : k0_cond2 (grid0.coords t) = 1#1)
    (arg9 : Memref sig .tc .vmem S10000x128 .bf16) (harg9 : arg9.IsWhole)
    {d8 : Vec F S10000x512 .bf16} {d9 : Vec F S10000x128 .bf16} (h : Inv m c t.val d8 d9) :
    Inv m c (t.val + 1) d8 (newB (grid0.coords t) h2 arg9 harg9 (iblk m c 2 t) (iblk m c 3 t) (iblk m c 4 t) d8 d9) := by
  have hd8 : d8 = S1 m c := h.full1 m ht
  refine ⟨fun y hy => h.1 y (by omega), fun y hy => ?_⟩
  unfold newB
  rw [View.read_writes_cons_rows (o := 400 * (t.val - 10)) (W := 400) _ _ (k0_off2_inb _ h2) _ [] y (hoff2 t ht ht') rfl rfl]
  split
  · next hmem =>
    have hpt : ptB (y 0).val (idx2_lt0 y) = t := Fin.ext (by show 10 + (y 0).val / 400 = t.val; omega)
    unfold S2
    rw [hpt, hd8]
    congr 1
    funext a
    match a with
    | ⟨0, _⟩ => exact Fin.ext (by show (y 0).val - 400 * (t.val - 10) = (y 0).val % 400; omega)
    | ⟨1, _⟩ => exact Fin.ext (by show (y 1).val - 0 = (y 1).val; omega)
  · next hmem =>
    rw [View.writes_nil, Memref.IsWhole.read_unread]
    exact h.2 y (by omega)

/-- A point of phase three changes neither scratch array. -/
theorem Inv.stepC {c : Dev nD} (n : ℕ) (hn : 35 ≤ n) {d8 : Vec F S10000x512 .bf16} {d9 : Vec F S10000x128 .bf16}
    (h : Inv m c n d8 d9) : Inv m c (n + 1) d8 d9 :=
  ⟨fun y hy => h.1 y (by omega), fun y hy => h.2 y (by omega)⟩

end Cert.KernelIdeal.Gen
end
-- ==== Proof.BodyI.lean ====
import proofs.«139825_g28415503630501_cont_9to1_332_19_alg».proof.Proof.Gen.KernelIdeal.Frame
import proofs.«139825_g28415503630501_cont_9to1_332_19_alg».proof.Proof.Gen.KernelIdeal.Skeleton
import proofs.«139825_g28415503630501_cont_9to1_332_19_alg».proof.Proof.ScratchI
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## The proof data of the pipeline, the body at every point, the run

The invariant carried from point to point holds the two scratch arrays at SOME contents of which the rows written so
far are known (`Inv`); the staging buffers of the inputs hold their blocks, and the result's staging buffer is left
alone until phase three, whose points store the block that is written back. -/

/-- Each window's current staging memref at point `t`, spelled as the pipeline passes it, and its wholeness. -/
abbrev ms0_0 (t : Fin cfg0.N) : Memref sig .tc .vmem S1000x1433 .f32 := win0_0.stage (cfg0.slots t 0)
abbrev ms0_1 (t : Fin cfg0.N) : Memref sig .tc .vmem S1433x512 .bf16 := win0_1.stage (cfg0.slots t 1)
abbrev ms0_2 (t : Fin cfg0.N) : Memref sig .tc .vmem S1x512 .f32 := win0_2.stage (cfg0.slots t 2)
abbrev ms0_3 (t : Fin cfg0.N) : Memref sig .tc .vmem S512x128 .bf16 := win0_3.stage (cfg0.slots t 3)
abbrev ms0_4 (t : Fin cfg0.N) : Memref sig .tc .vmem S400x10000 .f32 := win0_4.stage (cfg0.slots t 4)
abbrev ms0_5 (t : Fin cfg0.N) : Memref sig .tc .vmem S1x128 .f32 := win0_5.stage (cfg0.slots t 5)
abbrev ms0_6 (t : Fin cfg0.N) : Memref sig .tc .vmem S400x128 .f32 := win0_6.stage (cfg0.slots t 6)
/-- The two scratch arrays: whole scoped buffers of the kernel's own. -/
abbrev scM0 : Memref sig .tc .vmem S10000x512 .bf16 := Memref.whole cc0_scratch0
abbrev scM1 : Memref sig .tc .vmem S10000x128 .bf16 := Memref.whole cc0_scratch1

/-- What the launch hands the region: the two scratch arrays at some contents and the generator register. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- The invariant before point `n`. -/
def PhiS (c : Dev nD) (n : ℕ) : sProp 𝕄 :=
  iprop(iprop(∃ d8, ∃ d9, ⌜Inv m c n d8 d9⌝ ∗ owns (c : Thread nD τ) scM0 fullShare d8 ∗ owns (c : Thread nD τ) scM1 fullShare d9) ∗ (∃ r, prngReg c r))

/-- The proof data: the arrays as the region finds them; after the body each input's buffer at its block and the
    result's at the block phase three stores; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 m c t
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out6 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t)

theorem leaves_in (c : Dev nD) (t : Fin cfg0.N) (w : Fin 7) (hw : w.val < 6) :
    (dats m 0 c).leavesExact w t = owns (c : Thread nD τ) ((cfg0.win w).stage (cfg0.slots t w)) fullShare ((dats m 0 c).after w t) := by
  unfold Dat.leavesExact; rw [liveIn w hw t]

set_option maxHeartbeats 4800000 in
/-- The body at any point: the phase is read off the point (`by_cases`), the phase's run applies, and what is known of
    the scratch arrays grows by the band of rows the point wrote. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) from rfl,
    show (dats m 0 c).Φ t.castSucc = PhiS m c t.val from (by dsimp only [dats]; simp only [Fin.coe_castSucc])]
  rw [leaves_in m c t 0 (by decide), leaves_in m c t 1 (by decide), leaves_in m c t 2 (by decide),
    leaves_in m c t 3 (by decide), leaves_in m c t 4 (by decide), leaves_in m c t 5 (by decide),
    after0_0, after0_1, after0_2, after0_3, after0_4, after0_5]
  have hN : t.val < 60 := lt_of_lt_of_eq t.isLt N_0
  unfold PhiS
  by_cases hA : t.val < 10
  · have h1 : k0_cond1 (grid0.coords t) = 1#1 := (hcond1 t).mpr hA
    have h2 : ¬ k0_cond2 (grid0.coords t) = 1#1 := fun h => by have := (hcond2 t).mp h; omega
    have h3 : ¬ k0_cond3 (grid0.coords t) = 1#1 := fun h => by have := (hcond3 t).mp h; omega
    rw [Dat.leavesExact_idle (dats m 0 c) 6 t (idle6 t (by omega)) (noFlush6 t (by omega))]
    iintro ⟨⟨⟨%d8, %d9, %hinv, HS0, HS1⟩, Hg⟩, Ho, ⟨%e0, H0⟩, ⟨%e1, H1⟩, ⟨%e2, H2⟩, ⟨%e3, H3⟩, ⟨%e4, H4⟩, ⟨%e5, H5⟩, H6⟩
    iapply (runA c (grid0.coords t) _ _ _ _ _ _ _ _ _ _ _ _ _ _ _ _ _ _ h1 h2 h3 (iblk m c 0 t) (iblk m c 1 t) d8 Set.univ _)
    isplitl [H0]; · iexact H0
    isplitl [H1]; · iexact H1
    isplitl [HS0]; · iexact HS0
    iintro ⟨H0, H1, HS0⟩
    isplitl [HS0 HS1 Hg]
    · isplitl [HS0 HS1]
      · iexists _; iexists _; isplitr; · ipureintro; exact hinv.stepA m t hA h1 scM0 (Memref.isWhole_whole _)
        isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · by_cases hB : t.val < 35
    · have h1 : ¬ k0_cond1 (grid0.coords t) = 1#1 := fun h => by have := (hcond1 t).mp h; omega
      have h2 : k0_cond2 (grid0.coords t) = 1#1 := (hcond2 t).mpr ⟨by omega, hB⟩
      have h3 : ¬ k0_cond3 (grid0.coords t) = 1#1 := fun h => by have := (hcond3 t).mp h; omega
      rw [Dat.leavesExact_idle (dats m 0 c) 6 t (idle6 t (by omega)) (noFlush6 t (by omega))]
      iintro ⟨⟨⟨%d8, %d9, %hinv, HS0, HS1⟩, Hg⟩, Ho, ⟨%e0, H0⟩, ⟨%e1, H1⟩, ⟨%e2, H2⟩, ⟨%e3, H3⟩, ⟨%e4, H4⟩, ⟨%e5, H5⟩, H6⟩
      iapply (runB c (grid0.coords t) _ _ _ _ _ _ _ _ _ _ _ _ _ _ _ _ _ _ h1 h2 h3 (iblk m c 2 t) (iblk m c 3 t) (iblk m c 4 t) d8 d9 Set.univ _)
      isplitl [H2]; · iexact H2
      isplitl [H3]; · iexact H3
      isplitl [H4]; · iexact H4
      isplitl [HS0]; · iexact HS0
      isplitl [HS1]; · iexact HS1
      iintro ⟨H2, H3, H4, HS0, HS1⟩
      isplitl [HS0 HS1 Hg]
      · isplitl [HS0 HS1]
        · iexists _; iexists _; isplitr; · ipureintro; exact hinv.stepB m t (by omega) hB h2 scM1 (Memref.isWhole_whole _)
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have h1 : ¬ k0_cond1 (grid0.coords t) = 1#1 := fun h => by have := (hcond1 t).mp h; omega
      have h2 : ¬ k0_cond2 (grid0.coords t) = 1#1 := fun h => by have := (hcond2 t).mp h; omega
      have h3 : k0_cond3 (grid0.coords t) = 1#1 := (hcond3 t).mpr (by omega)
      rw [show (dats m 0 c).leavesExact 6 t = owns (c : Thread nD τ) (ms0_6 t) fullShare ((dats m 0 c).after 6 t) from by
        unfold Dat.leavesExact; rw [live6 t (by omega)], after0_6]
      unfold out6
      iintro ⟨⟨⟨%d8, %d9, %hinv, HS0, HS1⟩, Hg⟩, Ho, ⟨%e0, H0⟩, ⟨%e1, H1⟩, ⟨%e2, H2⟩, ⟨%e3, H3⟩, ⟨%e4, H4⟩, ⟨%e5, H5⟩, ⟨%e6, H6⟩⟩
      obtain rfl := hinv.full2 m (by omega)
      iapply (runC c (grid0.coords t) _ _ _ _ _ _ _ _ _ _ _ _ _ _ _ _ _ _ h1 h2 h3 (iblk m c 4 t) (iblk m c 5 t) _ (S2 m c) Set.univ _)
      isplitl [H4]; · iexact H4
      isplitl [H5]; · iexact H5
      isplitl [H6]; · iexact H6
      isplitl [HS1]; · iexact HS1
      iintro ⟨H4, H5, H6, HS1⟩
      isplitl [HS0 HS1 Hg]
      · isplitl [HS0 HS1]
        · iexists _; iexists _; isplitr; · ipureintro; exact hinv.stepC m _ (by omega)
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: nothing is known of the scratch arrays. -/
theorem hin (c : Dev nD) : Pipeline.ΦA spec0 c ⊢ (dats m 0 c).Φ 0 := by
  rw [show (dats m 0 c).Φ 0 = PhiS m c 0 from rfl, PhiA0_eq]
  unfold PhiS
  iintro ⟨⟨⟨%d8, H8⟩, ⟨%d9, H9⟩⟩, Hg⟩
  isplitl [H8 H9]
  · iexists d8; iexists d9; isplitr; · ipureintro; exact Inv_zero m c d8 d9
    isplitl [H8]; · iexact H8
    iexact H9
  iexact Hg

/-- After the last point the invariant gives the scratch arrays back at some contents. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS
  iintro ⟨⟨%d8, %d9, %hinv, H8, H9⟩, Hg⟩
  isplitl [H8 H9]
  · isplitl [H8]; · iexists _; iexact H8
    iexists _; iexact H9
  iexact Hg

set_option backward.isDefEq.respectTransparency.types false in
/-- Every weakly fair execution of @main terminates, every array of the pipeline ending at what the library computes
    from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end, faults nowhere and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Gen
end
-- ==== Proof.Frames.lean ====
/-
  The three frames and the idealization's ledger.

  The kernel (as printed, at the word level) and its idealization run to the end, fault nowhere and leave their
  arguments unchanged: the body is run phase by phase (BodyK / BodyI). The reference is a straight line of host
  operations; its frame is its run with the result dropped. The ideal pass rewrote no operation of this kernel, so
  there is nothing to preserve.
-/
import proofs.«139825_g28415503630501_cont_9to1_332_19_alg».proof.Defs
import proofs.«139825_g28415503630501_cont_9to1_332_19_alg».proof.Proof.BodyK
import proofs.«139825_g28415503630501_cont_9to1_332_19_alg».proof.Proof.BodyI
import proofs.«139825_g28415503630501_cont_9to1_332_19_alg».proof.Proof.Gen.ReferenceIdeal.Run
import proofs.«139825_g28415503630501_cont_9to1_332_19_alg».proof.Proof.Gen.Pre_finite_inputs

noncomputable section

namespace Cert.Proof.Frames

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)
theorem preserves : Cert.preserves_Kernel_KernelIdeal := trivial

end Cert.Proof.Frames

end
-- ==== Proof.ValueI.lean ====
import proofs.«139825_g28415503630501_cont_9to1_332_19_alg».proof.Proof.Gen.KernelIdeal.Frame
import proofs.«139825_g28415503630501_cont_9to1_332_19_alg».proof.Proof.Gen.KernelIdeal.Skeleton
import proofs.«139825_g28415503630501_cont_9to1_332_19_alg».proof.Proof.BodyI
import Idealize.ShloMosaic.Lib.Pipeline.Value
import Idealize.ShloMosaic.Lib.StableHlo.Run
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## The result array after the run

Row `r` of the padded result is stored at point `35 + r / 400` of phase three, as row `r % 400` of that point's
block; the blocks of phase three's 25 points tile the array, so the array ends holding that one function of the
index; the host then keeps its first 7 columns. -/

/-- The point of phase three that stores row `r` of the result. -/
def ptC (r : ℕ) (h : r < 10000) : Fin cfg0.N := ⟨35 + r / 400, by have : cfg0.N = 60 := N_0; omega⟩

/-- The padded result array. -/
def G6 (c : Dev nD) : S10000x128.Idx → Elt F .f32 := fun i =>
  out6 m c (ptC (i 0).val (idx2_lt0 i))
    (ix2 (⟨(i 0).val % 400, Nat.mod_lt _ (by norm_num)⟩ : Fin 400) (⟨(i 1).val, idx2_lt1 i⟩ : Fin 128))

/-- What a point of phase three writes back is its block of `G6`. -/
theorem flushed6_eq (c : Dev nD) (t : Fin cfg0.N) (hf : (cfg0.win 6).flush t = true) :
    (dats m 0 c).flushed 6 t = ((cfg0.win 6).blk t).view.read (Elt F) (G6 m c) := by
  have h35 : 35 ≤ t.val := by
    by_contra h
    rw [noFlush6 t (by omega)] at hf
    exact Bool.false_ne_true hf
  have hN : t.val < 60 := lt_of_lt_of_eq t.isLt N_0
  show (cfg0.win 6).cut (grid0.coords t) ((dats m 0 c).after 6 t) = _
  rw [after0_6]
  funext j
  show out6 m c t j = G6 m c (((cfg0.win 6).blk t).view.emb j)
  have hj0 : (j 0).val < 400 := (j 0).isLt
  have e0 : ((((cfg0.win 6).blk t).view.emb j) 0).val = (t.val - 35) * 400 + (j 0).val := by
    show win0_6.index t (0 : Fin 2) * 400 + 1 * (j 0).val = _
    rw [show win0_6.index t (0 : Fin 2) = t.val - 35 from congrFun (index6C t h35) 0]; omega
  have e1 : ((((cfg0.win 6).blk t).view.emb j) 1).val = (j 1).val := by
    show win0_6.index t (1 : Fin 2) * 128 + 1 * (j 1).val = _
    rw [show win0_6.index t (1 : Fin 2) = 0 from congrFun (index6C t h35) 1]; omega
  unfold G6
  have hpt : ptC ((((cfg0.win 6).blk t).view.emb j) 0).val (idx2_lt0 _) = t :=
    Fin.ext (by show 35 + ((((cfg0.win 6).blk t).view.emb j) 0).val / 400 = t.val; rw [e0]; omega)
  rw [hpt]
  congr 1
  funext a
  match a with
  | ⟨0, _⟩ => exact Fin.ext (by show (j 0).val = ((((cfg0.win 6).blk t).view.emb j) 0).val % 400; rw [e0]; omega)
  | ⟨1, _⟩ => exact Fin.ext (by show (j 1).val = ((((cfg0.win 6).blk t).view.emb j) 1).val; rw [e1])

/-- An index of the array is in point `t`'s block iff each coordinate is in the block's range on its axis. -/
theorem mem_blk6 (t : Fin cfg0.N) (i : S10000x128.Idx) :
    i ∈ ((cfg0.win 6).blk t).view.set ↔ ∀ a : Fin 2, win0_6.index t a * S400x128.size a ≤ (i a).val ∧ (i a).val < win0_6.index t a * S400x128.size a + S400x128.size a := by
  show i ∈ ((View.whole main_call0_v20).slice (win0_6.rect t)).set ↔ _
  rw [View.set_slice_whole, Rect.mem_set_unit]
  exact Iff.rfl

/-- Every row of the result is in the block of the point of phase three that stores it. -/
theorem cover6 (i : S10000x128.Idx) : ∃ t : Fin cfg0.N, (cfg0.win 6).flush t = true ∧ i ∈ ((cfg0.win 6).blk t).view.set := by
  have hi0 : (i 0).val < 10000 := idx2_lt0 i
  have hi1 : (i 1).val < 128 := idx2_lt1 i
  have h35 : 35 ≤ (ptC (i 0).val hi0).val := by show 35 ≤ 35 + (i 0).val / 400; omega
  refine ⟨ptC (i 0).val hi0, flush6 _ h35, ?_⟩
  rw [mem_blk6]
  have q0 : win0_6.index (ptC (i 0).val hi0) (0 : Fin 2) = (i 0).val / 400 := by
    rw [show win0_6.index (ptC (i 0).val hi0) (0 : Fin 2) = (ptC (i 0).val hi0).val - 35 from congrFun (index6C _ h35) 0]
    show 35 + (i 0).val / 400 - 35 = _; omega
  have q1 : win0_6.index (ptC (i 0).val hi0) (1 : Fin 2) = 0 := congrFun (index6C _ h35) 1
  intro a
  match a with
  | ⟨0, _⟩ =>
    show win0_6.index (ptC (i 0).val hi0) (0 : Fin 2) * 400 ≤ (i 0).val ∧ (i 0).val < win0_6.index (ptC (i 0).val hi0) (0 : Fin 2) * 400 + 400
    rw [q0]; omega
  | ⟨1, _⟩ =>
    show win0_6.index (ptC (i 0).val hi0) (1 : Fin 2) * 128 ≤ (i 1).val ∧ (i 1).val < win0_6.index (ptC (i 0).val hi0) (1 : Fin 2) * 128 + 128
    rw [q1]; omega

/-- The padded result array after the run. -/
theorem final6 (c : Dev nD) : (dats m 0 c).arrAt 6 cfg0.N = G6 m c :=
  (dats m 0 c).arrAt_eq_of_cover 6 (G6 m c) (fun t hf => flushed6_eq m c t hf) cover6

/-- The host's slice of the padded result: what @main returns. -/
theorem tail_eq (c : Dev nD) :
    Pipeline.afterTail₀ cfgs (dats m) 0 (V0 m) [hostOps1] c main_v0
      = extractStridedSlice S10000x7 ![0, 0] (G6 m c) slices_S10000x128_S10000x7_0_0 := by
  unfold Pipeline.afterTail₀
  show StableHlo.after hostOps1 _ (Proc.devRef .tc main_v0) = _
  after_results
  exact congrArg (fun v => extractStridedSlice S10000x7 ![0, 0] v slices_S10000x128_S10000x7_0_0)
    ((Pipeline.withArrays_arr spec0 launch0.win.arr_inj c (V0 m c) (fun w => (dats m 0 c).arrAt w cfg0.N) 6).trans (final6 m c))

/-- The run with the result named: @main ends with its result at the first 7 columns of `G6`, its arguments unchanged. -/
theorem run_value : θ_run defs (onTc (τ := τ) (main (F := F))) ⟨m, fun _ => 0, ρ⟩ (fun r => ∀ c : Dev nD,
      r.2.mem ((c.tc : Thread nD τ).loc main_v0) = extractStridedSlice S10000x7 ![0, 0] (G6 m c) slices_S10000x128_S10000x7_0_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(((h c).2 main_v0 (Pipeline.mem_restRefs_of main_v0 (by decide) (by decide))).trans (tail_eq m c)),
      ((h c).1 0).trans (((dats m 0 c).arrAt_in 0 rfl _).trans ((A_eq m c 0).trans (V_main_arg0 m c))),
      ((h c).1 4).trans (((dats m 0 c).arrAt_in 4 rfl _).trans ((A_eq m c 4).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end Cert.KernelIdeal.Gen
end
-- ==== Proof.Spec.lean ====
/-
  The mathematics of a two-layer graph convolution with a dense adjacency matrix, on the extended reals.

  Reference:  out = A · (relu (A · (X · W1) + b1) · W2) + b2,   X : 10000×1433, A : 10000×10000, W1 : 1433×500, W2 : 500×7.
  Tiled form: the same with the hidden width padded from 500 to 512 and the class count from 7 to 128 by zero
  columns / rows of the weights and zero entries of the biases, and with the contraction over the 10000 nodes of the
  first aggregation taken in four runs of 2500 added one after another onto 0.
  `tiled_eq`: on the first 7 columns the two agree.  Only 0 · x = x · 0 = 0, 0 + x = x and the associativity of + are
  used, all of which hold on the extended reals without any finiteness assumption.
-/
import Mathlib

noncomputable section

open scoped BigOperators

namespace Cert.Gcn

variable (X : Fin 10000 → Fin 1433 → EReal) (A : Fin 10000 → Fin 10000 → EReal)

section reference
variable (W1 : Fin 1433 → Fin 500 → EReal) (b1 : Fin 500 → EReal) (W2 : Fin 500 → Fin 7 → EReal) (b2 : Fin 7 → EReal)

/-- X · W1. -/
def sup1 (i : Fin 10000) (j : Fin 500) : EReal := ∑ k : Fin 1433, X i k * W1 k j
/-- relu (A · (X · W1) + b1). -/
def hid (i : Fin 10000) (j : Fin 500) : EReal := max ((∑ l : Fin 10000, A i l * sup1 X W1 l j) + b1 j) 0
/-- hid · W2. -/
def sup2 (i : Fin 10000) (c : Fin 7) : EReal := ∑ j : Fin 500, hid X A W1 b1 i j * W2 j c
/-- A · sup2 + b2. -/
def out (i : Fin 10000) (c : Fin 7) : EReal := (∑ l : Fin 10000, A i l * sup2 X A W1 b1 W2 l c) + b2 c
end reference

section tiled
variable (W1p : Fin 1433 → Fin 512 → EReal) (b1p : Fin 512 → EReal) (W2p : Fin 512 → Fin 128 → EReal) (b2p : Fin 128 → EReal)

/-- Node `2500 * q + l`: node `l` of run `q`. -/
def node (q : Fin 4) (l : Fin 2500) : Fin 10000 := ⟨2500 * q.val + l.val, by have := q.isLt; have := l.isLt; omega⟩

/-- X · W1p. -/
def s1 (i : Fin 10000) (j : Fin 512) : EReal := ∑ k : Fin 1433, X i k * W1p k j
/-- One run's share of A · s1. -/
def run (q : Fin 4) (i : Fin 10000) (j : Fin 512) : EReal := ∑ l : Fin 2500, A i (node q l) * s1 X W1p (node q l) j
/-- A · s1 accumulated run by run onto 0. -/
def acc (i : Fin 10000) (j : Fin 512) : EReal :=
  (((0 + run X A W1p 0 i j) + run X A W1p 1 i j) + run X A W1p 2 i j) + run X A W1p 3 i j
/-- relu (acc + b1p). -/
def hidp (i : Fin 10000) (j : Fin 512) : EReal := max (acc X A W1p i j + b1p j) 0
/-- hidp · W2p. -/
def s2 (i : Fin 10000) (c : Fin 128) : EReal := ∑ j : Fin 512, hidp X A W1p b1p i j * W2p j c
/-- A · s2 + b2p. -/
def outp (i : Fin 10000) (c : Fin 128) : EReal := (∑ l : Fin 10000, A i l * s2 X A W1p b1p W2p l c) + b2p c
end tiled

end Cert.Gcn

end
-- ==== Proof.PayloadsI.lean ====
/-
  The kernel's three payloads read at an index at the ideal floats.

  At the ideal floats a format change and a shape cast to the same shape are the identity, a matrix product into the
  zero constant is the plain sum of products over the contracted coordinate, a broadcast of a one-row bias reads the
  bias at the column, and the maximum with the zero constant is the rectifier.
-/
import proofs.«139825_g28415503630501_cont_9to1_332_19_alg».proof.Proof.RunsI
import proofs.«139825_g28415503630501_cont_9to1_332_19_alg».proof.Proof.Spec
import Idealize.ShloMosaic.Lib.ValueIdx
import Idealize.ShloMosaic.Lib.Pipeline.Value
import Idealize.ShloMosaic.PureOps.Ideal.Laws

noncomputable section

open scoped BigOperators

namespace Cert.Payloads

open Cert.KernelIdeal Cert.KernelIdeal.Gen Idealize.ShloMosaic Idealize.ShloMosaic.ValueIdx

/-! ## The operand indices of the four matrix products -/

theorem lhs0_a (i : S1000x512.Idx) (q : dot_S1000x1433_S1433x512_S1000x512_1_0_0_1_n_n.contr.Idx) : (dot_S1000x1433_S1433x512_S1000x512_1_0_0_1_n_n.lhsIdx i q 0).val = (i 0).val := by
  unfold DotDims.lhsIdx
  rw [dif_neg (show ¬(0 : Fin S1000x1433.rank) ∈ dot_S1000x1433_S1433x512_S1000x512_1_0_0_1_n_n.lhsBatch by decide), dif_pos (show (0 : Fin S1000x1433.rank) ∈ dot_S1000x1433_S1433x512_S1000x512_1_0_0_1_n_n.lhsNonContracting by decide)]
  rfl
theorem lhs1_a (i : S1000x512.Idx) (q : dot_S1000x1433_S1433x512_S1000x512_1_0_0_1_n_n.contr.Idx) : (dot_S1000x1433_S1433x512_S1000x512_1_0_0_1_n_n.lhsIdx i q 1).val = (q ⟨0, by decide⟩).val :=
  dot_S1000x1433_S1433x512_S1000x512_1_0_0_1_n_n.lhsIdx_val_of_single rfl i q
theorem rhs0_a (i : S1000x512.Idx) (q : dot_S1000x1433_S1433x512_S1000x512_1_0_0_1_n_n.contr.Idx) : (dot_S1000x1433_S1433x512_S1000x512_1_0_0_1_n_n.rhsIdx i q 0).val = (q ⟨0, by decide⟩).val :=
  dot_S1000x1433_S1433x512_S1000x512_1_0_0_1_n_n.rhsIdx_val_of_single rfl i q
theorem rhs1_a (i : S1000x512.Idx) (q : dot_S1000x1433_S1433x512_S1000x512_1_0_0_1_n_n.contr.Idx) : (dot_S1000x1433_S1433x512_S1000x512_1_0_0_1_n_n.rhsIdx i q 1).val = (i 1).val := by
  unfold DotDims.rhsIdx
  rw [dif_neg (show ¬(1 : Fin S1433x512.rank) ∈ dot_S1000x1433_S1433x512_S1000x512_1_0_0_1_n_n.rhsBatch by decide), dif_pos (show (1 : Fin S1433x512.rank) ∈ dot_S1000x1433_S1433x512_S1000x512_1_0_0_1_n_n.rhsNonContracting by decide)]
  rfl

theorem lhs0_b (i : S400x512.Idx) (q : dot_S400x2500_S2500x512_S400x512_1_0_0_1_n_n.contr.Idx) : (dot_S400x2500_S2500x512_S400x512_1_0_0_1_n_n.lhsIdx i q 0).val = (i 0).val := by
  unfold DotDims.lhsIdx
  rw [dif_neg (show ¬(0 : Fin S400x2500.rank) ∈ dot_S400x2500_S2500x512_S400x512_1_0_0_1_n_n.lhsBatch by decide), dif_pos (show (0 : Fin S400x2500.rank) ∈ dot_S400x2500_S2500x512_S400x512_1_0_0_1_n_n.lhsNonContracting by decide)]
  rfl
theorem lhs1_b (i : S400x512.Idx) (q : dot_S400x2500_S2500x512_S400x512_1_0_0_1_n_n.contr.Idx) : (dot_S400x2500_S2500x512_S400x512_1_0_0_1_n_n.lhsIdx i q 1).val = (q ⟨0, by decide⟩).val :=
  dot_S400x2500_S2500x512_S400x512_1_0_0_1_n_n.lhsIdx_val_of_single rfl i q
theorem rhs0_b (i : S400x512.Idx) (q : dot_S400x2500_S2500x512_S400x512_1_0_0_1_n_n.contr.Idx) : (dot_S400x2500_S2500x512_S400x512_1_0_0_1_n_n.rhsIdx i q 0).val = (q ⟨0, by decide⟩).val :=
  dot_S400x2500_S2500x512_S400x512_1_0_0_1_n_n.rhsIdx_val_of_single rfl i q
theorem rhs1_b (i : S400x512.Idx) (q : dot_S400x2500_S2500x512_S400x512_1_0_0_1_n_n.contr.Idx) : (dot_S400x2500_S2500x512_S400x512_1_0_0_1_n_n.rhsIdx i q 1).val = (i 1).val := by
  unfold DotDims.rhsIdx
  rw [dif_neg (show ¬(1 : Fin S2500x512.rank) ∈ dot_S400x2500_S2500x512_S400x512_1_0_0_1_n_n.rhsBatch by decide), dif_pos (show (1 : Fin S2500x512.rank) ∈ dot_S400x2500_S2500x512_S400x512_1_0_0_1_n_n.rhsNonContracting by decide)]
  rfl

theorem lhs0_c (i : S400x128.Idx) (q : dot_S400x512_S512x128_S400x128_1_0_0_1_n_n.contr.Idx) : (dot_S400x512_S512x128_S400x128_1_0_0_1_n_n.lhsIdx i q 0).val = (i 0).val := by
  unfold DotDims.lhsIdx
  rw [dif_neg (show ¬(0 : Fin S400x512.rank) ∈ dot_S400x512_S512x128_S400x128_1_0_0_1_n_n.lhsBatch by decide), dif_pos (show (0 : Fin S400x512.rank) ∈ dot_S400x512_S512x128_S400x128_1_0_0_1_n_n.lhsNonContracting by decide)]
  rfl
theorem lhs1_c (i : S400x128.Idx) (q : dot_S400x512_S512x128_S400x128_1_0_0_1_n_n.contr.Idx) : (dot_S400x512_S512x128_S400x128_1_0_0_1_n_n.lhsIdx i q 1).val = (q ⟨0, by decide⟩).val :=
  dot_S400x512_S512x128_S400x128_1_0_0_1_n_n.lhsIdx_val_of_single rfl i q
theorem rhs0_c (i : S400x128.Idx) (q : dot_S400x512_S512x128_S400x128_1_0_0_1_n_n.contr.Idx) : (dot_S400x512_S512x128_S400x128_1_0_0_1_n_n.rhsIdx i q 0).val = (q ⟨0, by decide⟩).val :=
  dot_S400x512_S512x128_S400x128_1_0_0_1_n_n.rhsIdx_val_of_single rfl i q
theorem rhs1_c (i : S400x128.Idx) (q : dot_S400x512_S512x128_S400x128_1_0_0_1_n_n.contr.Idx) : (dot_S400x512_S512x128_S400x128_1_0_0_1_n_n.rhsIdx i q 1).val = (i 1).val := by
  unfold DotDims.rhsIdx
  rw [dif_neg (show ¬(1 : Fin S512x128.rank) ∈ dot_S400x512_S512x128_S400x128_1_0_0_1_n_n.rhsBatch by decide), dif_pos (show (1 : Fin S512x128.rank) ∈ dot_S400x512_S512x128_S400x128_1_0_0_1_n_n.rhsNonContracting by decide)]
  rfl

theorem lhs0_d (i : S400x128.Idx) (q : dot_S400x10000_S10000x128_S400x128_1_0_0_1_n_n.contr.Idx) : (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem lhs1_d (i : S400x128.Idx) (q : dot_S400x10000_S10000x128_S400x128_1_0_0_1_n_n.contr.Idx) : (dot_S400x10000_S10000x128_S400x128_1_0_0_1_n_n.lhsIdx i q 1).val = (q ⟨0, by decide⟩).val :=
  dot_S400x10000_S10000x128_S400x128_1_0_0_1_n_n.lhsIdx_val_of_single rfl i q
theorem rhs0_d (i : S400x128.Idx) (q : dot_S400x10000_S10000x128_S400x128_1_0_0_1_n_n.contr.Idx) : (dot_S400x10000_S10000x128_S400x128_1_0_0_1_n_n.rhsIdx i q 0).val = (q ⟨0, by decide⟩).val :=
  dot_S400x10000_S10000x128_S400x128_1_0_0_1_n_n.rhsIdx_val_of_single rfl i q
theorem rhs1_d (i : S400x128.Idx) (q : dot_S400x10000_S10000x128_S400x128_1_0_0_1_n_n.contr.Idx) : (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-! ## A matrix product into the zero constant, at a row and a column -/

/-- The product of an m × k by a k × n matrix into the zero constant is the sum over the k contracted coordinates. -/
theorem matmul_zero_ix2 {m k n : Nat} {φ₁ φ₂ : FTy}
    (D : DotDims (⟨2, ![m, k]⟩ : Shape) (⟨2, ![k, n]⟩ : Shape) (⟨2, ![m, n]⟩ : Shape))
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (prec : Option ContractPrecision) (lhs : FVec Ideal (⟨2, ![m, k]⟩ : Shape) φ₁) (rhs : FVec Ideal (⟨2, ![k, n]⟩ : Shape) φ₂)
    (p : Fin m) (j : Fin n) :
    FloatOps.matmul D prec lhs rhs (constant (⟨2, ![m, n]⟩ : Shape) .f32 0x00000000#32) (ix2 p j)
      = ∑ t : Fin k, lhs (ix2 p t) * rhs (ix2 t j) := by
  rw [Ideal.matmul_constant_zero_apply, ← Equiv.sum_comp (contrEquiv1 D k hr hs).symm]
  refine Finset.sum_congr rfl fun t _ => ?_
  have hk := contrEquiv1_symm_val D k hr hs t
  have el : D.lhsIdx (ix2 p j) ((contrEquiv1 D k hr hs).symm t) = ix2 p t := funext fun a => Fin.ext (by
    match a with
    | ⟨0, _⟩ => exact hl0 _ _
    | ⟨1, _⟩ => exact (hl1 _ _).trans hk)
  have er : D.rhsIdx (ix2 p j) ((contrEquiv1 D k hr hs).symm t) = ix2 t j := funext fun a => Fin.ext (by
    match a with
    | ⟨0, _⟩ => exact (hr0 _ _).trans hk
    | ⟨1, _⟩ => exact hr1 _ _)
  rw [el, er]

/-! ## Phase one: the block of X times the padded first weight matrix -/

theorem pay1_apply (x1 : Vec Ideal S1000x1433 .f32) (x2 : Vec Ideal S1433x512 .bf16) (p : Fin 1000) (j : Fin 512) :
    k0_pay1 (F := Ideal) x1 x2 (ix2 p j) = ∑ k : Fin 1433, x1 (ix2 p k) * x2 (ix2 k j) := by
  unfold k0_pay1
  simp only [shapeCast_self]
  exact matmul_zero_ix2 (φ₁ := .bf16) (φ₂ := .bf16) dot_S1000x1433_S1433x512_S1000x512_1_0_0_1_n_n rfl rfl lhs0_a lhs1_a rhs0_a rhs1_a none
    (truncf .bf16 x1 bitsLt_bf16_f32) x2 p j

/-! ## Phase three: the block of A times the second scratch array, plus the padded second bias -/

theorem pay3_apply (x5 : Vec Ideal S400x10000 .f32) (x9 : Vec Ideal S10000x128 .bf16) (x6 : Vec Ideal S1x128 .f32)
    (p : Fin 400) (c : Fin 128) :
    k0_pay3 (F := Ideal) x5 x9 x6 (ix2 p c) = (∑ l : Fin 10000, x5 (ix2 p l) * x9 (ix2 l c)) + x6 (ix2 0 c) := by
  unfold k0_pay3
  simp only [shapeCast_self]
  refine congrArg₂ (· + ·) ?_ ?_
  · exact matmul_zero_ix2 (φ₁ := .bf16) (φ₂ := .bf16) dot_S400x10000_S10000x128_S400x128_1_0_0_1_n_n rfl rfl lhs0_d lhs1_d rhs0_d rhs1_d none
      (truncf .bf16 x5 bitsLt_bf16_f32) x9 p c
  · exact broadcastTo_apply x6 broadcasts_S1x128_S400x128 (ix2 p c) (ix2 0 c) (fun a => match a with
      | ⟨0, _⟩ => by show 0 = if (1 : Nat) = 1 then 0 else p.val; rw [if_pos rfl]
      | ⟨1, _⟩ => by show c.val = if (128 : Nat) = 1 then 0 else c.val; rw [if_neg (by decide)])

/-! ## Phase two: four runs of 2500 nodes, the bias, the rectifier, the padded second weight matrix -/

/-- One run: the block of 2500 columns of A from column o against the block of 2500 rows of the first scratch array
    from row o, where o = 2500 q, is the sum over the run's nodes. -/
theorem run_apply (x5 : Vec Ideal S400x10000 .f32) (x8 : Vec Ideal S10000x512 .bf16) (o : Nat)
    (inb5 : ∀ a, (![0, o] : Fin 2 → Nat) a + S400x2500.size a ≤ S400x10000.size a)
    (inb8 : ∀ a, (![o, 0] : Fin 2 → Nat) a + S2500x512.size a ≤ S10000x512.size a)
    (q : Fin 4) (ho : o = 2500 * q.val) (p : Fin 400) (j : Fin 512) :
    FloatOps.matmul (F := Ideal) (φ₁ := .bf16) (φ₂ := .bf16) dot_S400x2500_S2500x512_S400x512_1_0_0_1_n_n none
        (truncf .bf16 (View.ld x5 (Rect.unit (s := S400x10000) ![0, o] S400x2500.size inb5)) bitsLt_bf16_f32)
        (View.ld x8 (Rect.unit (s := S10000x512) ![o, 0] S2500x512.size inb8))
        (constant S400x512 .f32 0x00000000#32) (ix2 p j)
      = ∑ l : Fin 2500, x5 (ix2 p (Cert.Gcn.node q l)) * x8 (ix2 (Cert.Gcn.node q l) j) := by
  refine (matmul_zero_ix2 (φ₁ := .bf16) (φ₂ := .bf16) dot_S400x2500_S2500x512_S400x512_1_0_0_1_n_n rfl rfl
    lhs0_b lhs1_b rhs0_b rhs1_b none _ _ p j).trans ?_
  refine Finset.sum_congr rfl fun l _ => ?_
  have h5 : View.ld x5 (Rect.unit (s := S400x10000) ![0, o] S400x2500.size inb5) (ix2 p l)
      = x5 (ix2 p (Cert.Gcn.node q l)) :=
    congrArg x5 (funext fun a => Fin.ext (by
      match a with
      | ⟨0, _⟩ => show 0 + 1 * p.val = p.val; omega
      | ⟨1, _⟩ => show o + 1 * l.val = 2500 * q.val + l.val; omega))
  have h8 : View.ld x8 (Rect.unit (s := S10000x512) ![o, 0] S2500x512.size inb8) (ix2 l j)
      = x8 (ix2 (Cert.Gcn.node q l) j) :=
    congrArg x8 (funext fun a => Fin.ext (by
      match a with
      | ⟨0, _⟩ => show o + 1 * l.val = 2500 * q.val + l.val; omega
      | ⟨1, _⟩ => show 0 + 1 * j.val = j.val; omega))
  exact congrArg₂ (· * ·) h5 h8

theorem payB_apply (x3 : Vec Ideal S1x512 .f32) (x4 : Vec Ideal S512x128 .bf16) (x5 : Vec Ideal S400x10000 .f32)
    (x8 : Vec Ideal S10000x512 .bf16) (p : Fin 400) (c : Fin 128) :
    payB (F := Ideal) x3 x4 x5 x8 (ix2 p c)
      = ∑ j : Fin 512, max (((((0
            + ∑ l : Fin 2500, x5 (ix2 p (Cert.Gcn.node 0 l)) * x8 (ix2 (Cert.Gcn.node 0 l) j))
            + ∑ l : Fin 2500, x5 (ix2 p (Cert.Gcn.node 1 l)) * x8 (ix2 (Cert.Gcn.node 1 l) j))
            + ∑ l : Fin 2500, x5 (ix2 p (Cert.Gcn.node 2 l)) * x8 (ix2 (Cert.Gcn.node 2 l) j))
            + ∑ l : Fin 2500, x5 (ix2 p (Cert.Gcn.node 3 l)) * x8 (ix2 (Cert.Gcn.node 3 l) j))
            + x3 (ix2 0 j)) 0 * x4 (ix2 j c) := by
  unfold payB k0_pay2 k0_pay4
  simp only [shapeCast_self]
  refine (matmul_zero_ix2 (φ₁ := .bf16) (φ₂ := .bf16) dot_S400x512_S512x128_S400x128_1_0_0_1_n_n rfl rfl
    lhs0_c lhs1_c rhs0_c rhs1_c none _ x4 p c).trans ?_
  refine Finset.sum_congr rfl fun j _ => ?_
  refine congrArg (· * x4 (ix2 j c)) ?_
  refine congrArg₂ max (congrArg₂ (· + ·) (congrArg₂ (· + ·) (congrArg₂ (· + ·) (congrArg₂ (· + ·)
    (congrArg₂ (· + ·) ?_ ?_) ?_) ?_) ?_) ?_) ?_
  · exact Ideal.ofBits_zero_f32
  · exact run_apply x5 x8 0 _ _ 0 rfl p j
  · exact run_apply x5 x8 2500 _ _ 1 rfl p j
  · exact run_apply x5 x8 5000 _ _ 2 rfl p j
  · exact run_apply x5 x8 7500 _ _ 3 rfl p j
  · exact broadcastTo_apply x3 broadcasts_S1x512_S400x512 (ix2 p j) (ix2 0 j) (fun a => match a with
      | ⟨0, _⟩ => by show 0 = if (1 : Nat) = 1 then 0 else p.val; rw [if_pos rfl]
      | ⟨1, _⟩ => by show j.val = if (512 : Nat) = 1 then 0 else j.val; rw [if_neg (by decide)])
  · exact Ideal.ofBits_zero_f32

end Cert.Payloads

end
-- ==== Proof.JoinI.lean ====
/-
  The kernel's scratch arrays and padded result, at the ideal floats, are the tiled form of the two-layer graph
  convolution of the arrays the kernel is launched on.

  Each window's block at a point, read at an index, is the array at the block's offset plus the index; with the three
  payloads read at an index this identifies the first scratch array with X · W1p, the second with
  relu (A · (X · W1p) + b1p) · W2p (the contraction over the nodes in four runs), and the padded result with
  A · (second scratch array) + b2p.
-/
import proofs.«139825_g28415503630501_cont_9to1_332_19_alg».proof.Proof.ValueI
import proofs.«139825_g28415503630501_cont_9to1_332_19_alg».proof.Proof.PayloadsI
import proofs.«139825_g28415503630501_cont_9to1_332_19_alg».proof.Proof.Spec

set_option maxRecDepth 16384

noncomputable section

open scoped BigOperators

namespace Cert.Join

open Cert.KernelIdeal Cert.KernelIdeal.Gen Idealize.ShloMosaic Idealize.ShloMosaic.TcCoe Idealize.SL.Sem
  Idealize.ShloMosaic.ValueIdx Cert.Payloads

variable (m : (ℓ : Loc nD τ sig) → Buf (Elt Ideal) ℓ) (c : Dev nD)

/-! ## The launched arrays as matrices and vectors of extended reals -/

/-- The node features X. -/
abbrev aX : Fin 10000 → Fin 1433 → EReal := fun a b => V m c main_arg0 (ix2 a b)
/-- The adjacency matrix A. -/
abbrev aA : Fin 10000 → Fin 10000 → EReal := fun a b => V m c main_arg1 (ix2 a b)
/-- The padded first weight matrix. -/
abbrev aW1p : Fin 1433 → Fin 512 → EReal := fun a b => V m c main_call0_v3 (ix2 a b)
/-- The padded first bias. -/
abbrev ab1p : Fin 512 → EReal := fun b => V m c main_call0_v8 (ix2 0 b)
/-- The padded second weight matrix. -/
abbrev aW2p : Fin 512 → Fin 128 → EReal := fun a b => V m c main_call0_v14 (ix2 a b)
/-- The padded second bias. -/
abbrev ab2p : Fin 128 → EReal := fun b => V m c main_call0_v19 (ix2 0 b)

/-! ## A window's block at a point: where an index of the block lies in the array -/

/-- In phase one the block of X at point t is rows 1000 t … of X. -/
theorem emb0 (t : Fin cfg0.N) (ht : t.val < 10) (p : Fin 1000) (b : Fin 1433) (r : Fin 10000)
    (hr : r.val = 1000 * (t.val) + p.val) :
    ((cfg0.win 0).blk t).view.emb (ix2 p b) = (ix2 r b : S10000x1433.Idx) := by
  funext d
  apply Fin.ext
  match d with
  | ⟨0, _⟩ =>
    show win0_0.index t (0 : Fin 2) * 1000 + 1 * p.val = r.val
    rw [show win0_0.index t (0 : Fin 2) = t.val from congrFun (index0 t ht) 0]; omega
  | ⟨1, _⟩ =>
    show win0_0.index t (1 : Fin 2) * 1433 + 1 * b.val = b.val
    rw [show win0_0.index t (1 : Fin 2) = 0 from congrFun (index0 t ht) 1]; omega

/-- The padded first weight matrix is one block, the same at every point. -/
theorem emb1 (t : Fin cfg0.N) (a : Fin 1433) (b : Fin 512) :
    ((cfg0.win 1).blk t).view.emb (ix2 a b) = (ix2 a b : S1433x512.Idx) := by
  funext d
  apply Fin.ext
  match d with
  | ⟨0, _⟩ =>
    show win0_1.index t (0 : Fin 2) * 1433 + 1 * a.val = a.val
    rw [show win0_1.index t (0 : Fin 2) = 0 from congrFun (indexFixed t).1 0]; omega
  | ⟨1, _⟩ =>
    show win0_1.index t (1 : Fin 2) * 512 + 1 * b.val = b.val
    rw [show win0_1.index t (1 : Fin 2) = 0 from congrFun (indexFixed t).1 1]; omega

/-- The padded first bias is one block, the same at every point. -/
theorem emb2 (t : Fin cfg0.N) (a : Fin 1) (b : Fin 512) :
    ((cfg0.win 2).blk t).view.emb (ix2 a b) = (ix2 a b : S1x512.Idx) := by
  funext d
  apply Fin.ext
  match d with
  | ⟨0, _⟩ =>
    show win0_2.index t (0 : Fin 2) * 1 + 1 * a.val = a.val
    rw [show win0_2.index t (0 : Fin 2) = 0 from congrFun (indexFixed t).2.1 0]; omega
  | ⟨1, _⟩ =>
    show win0_2.index t (1 : Fin 2) * 512 + 1 * b.val = b.val
    rw [show win0_2.index t (1 : Fin 2) = 0 from congrFun (indexFixed t).2.1 1]; omega

/-- The padded second weight matrix is one block, the same at every point. -/
theorem emb3 (t : Fin cfg0.N) (a : Fin 512) (b : Fin 128) :
    ((cfg0.win 3).blk t).view.emb (ix2 a b) = (ix2 a b : S512x128.Idx) := by
  funext d
  apply Fin.ext
  match d with
  | ⟨0, _⟩ =>
    show win0_3.index t (0 : Fin 2) * 512 + 1 * a.val = a.val
    rw [show win0_3.index t (0 : Fin 2) = 0 from congrFun (indexFixed t).2.2.1 0]; omega
  | ⟨1, _⟩ =>
    show win0_3.index t (1 : Fin 2) * 128 + 1 * b.val = b.val
    rw [show win0_3.index t (1 : Fin 2) = 0 from congrFun (indexFixed t).2.2.1 1]; omega

/-- In phase two the block of A at point t is rows 400 (t − 10) … of A. -/
theorem emb4B (t : Fin cfg0.N) (ht : 10 ≤ t.val) (ht' : t.val < 35) (p : Fin 400) (b : Fin 10000) (r : Fin 10000)
    (hr : r.val = 400 * (t.val - 10) + p.val) :
    ((cfg0.win 4).blk t).view.emb (ix2 p b) = (ix2 r b : S10000x10000.Idx) := by
  funext d
  apply Fin.ext
  match d with
  | ⟨0, _⟩ =>
    show win0_4.index t (0 : Fin 2) * 400 + 1 * p.val = r.val
    rw [show win0_4.index t (0 : Fin 2) = t.val - 10 from congrFun (index4B t ht ht') 0]; omega
  | ⟨1, _⟩ =>
    show win0_4.index t (1 : Fin 2) * 10000 + 1 * b.val = b.val
    rw [show win0_4.index t (1 : Fin 2) = 0 from congrFun (index4B t ht ht') 1]; omega

/-- In phase three the block of A at point t is rows 400 (t − 35) … of A. -/
theorem emb4C (t : Fin cfg0.N) (ht : 35 ≤ t.val) (p : Fin 400) (b : Fin 10000) (r : Fin 10000)
    (hr : r.val = 400 * (t.val - 35) + p.val) :
    ((cfg0.win 4).blk t).view.emb (ix2 p b) = (ix2 r b : S10000x10000.Idx) := by
  funext d
  apply Fin.ext
  match d with
  | ⟨0, _⟩ =>
    show win0_4.index t (0 : Fin 2) * 400 + 1 * p.val = r.val
    rw [show win0_4.index t (0 : Fin 2) = t.val - 35 from congrFun (index4C t ht) 0]; omega
  | ⟨1, _⟩ =>
    show win0_4.index t (1 : Fin 2) * 10000 + 1 * b.val = b.val
    rw [show win0_4.index t (1 : Fin 2) = 0 from congrFun (index4C t ht) 1]; omega

/-- The padded second bias is one block, the same at every point. -/
theorem emb5 (t : Fin cfg0.N) (a : Fin 1) (b : Fin 128) :
    ((cfg0.win 5).blk t).view.emb (ix2 a b) = (ix2 a b : S1x128.Idx) := by
  funext d
  apply Fin.ext
  match d with
  | ⟨0, _⟩ =>
    show win0_5.index t (0 : Fin 2) * 1 + 1 * a.val = a.val
    rw [show win0_5.index t (0 : Fin 2) = 0 from congrFun (indexFixed t).2.2.2 0]; omega
  | ⟨1, _⟩ =>
    show win0_5.index t (1 : Fin 2) * 128 + 1 * b.val = b.val
    rw [show win0_5.index t (1 : Fin 2) = 0 from congrFun (indexFixed t).2.2.2 1]; omega

/-! ## Reading any array through a window's block -/

theorem read0 (t : Fin cfg0.N) (ht : t.val < 10) (Y : ((cfg0.win 0).blk t).view.ty.Contents (Elt Ideal)) (p : Fin 1000) (b : Fin 1433)
    (r : Fin 10000) (hr : r.val = 1000 * (t.val) + p.val) :
    ((cfg0.win 0).blk t).view.read (Elt Ideal) Y (ix2 p b) = Y (ix2 r b : S10000x1433.Idx) := by
  show Y (((cfg0.win 0).blk t).view.emb (ix2 p b)) = Y (ix2 r b : S10000x1433.Idx)
  rw [emb0 t ht p b r hr]

theorem read1 (t : Fin cfg0.N) (Y : ((cfg0.win 1).blk t).view.ty.Contents (Elt Ideal)) (a : Fin 1433) (b : Fin 512) :
    ((cfg0.win 1).blk t).view.read (Elt Ideal) Y (ix2 a b) = Y (ix2 a b : S1433x512.Idx) := by
  show Y (((cfg0.win 1).blk t).view.emb (ix2 a b)) = Y (ix2 a b : S1433x512.Idx)
  rw [emb1 t a b]

theorem read2 (t : Fin cfg0.N) (Y : ((cfg0.win 2).blk t).view.ty.Contents (Elt Ideal)) (a : Fin 1) (b : Fin 512) :
    ((cfg0.win 2).blk t).view.read (Elt Ideal) Y (ix2 a b) = Y (ix2 a b : S1x512.Idx) := by
  show Y (((cfg0.win 2).blk t).view.emb (ix2 a b)) = Y (ix2 a b : S1x512.Idx)
  rw [emb2 t a b]

theorem read3 (t : Fin cfg0.N) (Y : ((cfg0.win 3).blk t).view.ty.Contents (Elt Ideal)) (a : Fin 512) (b : Fin 128) :
    ((cfg0.win 3).blk t).view.read (Elt Ideal) Y (ix2 a b) = Y (ix2 a b : S512x128.Idx) := by
  show Y (((cfg0.win 3).blk t).view.emb (ix2 a b)) = Y (ix2 a b : S512x128.Idx)
  rw [emb3 t a b]

theorem read4B (t : Fin cfg0.N) (ht : 10 ≤ t.val) (ht' : t.val < 35) (Y : ((cfg0.win 4).blk t).view.ty.Contents (Elt Ideal)) (p : Fin 400) (b : Fin 10000)
    (r : Fin 10000) (hr : r.val = 400 * (t.val - 10) + p.val) :
    ((cfg0.win 4).blk t).view.read (Elt Ideal) Y (ix2 p b) = Y (ix2 r b : S10000x10000.Idx) := by
  show Y (((cfg0.win 4).blk t).view.emb (ix2 p b)) = Y (ix2 r b : S10000x10000.Idx)
  rw [emb4B t ht ht' p b r hr]

theorem read4C (t : Fin cfg0.N) (ht : 35 ≤ t.val) (Y : ((cfg0.win 4).blk t).view.ty.Contents (Elt Ideal)) (p : Fin 400) (b : Fin 10000)
    (r : Fin 10000) (hr : r.val = 400 * (t.val - 35) + p.val) :
    ((cfg0.win 4).blk t).view.read (Elt Ideal) Y (ix2 p b) = Y (ix2 r b : S10000x10000.Idx) := by
  show Y (((cfg0.win 4).blk t).view.emb (ix2 p b)) = Y (ix2 r b : S10000x10000.Idx)
  rw [emb4C t ht p b r hr]

theorem read5 (t : Fin cfg0.N) (Y : ((cfg0.win 5).blk t).view.ty.Contents (Elt Ideal)) (a : Fin 1) (b : Fin 128) :
    ((cfg0.win 5).blk t).view.read (Elt Ideal) Y (ix2 a b) = Y (ix2 a b : S1x128.Idx) := by
  show Y (((cfg0.win 5).blk t).view.emb (ix2 a b)) = Y (ix2 a b : S1x128.Idx)
  rw [emb5 t a b]

/-! ## The windows' blocks of the launched arrays, read at an index -/

/-- Window 0's array under its name. -/
theorem spell0 : V m c (Pipeline.arrRef spec0 0) = V m c main_arg0 := rfl

/-- Read at an index, the block of X at a point of phase one is the array at the block's row offset plus the row. -/
theorem iblk0_apply (t : Fin cfg0.N) (ht : t.val < 10) (p : Fin 1000) (b : Fin 1433) (r : Fin 10000)
    (hr : r.val = 1000 * (t.val) + p.val) :
    iblk m c 0 t (ix2 p b) = V m c main_arg0 (ix2 r b) :=
  (read0 t ht (V m c (Pipeline.arrRef spec0 0)) p b r hr).trans (congrFun (spell0 m c) (ix2 r b))

/-- Window 1's array under its name. -/
theorem spell1 : V m c (Pipeline.arrRef spec0 1) = V m c main_call0_v3 := rfl

/-- Read at an index, the padded first weight matrix's block is the array there. -/
theorem iblk1_apply (t : Fin cfg0.N) (a : Fin 1433) (b : Fin 512) :
    iblk m c 1 t (ix2 a b) = V m c main_call0_v3 (ix2 a b) :=
  (read1 t (V m c (Pipeline.arrRef spec0 1)) a b).trans (congrFun (spell1 m c) (ix2 a b))

/-- Window 2's array under its name. -/
theorem spell2 : V m c (Pipeline.arrRef spec0 2) = V m c main_call0_v8 := rfl

/-- Read at an index, the padded first bias's block is the array there. -/
theorem iblk2_apply (t : Fin cfg0.N) (a : Fin 1) (b : Fin 512) :
    iblk m c 2 t (ix2 a b) = V m c main_call0_v8 (ix2 a b) :=
  (read2 t (V m c (Pipeline.arrRef spec0 2)) a b).trans (congrFun (spell2 m c) (ix2 a b))

/-- Window 3's array under its name. -/
theorem spell3 : V m c (Pipeline.arrRef spec0 3) = V m c main_call0_v14 := rfl

/-- Read at an index, the padded second weight matrix's block is the array there. -/
theorem iblk3_apply (t : Fin cfg0.N) (a : Fin 512) (b : Fin 128) :
    iblk m c 3 t (ix2 a b) = V m c main_call0_v14 (ix2 a b) :=
  (read3 t (V m c (Pipeline.arrRef spec0 3)) a b).trans (congrFun (spell3 m c) (ix2 a b))

/-- Window 4's array under its name. -/
theorem spell4 : V m c (Pipeline.arrRef spec0 4) = V m c main_arg1 := rfl

/-- Read at an index, the block of A at a point of phase two is the array at the block's row offset plus the row. -/
theorem iblk4B_apply (t : Fin cfg0.N) (ht : 10 ≤ t.val) (ht' : t.val < 35) (p : Fin 400) (b : Fin 10000) (r : Fin 10000)
    (hr : r.val = 400 * (t.val - 10) + p.val) :
    iblk m c 4 t (ix2 p b) = V m c main_arg1 (ix2 r b) :=
  (read4B t ht ht' (V m c (Pipeline.arrRef spec0 4)) p b r hr).trans (congrFun (spell4 m c) (ix2 r b))

/-- Read at an index, the block of A at a point of phase three is the array at the block's row offset plus the row. -/
theorem iblk4C_apply (t : Fin cfg0.N) (ht : 35 ≤ t.val) (p : Fin 400) (b : Fin 10000) (r : Fin 10000)
    (hr : r.val = 400 * (t.val - 35) + p.val) :
    iblk m c 4 t (ix2 p b) = V m c main_arg1 (ix2 r b) :=
  (read4C t ht (V m c (Pipeline.arrRef spec0 4)) p b r hr).trans (congrFun (spell4 m c) (ix2 r b))

/-- Window 5's array under its name. -/
theorem spell5 : V m c (Pipeline.arrRef spec0 5) = V m c main_call0_v19 := rfl

/-- Read at an index, the padded second bias's block is the array there. -/
theorem iblk5_apply (t : Fin cfg0.N) (a : Fin 1) (b : Fin 128) :
    iblk m c 5 t (ix2 a b) = V m c main_call0_v19 (ix2 a b) :=
  (read5 t (V m c (Pipeline.arrRef spec0 5)) a b).trans (congrFun (spell5 m c) (ix2 a b))

/-! ## The scratch arrays and the padded result -/

/-- The first scratch array is X · W1p. -/
theorem S1_apply (l : Fin 10000) (j : Fin 512) :
    S1 m c (ix2 l j) = Cert.Gcn.s1 (aX m c) (aW1p m c) l j := by
  refine (pay1_apply _ _ _ _).trans ?_
  unfold Cert.Gcn.s1
  refine Finset.sum_congr rfl fun k _ => ?_
  exact congrArg₂ (· * ·)
    (iblk0_apply m c (ptA l.val l.isLt) (by show l.val / 1000 < 10; omega)
      (⟨l.val % 1000, Nat.mod_lt _ (by norm_num)⟩ : Fin 1000) k l
      (by show l.val = 1000 * (l.val / 1000) + l.val % 1000; omega))
    (iblk1_apply m c (ptA l.val l.isLt) k j)

/-- The second scratch array is relu (A · (X · W1p) + b1p) · W2p, the contraction over the nodes in four runs. -/
theorem S2_apply (l : Fin 10000) (c' : Fin 128) :
    S2 m c (ix2 l c') = Cert.Gcn.s2 (aX m c) (aA m c) (aW1p m c) (ab1p m c) (aW2p m c) l c' := by
  refine (payB_apply _ _ _ _ _ _).trans ?_
  unfold Cert.Gcn.s2 Cert.Gcn.hidp Cert.Gcn.acc Cert.Gcn.run
  refine Finset.sum_congr rfl fun j _ => ?_
  have h10 : 10 ≤ (ptB l.val l.isLt).val := by show 10 ≤ 10 + l.val / 400; omega
  have h35 : (ptB l.val l.isLt).val < 35 := by show 10 + l.val / 400 < 35; omega
  have hrow : l.val = 400 * ((ptB l.val l.isLt).val - 10) + l.val % 400 := by
    show l.val = 400 * (10 + l.val / 400 - 10) + l.val % 400; omega
  refine congrArg₂ (· * ·) ?_ (iblk3_apply m c (ptB l.val l.isLt) j c')
  refine congrArg₂ max ?_ rfl
  refine congrArg₂ (· + ·) ?_ (iblk2_apply m c (ptB l.val l.isLt) 0 j)
  refine congrArg₂ (· + ·) ?_ (Finset.sum_congr rfl fun l' _ => ?r3)
  case r3 =>
    exact congrArg₂ (· * ·)
      (iblk4B_apply m c (ptB l.val l.isLt) h10 h35 (⟨l.val % 400, Nat.mod_lt _ (by norm_num)⟩ : Fin 400) (Cert.Gcn.node 3 l') l hrow)
      (S1_apply m c (Cert.Gcn.node 3 l') j)
  refine congrArg₂ (· + ·) ?_ (Finset.sum_congr rfl fun l' _ => ?r2)
  case r2 =>
    exact congrArg₂ (· * ·)
      (iblk4B_apply m c (ptB l.val l.isLt) h10 h35 (⟨l.val % 400, Nat.mod_lt _ (by norm_num)⟩ : Fin 400) (Cert.Gcn.node 2 l') l hrow)
      (S1_apply m c (Cert.Gcn.node 2 l') j)
  refine congrArg₂ (· + ·) ?_ (Finset.sum_congr rfl fun l' _ => ?r1)
  case r1 =>
    exact congrArg₂ (· * ·)
      (iblk4B_apply m c (ptB l.val l.isLt) h10 h35 (⟨l.val % 400, Nat.mod_lt _ (by norm_num)⟩ : Fin 400) (Cert.Gcn.node 1 l') l hrow)
      (S1_apply m c (Cert.Gcn.node 1 l') j)
  refine congrArg₂ (· + ·) rfl (Finset.sum_congr rfl fun l' _ => ?r0)
  case r0 =>
    exact congrArg₂ (· * ·)
      (iblk4B_apply m c (ptB l.val l.isLt) h10 h35 (⟨l.val % 400, Nat.mod_lt _ (by norm_num)⟩ : Fin 400) (Cert.Gcn.node 0 l') l hrow)
      (S1_apply m c (Cert.Gcn.node 0 l') j)

/-- The padded result is A · (second scratch array) + b2p. -/
theorem G6_apply (i : Fin 10000) (c' : Fin 128) :
    G6 m c (ix2 i c')
      = Cert.Gcn.outp (aX m c) (aA m c) (aW1p m c) (ab1p m c) (aW2p m c) (ab2p m c) i c' := by
  refine (pay3_apply _ _ _ _ _).trans ?_
  unfold Cert.Gcn.outp
  have h35 : 35 ≤ (ptC i.val i.isLt).val := by show 35 ≤ 35 + i.val / 400; omega
  have hrow : i.val = 400 * ((ptC i.val i.isLt).val - 35) + i.val % 400 := by
    show i.val = 400 * (35 + i.val / 400 - 35) + i.val % 400; omega
  refine congrArg₂ (· + ·) (Finset.sum_congr rfl fun l _ => ?_) (iblk5_apply m c (ptC i.val i.isLt) 0 c')
  exact congrArg₂ (· * ·)
    (iblk4C_apply m c (ptC i.val i.isLt) h35 (⟨i.val % 400, Nat.mod_lt _ (by norm_num)⟩ : Fin 400) l i hrow)
    (S2_apply m c l c')

end Cert.Join

end
-- ==== Proof.LibScatterSet.lean ====
/-
  A scatter whose body returns the update (`x.at[idx].set(v)`), read at one element of the result.

  `Host.scatter d f x idx upd` is the left fold, over the update indices in row-major order, of
  "replace the element at the update's result index by `f old new`, or drop the update when that index is outside".
  Two facts about one element `i` of the result:
    * no update lands on `i`             → the element is the operand's (for any body `f`);
    * exactly one update `j₀` lands on `i` → with the body "return the update", the element is `upd j₀`.
  Both are inductions over the list of update positions; the second uses that the list has no repetition.
-/
import Idealize.ShloMosaic.PureOps

namespace Cert.ScatterSet

open Idealize.ShloMosaic

section Fold

variable {ι α β : Type} [DecidableEq ι]

/-- One step of the fold: update `n` replaces the element at `g n`, or is dropped. -/
def step (g : β → Option ι) (f : α → α → α) (v : β → α) (r : ι → α) (n : β) : ι → α :=
  match g n with
  | some k => fun i' => if i' = k then f (r k) (v n) else r i'
  | none => r

theorem step_of_ne (g : β → Option ι) (f : α → α → α) (v : β → α) (r : ι → α) (n : β) (i : ι)
    (h : g n ≠ some i) : step g f v r n i = r i := by
  unfold step
  cases hg : g n with
  | none => rfl
  | some k =>
    have hk : i ≠ k := fun e => h (by rw [hg, e])
    simp only [if_neg hk]

theorem step_set_of_eq (g : β → Option ι) (v : β → α) (r : ι → α) (n : β) (i : ι)
    (h : g n = some i) : step g (fun _ b => b) v r n i = v n := by
  unfold step
  rw [h]
  simp only [if_true]

/-- No update of the list lands on `i`: the element is the starting one. -/
theorem foldl_of_miss (g : β → Option ι) (f : α → α → α) (v : β → α) (l : List β) (x : ι → α) (i : ι)
    (h : ∀ n ∈ l, g n ≠ some i) : l.foldl (step g f v) x i = x i := by
  induction l generalizing x with
  | nil => rfl
  | cons a t ih =>
    rw [List.foldl_cons, ih _ (fun n hn => h n (List.mem_cons_of_mem _ hn)),
      step_of_ne g f v x a i (h a List.mem_cons_self)]

/-- Exactly one update `n₀` of a repetition-free list lands on `i`: the element is that update. -/
theorem foldl_set_of_unique (g : β → Option ι) (v : β → α) (l : List β) (hl : l.Nodup) (x : ι → α) (i : ι) (n₀ : β)
    (hn₀ : n₀ ∈ l) (hg : g n₀ = some i) (huniq : ∀ n ∈ l, g n = some i → n = n₀) :
    l.foldl (step g (fun _ b => b) v) x i = v n₀ := by
  induction l generalizing x with
  | nil => exact absurd hn₀ List.not_mem_nil
  | cons a t ih =>
    rw [List.foldl_cons]
    have hnd := List.nodup_cons.1 hl
    by_cases ha : a = n₀
    · subst ha
      rw [foldl_of_miss g _ v t _ i (fun n hn e => hnd.1 (by
        have := huniq n (List.mem_cons_of_mem _ hn) e; rw [← this]; exact hn))]
      exact step_set_of_eq g v x a i hg
    · have hmem : n₀ ∈ t := by
        rcases List.mem_cons.1 hn₀ with e | e
        · exact absurd e.symm ha
        · exact e
      exact ih hnd.2 _ hmem (fun n hn e => huniq n (List.mem_cons_of_mem _ hn) e)

end Fold

section Scatter

variable {α : Type} {s si u : Shape} {w : Nat}

/-- The scatter is the fold of `step` over the update positions. -/
theorem scatter_eq_foldl (d : ScatterDims s si u) (f : α → α → α) (x : s.Idx → α) (idx : IVec si w) (upd : u.Idx → α) :
    Host.scatter d f x idx upd
      = (List.finRange u.numel).foldl
          (step (fun n => d.resultIdx? (u.rowMajor.symm n) idx) f (fun n => upd (u.rowMajor.symm n))) x := by
  unfold Host.scatter
  refine congrArg (fun F => List.foldl F x (List.finRange u.numel)) ?_
  funext r n
  unfold step
  dsimp only
  cases d.resultIdx? (u.rowMajor.symm n) idx <;> rfl

/-- An element no update lands on keeps the operand's value. -/
theorem scatter_of_miss (d : ScatterDims s si u) (f : α → α → α) (x : s.Idx → α) (idx : IVec si w) (upd : u.Idx → α)
    (i : s.Idx) (h : ∀ j : u.Idx, d.resultIdx? j idx ≠ some i) : Host.scatter d f x idx upd i = x i := by
  rw [scatter_eq_foldl]
  exact foldl_of_miss _ f _ _ x i (fun n _ => h _)

/-- An element exactly one update `j₀` lands on holds that update, when the body returns the update. -/
theorem scatter_set_of_unique (d : ScatterDims s si u) (x : s.Idx → α) (idx : IVec si w) (upd : u.Idx → α)
    (i : s.Idx) (j₀ : u.Idx) (hj₀ : d.resultIdx? j₀ idx = some i)
    (huniq : ∀ j : u.Idx, d.resultIdx? j idx = some i → j = j₀) :
    Host.scatter d (fun _ b => b) x idx upd i = upd j₀ := by
  rw [scatter_eq_foldl]
  have := foldl_set_of_unique (fun n => d.resultIdx? (u.rowMajor.symm n) idx) (fun n => upd (u.rowMajor.symm n))
    (List.finRange u.numel) (List.nodup_finRange _) x i (u.rowMajor j₀) (List.mem_finRange _)
    (by simp only [Equiv.symm_apply_apply]; exact hj₀)
    (fun n _ e => by
      have := huniq _ e
      rw [← this, Equiv.apply_symm_apply])
  rw [this, Equiv.symm_apply_apply]

/-- An update lands on `i` exactly when, on every axis, its start plus its window coordinate is `i`'s coordinate
    (the in-bounds test is then `i`'s own bound). -/
theorem resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro e a
      have e' := Option.some.inj e
      have hv := congrArg Fin.val (congrFun e' a)
      have h0 := (h a).1
      simp only at hv
      omega
    · intro e
      refine congrArg some (funext fun a => Fin.ext ?_)
      show (d.start j idx a + (d.window j a : Int)).toNat = (i a).val
      have := e a
      omega
  · rename_i h
    constructor
    · intro e
      exact absurd e (by simp)
    · intro e
      exfalso
      apply h
      intro a
      have := e a
      have := (i a).isLt
      omega

end Scatter

end Cert.ScatterSet
-- ==== Proof.Padding.lean ====
/-
  The zero-padded weights as the kernel finds them.

  Before the kernel runs, each weight array is written into an array of zeros of the padded extents
  (a scatter whose body returns the update, at start index 0 on every axis).  Read at one element: inside the
  original extents the padded array holds the original entry, outside it holds 0.  After the kernel, the result is
  the first 7 columns of the padded result.
-/
import proofs.«139825_g28415503630501_cont_9to1_332_19_alg».proof.Proof.Gen.KernelIdeal.Frame
import proofs.«139825_g28415503630501_cont_9to1_332_19_alg».proof.Proof.LibScatterSet
import Idealize.ShloMosaic.Lib.IdealHost
import Idealize.ShloMosaic.Lib.ValueIdx
import Idealize.ShloMosaic.Lib.Pipeline.Value
import Idealize.ShloMosaic.Lib.StableHlo.Run

set_option maxRecDepth 16384

noncomputable section

namespace Cert.Padding

open Cert.KernelIdeal Cert.KernelIdeal.Gen Idealize.ShloMosaic Idealize.ShloMosaic.ValueIdx Idealize.ShloMosaic.TcCoe
open Idealize.ShloMosaic.StableHlo

variable (m : (ℓ : Loc nD τ sig) → Buf (Elt Ideal) ℓ) (c : Dev nD)

/-! ## A scatter at the origin, read at one element -/

/-- A scatter whose start indices are all zero starts every window at the origin. -/
theorem start_zero {s si u : Shape} (d : ScatterDims s si u) (j : u.Idx) (idx : IVec si 32)
    (h0 : ∀ k, idx k = 0#32) (a : Fin s.rank) : d.start j idx a = 0 := by
  unfold ScatterDims.start
  split
  · rw [h0]; rfl
  · rfl

/-- With all start indices zero and the body returning the update: an element whose coordinates are the window
    coordinates of exactly one update holds that update. -/
theorem scatter_origin_hit {α : Type} {s si u : Shape} (d : ScatterDims s si u) (x : s.Idx → α) (idx : IVec si 32)
    (upd : u.Idx → α) (h0 : ∀ k, idx k = 0#32) (i : s.Idx) (j₀ : u.Idx)
    (hj₀ : ∀ a, d.window j₀ a = (i a).val) (hinj : ∀ j, (∀ a, d.window j a = (i a).val) → j = j₀) :
    Host.scatter d (fun _ b => b) x idx upd i = upd j₀ := by
  refine Cert.ScatterSet.scatter_set_of_unique d x idx upd i j₀ ?_ ?_
  · rw [Cert.ScatterSet.resultIdx?_eq_some_iff]
    intro a
    rw [start_zero d j₀ idx h0 a, hj₀ a, zero_add]
  · intro j hj
    rw [Cert.ScatterSet.resultIdx?_eq_some_iff] at hj
    refine hinj j (fun a => ?_)
    have := hj a
    rw [start_zero d j idx h0 a] at this
    omega

/-- With all start indices zero: an element that is the window coordinates of no update keeps the operand's value. -/
theorem scatter_origin_miss {α : Type} {s si u : Shape} (d : ScatterDims s si u) (f : α → α → α) (x : s.Idx → α)
    (idx : IVec si 32) (upd : u.Idx → α) (h0 : ∀ k, idx k = 0#32) (i : s.Idx)
    (hmiss : ∀ j, ∃ a, d.window j a ≠ (i a).val) :
    Host.scatter d f x idx upd i = x i := by
  refine Cert.ScatterSet.scatter_of_miss d f x idx upd i (fun j hj => ?_)
  rw [Cert.ScatterSet.resultIdx?_eq_some_iff] at hj
  obtain ⟨a, ha⟩ := hmiss j
  have := hj a
  rw [start_zero d j idx h0 a] at this
  omega

/-- The scalar zero bf16 array broadcast to any shape is 0 everywhere. -/
theorem zeros_bf16_apply {T : Shape} (h : S_.BroadcastsInDim T ![]) (j : T.Idx) :
    (broadcastInDim T ![] h (constant (F := Ideal) S_ .bf16 0x0000#16) : T.Idx → EReal) j = 0 := by
  rw [broadcastInDim_scalar_apply]; exact Ideal.ofBits_zero_bf16

/-- The scalar zero f32 array broadcast to any shape is 0 everywhere. -/
theorem zeros_f32_apply {T : Shape} (h : S_.BroadcastsInDim T ![]) (j : T.Idx) :
    (broadcastInDim T ![] h (constant (F := Ideal) S_ .f32 0x00000000#32) : T.Idx → EReal) j = 0 := by
  rw [broadcastInDim_scalar_apply]; exact Ideal.ofBits_zero_f32

/-- The start indices of the one-axis scatter: all zero. -/
theorem idx1_zero (k : S1.Idx) : (broadcastInDim S1 ![] bcast_S_S1 (constantI S_ 32 0#32)) k = 0#32 := rfl

theorem d1_window0 (j : S1433x500.Idx) : scatter_S1433x512_S1_S1433x500_01_n_1_0.window j 0 = (j 0).val := rfl
theorem d1_window1 (j : S1433x500.Idx) : scatter_S1433x512_S1_S1433x500_01_n_1_0.window j 1 = (j 1).val := rfl

/-- The first weight written into the 1433 × 512 zeros: the entry inside the first 500 columns, 0 outside. -/
theorem w1p_read (x : S1433x500.Idx → EReal) (y : S1433x512.Idx) :
    Host.scatter scatter_S1433x512_S1_S1433x500_01_n_1_0 (fun _ b => b)
          (broadcastInDim S1433x512 ![] bcast_S_S1433x512 (constant (F := Ideal) S_ .bf16 0x0000#16) : S1433x512.Idx → EReal)
          (broadcastInDim S1 ![] bcast_S_S1 (constantI S_ 32 0#32)) x y
      = if h : (y 1).val < 500 then x (ix2 (y 0) ⟨(y 1).val, h⟩) else 0 := by
  by_cases h : (y 1).val < 500
  · rw [dif_pos h]
    refine scatter_origin_hit scatter_S1433x512_S1_S1433x500_01_n_1_0 _ _ x idx1_zero y
      (ix2 (y 0) ⟨(y 1).val, h⟩ : S1433x500.Idx) ?_ ?_
    · intro a
      match a with
      | ⟨0, _⟩ => rfl
      | ⟨1, _⟩ => rfl
    · intro j hj
      have h0 : (j 0).val = (y 0).val := (d1_window0 j).symm.trans (hj 0)
      have h1 : (j 1).val = (y 1).val := (d1_window1 j).symm.trans (hj 1)
      rw [eq_ix2 j]
      congr 1
      · exact Fin.ext h0
      · exact Fin.ext h1
  · rw [dif_neg h]
    rw [scatter_origin_miss scatter_S1433x512_S1_S1433x500_01_n_1_0 _ _ _ x idx1_zero y, zeros_bf16_apply]
    intro j
    refine ⟨1, ?_⟩
    rw [d1_window1]
    have := idx2_lt1 j
    omega

/-! ## The other three records -/

/-- A concatenation all of whose pieces are the constant `v` is the constant `v`. -/
theorem concatenate_const {α : Type} (t : Shape) (a : Fin t.rank) (xs : List ((s : Shape) × (s.Idx → α)))
    (h : Shape.Concatenates (xs.map (·.1)) t a) (v : α) (hx : ∀ p ∈ xs, ∀ i, p.2 i = v) (j : t.Idx) :
    concatenate t a xs h j = v := by
  unfold concatenate
  exact hx _ (List.getElem_mem _) _

/-- The start indices of the two-axis scatters: all zero. -/
theorem idx2_zero (k : S2.Idx) :
    (concatenate S2 0 [⟨S1, broadcastInDim S1 ![] bcast_S_S1 (constantI S_ 32 0#32)⟩,
        ⟨S1, broadcastInDim S1 ![] bcast_S_S1 (constantI S_ 32 0#32)⟩] concatenates_S1_S1_S2_d0 : IVec S2 32) k = 0#32 := by
  refine concatenate_const _ _ _ _ _ ?_ k
  intro p hp i
  simp only [List.mem_cons, List.mem_nil_iff, List.not_mem_nil, or_false] at hp
  rcases hp with rfl | rfl <;> rfl

theorem d2_window0 (j : S500.Idx) : scatter_S1x512_S2_S500_0_0_01_0.window j 0 = 0 := rfl
theorem d2_window1 (j : S500.Idx) : scatter_S1x512_S2_S500_0_0_01_0.window j 1 = (j 0).val := rfl
theorem d3_window0 (j : S500x7.Idx) : scatter_S512x128_S2_S500x7_01_n_01_0.window j 0 = (j 0).val := rfl
theorem d3_window1 (j : S500x7.Idx) : scatter_S512x128_S2_S500x7_01_n_01_0.window j 1 = (j 1).val := rfl
theorem d4_window0 (j : S7.Idx) : scatter_S1x128_S2_S7_0_0_01_0.window j 0 = 0 := rfl
theorem d4_window1 (j : S7.Idx) : scatter_S1x128_S2_S7_0_0_01_0.window j 1 = (j 0).val := rfl

/-- The first bias written into the 1 × 512 zeros. -/
theorem b1p_read (idx : IVec S2 32) (hidx : ∀ k, idx k = 0#32) (x : S500.Idx → EReal) (y : S1x512.Idx) :
    Host.scatter scatter_S1x512_S2_S500_0_0_01_0 (fun _ b => b)
          (broadcastInDim S1x512 ![] bcast_S_S1x512 (constant (F := Ideal) S_ .f32 0x00000000#32) : S1x512.Idx → EReal)
          idx x y
      = if h : (y 1).val < 500 then x (ix1 ⟨(y 1).val, h⟩) else 0 := by
  have hy0 : (y 0).val = 0 := by have := idx2_lt0 y; omega
  by_cases h : (y 1).val < 500
  · rw [dif_pos h]
    refine scatter_origin_hit scatter_S1x512_S2_S500_0_0_01_0 _ idx x hidx y
      (ix1 ⟨(y 1).val, h⟩ : S500.Idx) ?_ ?_
    · intro a
      match a with
      | ⟨0, _⟩ => exact (d2_window0 _).trans hy0.symm
      | ⟨1, _⟩ => rfl
    · intro j hj
      have h1 : (j 0).val = (y 1).val := (d2_window1 j).symm.trans (hj 1)
      rw [eq_ix1 j]
      congr 1
      exact Fin.ext h1
  · rw [dif_neg h]
    rw [scatter_origin_miss scatter_S1x512_S2_S500_0_0_01_0 _ _ idx x hidx y, zeros_f32_apply]
    intro j
    refine ⟨1, ?_⟩
    rw [d2_window1]
    have : (j 0).val < 500 := (j 0).isLt
    omega

/-- The second weight written into the 512 × 128 zeros. -/
theorem w2p_read (idx : IVec S2 32) (hidx : ∀ k, idx k = 0#32) (x : S500x7.Idx → EReal) (y : S512x128.Idx) :
    Host.scatter scatter_S512x128_S2_S500x7_01_n_01_0 (fun _ b => b)
          (broadcastInDim S512x128 ![] bcast_S_S512x128 (constant (F := Ideal) S_ .bf16 0x0000#16) : S512x128.Idx → EReal)
          idx x y
      = if h : (y 0).val < 500 ∧ (y 1).val < 7 then x (ix2 ⟨(y 0).val, h.1⟩ ⟨(y 1).val, h.2⟩) else 0 := by
  by_cases h : (y 0).val < 500 ∧ (y 1).val < 7
  · rw [dif_pos h]
    refine scatter_origin_hit scatter_S512x128_S2_S500x7_01_n_01_0 _ idx x hidx y
      (ix2 ⟨(y 0).val, h.1⟩ ⟨(y 1).val, h.2⟩ : S500x7.Idx) ?_ ?_
    · intro a
      match a with
      | ⟨0, _⟩ => rfl
      | ⟨1, _⟩ => rfl
    · intro j hj
      have h0 : (j 0).val = (y 0).val := (d3_window0 j).symm.trans (hj 0)
      have h1 : (j 1).val = (y 1).val := (d3_window1 j).symm.trans (hj 1)
      rw [eq_ix2 j]
      congr 1
      · exact Fin.ext h0
      · exact Fin.ext h1
  · rw [dif_neg h]
    rw [scatter_origin_miss scatter_S512x128_S2_S500x7_01_n_01_0 _ _ idx x hidx y, zeros_bf16_apply]
    intro j
    have hj0 := idx2_lt0 j
    have hj1 := idx2_lt1 j
    by_cases h0 : (y 0).val < 500
    · refine ⟨1, ?_⟩
      rw [d3_window1]
      have : ¬ (y 1).val < 7 := fun h1 => h ⟨h0, h1⟩
      omega
    · refine ⟨0, ?_⟩
      rw [d3_window0]
      omega

/-- The second bias written into the 1 × 128 zeros. -/
theorem b2p_read (idx : IVec S2 32) (hidx : ∀ k, idx k = 0#32) (x : S7.Idx → EReal) (y : S1x128.Idx) :
    Host.scatter scatter_S1x128_S2_S7_0_0_01_0 (fun _ b => b)
          (broadcastInDim S1x128 ![] bcast_S_S1x128 (constant (F := Ideal) S_ .f32 0x00000000#32) : S1x128.Idx → EReal)
          idx x y
      = if h : (y 1).val < 7 then x (ix1 ⟨(y 1).val, h⟩) else 0 := by
  have hy0 : (y 0).val = 0 := by have := idx2_lt0 y; omega
  by_cases h : (y 1).val < 7
  · rw [dif_pos h]
    refine scatter_origin_hit scatter_S1x128_S2_S7_0_0_01_0 _ idx x hidx y
      (ix1 ⟨(y 1).val, h⟩ : S7.Idx) ?_ ?_
    · intro a
      match a with
      | ⟨0, _⟩ => exact (d4_window0 _).trans hy0.symm
      | ⟨1, _⟩ => rfl
    · intro j hj
      have h1 : (j 0).val = (y 1).val := (d4_window1 j).symm.trans (hj 1)
      rw [eq_ix1 j]
      congr 1
      exact Fin.ext h1
  · rw [dif_neg h]
    rw [scatter_origin_miss scatter_S1x128_S2_S7_0_0_01_0 _ _ idx x hidx y, zeros_f32_apply]
    intro j
    refine ⟨1, ?_⟩
    rw [d4_window1]
    have : (j 0).val < 7 := (j 0).isLt
    omega

/-! ## The result's first 7 columns -/

/-- The slice of the first 7 of the 128 columns, read at an element. -/
theorem out_slice_apply (v : S10000x128.Idx → EReal) (i : S10000x7.Idx) :
    extractStridedSlice S10000x7 ![0, 0] v slices_S10000x128_S10000x7_0_0 i
      = v (ix2 (i 0) ⟨(i 1).val, by have := idx2_lt1 i; omega⟩) := by
  refine extractStridedSlice_apply _ v _ i _ ?_
  intro a
  match a with
  | ⟨0, _⟩ => exact (Nat.zero_add _).symm
  | ⟨1, _⟩ => exact (Nat.zero_add _).symm

/-! ## The padded arrays as the kernel finds them -/

/-- The padded first weight is the first weight written into the 1433 × 512 zeros at the origin. -/
theorem w1p_term :
    (V m c main_call0_v3 : S1433x512.Idx → EReal)
      = Host.scatter scatter_S1433x512_S1_S1433x500_01_n_1_0 (fun _ b => b)
          (broadcastInDim S1433x512 ![] bcast_S_S1433x512 (constant (F := Ideal) S_ .bf16 0x0000#16))
          (broadcastInDim S1 ![] bcast_S_S1 (constantI S_ 32 0#32))
          (truncf .bf16 (m ((c : Thread nD τ).loc main_arg2)) bitsLt_bf16_f32) := by
  show StableHlo.after hostOps0 (fun b => m (c, b)) (Proc.devRef .tc main_call0_v3) = _
  after_results
  generalize Host.scatter scatter_S1433x512_S1_S1433x500_01_n_1_0 (fun _ b => b) = g
  dsimp only [TRef.toBuf, TRef.ofBuf]
  refine (cast_eq _ _).trans ?_
  refine congr (congr (congrArg g ?_) ?_) ?_
  · rfl
  · rfl
  · exact (cast_eq _ _).trans ((cast_eq _ _).trans (congrArg (fun v => truncf .bf16 v bitsLt_bf16_f32) (cast_eq _ _)))

/-- The padded first bias is the first bias written into the 1 × 512 zeros at the origin. -/
theorem b1p_term :
    (V m c main_call0_v8 : S1x512.Idx → EReal)
      = Host.scatter scatter_S1x512_S2_S500_0_0_01_0 (fun _ b => b)
          (broadcastInDim S1x512 ![] bcast_S_S1x512 (constant (F := Ideal) S_ .f32 0x00000000#32))
          (concatenate S2 0 [⟨S1, broadcastInDim S1 ![] bcast_S_S1 (constantI S_ 32 0#32)⟩, ⟨S1, broadcastInDim S1 ![] bcast_S_S1 (constantI S_ 32 0#32)⟩] concatenates_S1_S1_S2_d0)
          (m ((c : Thread nD τ).loc main_arg3)) := by
  show StableHlo.after hostOps0 (fun b => m (c, b)) (Proc.devRef .tc main_call0_v8) = _
  after_results
  generalize Host.scatter scatter_S1x512_S2_S500_0_0_01_0 (fun _ b => b) = g
  dsimp only [TRef.toBuf, TRef.ofBuf]
  refine (cast_eq _ _).trans ?_
  refine congr (congr (congrArg g ?_) ?_) ?_
  · rfl
  · rfl
  · exact cast_eq _ _

/-- The padded second weight is the second weight written into the 512 × 128 zeros at the origin. -/
theorem w2p_term :
    (V m c main_call0_v14 : S512x128.Idx → EReal)
      = Host.scatter scatter_S512x128_S2_S500x7_01_n_01_0 (fun _ b => b)
          (broadcastInDim S512x128 ![] bcast_S_S512x128 (constant (F := Ideal) S_ .bf16 0x0000#16))
          (concatenate S2 0 [⟨S1, broadcastInDim S1 ![] bcast_S_S1 (constantI S_ 32 0#32)⟩, ⟨S1, broadcastInDim S1 ![] bcast_S_S1 (constantI S_ 32 0#32)⟩] concatenates_S1_S1_S2_d0)
          (truncf .bf16 (m ((c : Thread nD τ).loc main_arg4)) bitsLt_bf16_f32) := by
  show StableHlo.after hostOps0 (fun b => m (c, b)) (Proc.devRef .tc main_call0_v14) = _
  after_results
  generalize Host.scatter scatter_S512x128_S2_S500x7_01_n_01_0 (fun _ b => b) = g
  dsimp only [TRef.toBuf, TRef.ofBuf]
  refine (cast_eq _ _).trans ?_
  refine congr (congr (congrArg g ?_) ?_) ?_
  · rfl
  · rfl
  · exact (cast_eq _ _).trans ((cast_eq _ _).trans (congrArg (fun v => truncf .bf16 v bitsLt_bf16_f32) (cast_eq _ _)))

/-- The padded second bias is the second bias written into the 1 × 128 zeros at the origin. -/
theorem b2p_term :
    (V m c main_call0_v19 : S1x128.Idx → EReal)
      = Host.scatter scatter_S1x128_S2_S7_0_0_01_0 (fun _ b => b)
          (broadcastInDim S1x128 ![] bcast_S_S1x128 (constant (F := Ideal) S_ .f32 0x00000000#32))
          (concatenate S2 0 [⟨S1, broadcastInDim S1 ![] bcast_S_S1 (constantI S_ 32 0#32)⟩, ⟨S1, broadcastInDim S1 ![] bcast_S_S1 (constantI S_ 32 0#32)⟩] concatenates_S1_S1_S2_d0)
          (m ((c : Thread nD τ).loc main_arg5)) := by
  show StableHlo.after hostOps0 (fun b => m (c, b)) (Proc.devRef .tc main_call0_v19) = _
  after_results
  generalize Host.scatter scatter_S1x128_S2_S7_0_0_01_0 (fun _ b => b) = g
  dsimp only [TRef.toBuf, TRef.ofBuf]
  refine (cast_eq _ _).trans ?_
  refine congr (congr (congrArg g ?_) ?_) ?_
  · rfl
  · rfl
  · exact cast_eq _ _

/-- The padded first weight: the entry in the first 500 columns, 0 in the last 12. -/
theorem w1p_apply (y : S1433x512.Idx) :
    (V m c main_call0_v3 : S1433x512.Idx → EReal) y
      = (if h : (y 1).val < 500 then m ((c : Thread nD τ).loc main_arg2) (ix2 (y 0) ⟨(y 1).val, h⟩) else 0 : EReal) := by
  rw [w1p_term, w1p_read]
  rfl

/-- The padded first bias: the entry in the first 500 places, 0 in the last 12. -/
theorem b1p_apply (y : S1x512.Idx) :
    (V m c main_call0_v8 : S1x512.Idx → EReal) y
      = (if h : (y 1).val < 500 then m ((c : Thread nD τ).loc main_arg3) (ix1 ⟨(y 1).val, h⟩) else 0 : EReal) := by
  rw [b1p_term, b1p_read _ idx2_zero]

/-- The padded second weight: the entry in the first 500 rows and 7 columns, 0 elsewhere. -/
theorem w2p_apply (y : S512x128.Idx) :
    (V m c main_call0_v14 : S512x128.Idx → EReal) y
      = (if h : (y 0).val < 500 ∧ (y 1).val < 7 then
          m ((c : Thread nD τ).loc main_arg4) (ix2 ⟨(y 0).val, h.1⟩ ⟨(y 1).val, h.2⟩) else 0 : EReal) := by
  rw [w2p_term, w2p_read _ idx2_zero]
  rfl

/-- The padded second bias: the entry in the first 7 places, 0 in the last 121. -/
theorem b2p_apply (y : S1x128.Idx) :
    (V m c main_call0_v19 : S1x128.Idx → EReal) y
      = (if h : (y 1).val < 7 then m ((c : Thread nD τ).loc main_arg5) (ix1 ⟨(y 1).val, h⟩) else 0 : EReal) := by
  rw [b2p_term, b2p_read _ idx2_zero]

end Cert.Padding

end
-- ==== Proof.RefSide.lean ====
/-
  The reference program's result, read at an index at the ideal floats, is the two-layer graph convolution
  out = A · (relu (A · (X · W1) + b1) · W2) + b2 of the arguments read as matrices and vectors of extended reals.
  Each contraction is the sum over the contracted coordinate, each broadcast reads the bias at the column, the
  maximum with the zero constant is the rectifier.
-/
import proofs.«139825_g28415503630501_cont_9to1_332_19_alg».proof.Proof.Gen.ReferenceIdeal.Read
import proofs.«139825_g28415503630501_cont_9to1_332_19_alg».proof.Proof.Spec
import Idealize.ShloMosaic.Lib.ValueIdx
import Idealize.ShloMosaic.PureOps.Ideal.Laws

noncomputable section

open scoped BigOperators

namespace Cert.RefSide

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

variable (x0 : (⟨S10000x1433, .f32⟩ : BufTy).Contents (Elt Ideal)) (x1 : (⟨S10000x10000, .f32⟩ : BufTy).Contents (Elt Ideal))
  (x2 : (⟨S1433x500, .f32⟩ : BufTy).Contents (Elt Ideal)) (x3 : (⟨S500, .f32⟩ : BufTy).Contents (Elt Ideal))
  (x4 : (⟨S500x7, .f32⟩ : BufTy).Contents (Elt Ideal)) (x5 : (⟨S7, .f32⟩ : BufTy).Contents (Elt Ideal))

/-- The first product X · W1. -/
theorem v0_eq (p : Fin 10000) (j : Fin 500) :
    val_main_v0 (F := Ideal) x0 x2 (ix2 p j)
      = Cert.Gcn.sup1 (fun a b => x0 (ix2 a b)) (fun a b => x2 (ix2 a b)) p j := by
  rw [val_main_v0_apply]
  unfold Cert.Gcn.sup1
  refine Finset.sum_congr rfl fun k _ => ?_
  have e1 : lidx_main_v0 (ix2 p j) k = ix2 p k := funext fun a => by match a with | ⟨0, _⟩ => rfl | ⟨1, _⟩ => rfl
  have e2 : ridx_main_v0 (ix2 p j) k = ix2 k j := funext fun a => by match a with | ⟨0, _⟩ => rfl | ⟨1, _⟩ => rfl
  rw [e1, e2]

/-- The hidden layer relu (A · (X · W1) + b1). -/
theorem v5_eq (p : Fin 10000) (j : Fin 500) :
    val_main_v5 (F := Ideal) x0 x1 x2 x3 (ix2 p j)
      = Cert.Gcn.hid (fun a b => x0 (ix2 a b)) (fun a b => x1 (ix2 a b)) (fun a b => x2 (ix2 a b)) (fun a => x3 (ix1 a)) p j := by
  rw [val_main_v5_apply, val_main_v4_apply, val_main_v1_apply, val_main_v3_apply, val_main_v2_apply,
    val_main_call0_v0_apply, val_main_call0_cst_apply]
  have e3 : idx_main_v2 (idx_main_v3 (ix2 p j)) = ix1 j := funext fun a => by match a with | ⟨0, _⟩ => rfl
  rw [e3]
  simp only [Ideal.maximumf_def, Ideal.addf_def, Ideal.ofBits_def, Ideal.ofBits_zero_f32]
  unfold Cert.Gcn.hid
  congr 2
  refine Finset.sum_congr rfl fun l _ => ?_
  have e1 : lidx_main_v1 (ix2 p j) l = ix2 p l := funext fun a => by match a with | ⟨0, _⟩ => rfl | ⟨1, _⟩ => rfl
  have e2 : ridx_main_v1 (ix2 p j) l = ix2 l j := funext fun a => by match a with | ⟨0, _⟩ => rfl | ⟨1, _⟩ => rfl
  rw [e1, e2, v0_eq]

/-- The second product hid · W2. -/
theorem v6_eq (p : Fin 10000) (c : Fin 7) :
    val_main_v6 (F := Ideal) x0 x1 x2 x3 x4 (ix2 p c)
      = Cert.Gcn.sup2 (fun a b => x0 (ix2 a b)) (fun a b => x1 (ix2 a b)) (fun a b => x2 (ix2 a b)) (fun a => x3 (ix1 a))
          (fun a b => x4 (ix2 a b)) p c := by
  rw [val_main_v6_apply]
  unfold Cert.Gcn.sup2
  refine Finset.sum_congr rfl fun k _ => ?_
  have e1 : lidx_main_v6 (ix2 p c) k = ix2 p k := funext fun a => by match a with | ⟨0, _⟩ => rfl | ⟨1, _⟩ => rfl
  have e2 : ridx_main_v6 (ix2 p c) k = ix2 k c := funext fun a => by match a with | ⟨0, _⟩ => rfl | ⟨1, _⟩ => rfl
  rw [e1, e2, v5_eq]

/-- The result A · (hid · W2) + b2 at the index (p, c). -/
theorem v10_eq (p : Fin 10000) (c : Fin 7) :
    val_main_v10 (F := Ideal) x0 x1 x2 x3 x4 x5 (ix2 p c)
      = Cert.Gcn.out (fun a b => x0 (ix2 a b)) (fun a b => x1 (ix2 a b)) (fun a b => x2 (ix2 a b)) (fun a => x3 (ix1 a))
          (fun a b => x4 (ix2 a b)) (fun a => x5 (ix1 a)) p c := by
  rw [val_main_v10_apply, val_main_v7_apply, val_main_v9_apply, val_main_v8_apply]
  have e3 : idx_main_v8 (idx_main_v9 (ix2 p c)) = ix1 c := funext fun a => by match a with | ⟨0, _⟩ => rfl
  rw [e3]
  simp only [Ideal.addf_def]
  unfold Cert.Gcn.out
  congr 1
  refine Finset.sum_congr rfl fun l _ => ?_
  have e1 : lidx_main_v7 (ix2 p c) l = ix2 p l := funext fun a => by match a with | ⟨0, _⟩ => rfl | ⟨1, _⟩ => rfl
  have e2 : ridx_main_v7 (ix2 p c) l = ix2 l c := funext fun a => by match a with | ⟨0, _⟩ => rfl | ⟨1, _⟩ => rfl
  rw [e1, e2, v6_eq]

/-- The reference's result at any index is the graph convolution of the arguments at that row and column. -/
theorem result_eq (i : S10000x7.Idx) :
    val_main_v10 (F := Ideal) x0 x1 x2 x3 x4 x5 i
      = Cert.Gcn.out (fun a b => x0 (ix2 a b)) (fun a b => x1 (ix2 a b)) (fun a b => x2 (ix2 a b)) (fun a => x3 (ix1 a))
          (fun a b => x4 (ix2 a b)) (fun a => x5 (ix1 a)) (i 0) (i 1) := by
  obtain ⟨p, q, rfl⟩ : ∃ p q, i = ix2 p q := ⟨i 0, i 1, eq_ix2 i⟩
  exact v10_eq x0 x1 x2 x3 x4 x5 p q

/-- The reference's result as a function of the index. -/
theorem result_fun_eq :
    val_main_v10 (F := Ideal) x0 x1 x2 x3 x4 x5
      = fun i : S10000x7.Idx =>
          Cert.Gcn.out (fun a b => x0 (ix2 a b)) (fun a b => x1 (ix2 a b)) (fun a b => x2 (ix2 a b)) (fun a => x3 (ix1 a))
            (fun a b => x4 (ix2 a b)) (fun a => x5 (ix1 a)) (i 0) (i 1) :=
  funext fun i => result_eq x0 x1 x2 x3 x4 x5 i

/-- The same for the composed term of the reference's run, as an equation of functions of the index. -/
theorem run_term_eq :
    addf (F := Ideal) (Host.dotGeneral (φ₁ := .f32) (φ₂ := .f32) dot_S10000x10000_S10000x7_S10000x7_1_0_0_1_n_n none (x1) (Host.dotGeneral (φ₁ := .f32) (φ₂ := .f32) dot_S10000x500_S500x7_S10000x7_1_0_0_1_n_n none (maximumf (addf (Host.dotGeneral (φ₁ := .f32) (φ₂ := .f32) dot_S10000x10000_S10000x500_S10000x500_1_0_0_1_n_n none (x1) (Host.dotGeneral (φ₁ := .f32) (φ₂ := .f32) dot_S10000x1433_S1433x500_S10000x500_1_0_0_1_n_n none (x0) (x2))) (broadcastInDim S10000x500 ![0, 1] bcast_S1x500_S10000x500_0_1 (broadcastInDim S1x500 ![1] bcast_S500_S1x500_1 (x3)))) (broadcastInDim S10000x500 ![] bcast_S_S10000x500 (constant S_ .f32 0x00000000#32))) (x4))) (broadcastInDim S10000x7 ![0, 1] bcast_S1x7_S10000x7_0_1 (broadcastInDim S1x7 ![1] bcast_S7_S1x7_1 (x5)))
      = fun i : S10000x7.Idx =>
          Cert.Gcn.out (fun a b => x0 (ix2 a b)) (fun a b => x1 (ix2 a b)) (fun a b => x2 (ix2 a b)) (fun a => x3 (ix1 a))
            (fun a b => x4 (ix2 a b)) (fun a => x5 (ix1 a)) (i 0) (i 1) := by
  rw [val_main_v10_eq]
  exact result_fun_eq x0 x1 x2 x3 x4 x5

end Cert.RefSide

end
-- ==== Proof.SpecJoin.lean ====
/-
  The tiled form of the two-layer graph convolution agrees with the reference on the first 7 columns.

  Columns j < 500 of the padded first product are the unpadded ones (the same sum); the four runs of 2500 nodes added
  one after another onto 0 are the one sum over all 10000 nodes (regrouping a finite sum through the bijection
  (q, l) ↦ 2500 q + l); the padded hidden columns j ≥ 500 meet zero rows of the second weight matrix, so they add 0.
  Only commutative-monoid facts and x · 0 = 0 are used.
-/
import Mathlib
import proofs.«139825_g28415503630501_cont_9to1_332_19_alg».proof.Proof.Spec

noncomputable section

open scoped BigOperators

namespace Cert.Gcn

/-- (q, l) ↦ 2500 q + l is a bijection from 4 × 2500 onto 10000. -/
def nodeEquiv : Fin 4 × Fin 2500 ≃ Fin 10000 where
  toFun p := node p.1 p.2
  invFun i := (⟨i.val / 2500, by have := i.isLt; omega⟩, ⟨i.val % 2500, by omega⟩)
  left_inv := by
    rintro ⟨q, l⟩
    have := q.isLt
    have := l.isLt
    ext <;> simp only [node] <;> omega
  right_inv := by
    intro i
    ext
    simp only [node]
    omega

/-- A sum over the 10000 nodes is the four runs of 2500 added one after another onto 0. -/
theorem sum_runs {M : Type*} [AddCommMonoid M] (f : Fin 10000 → M) :
    ∑ i, f i = (((0 + ∑ l : Fin 2500, f (node 0 l)) + ∑ l : Fin 2500, f (node 1 l))
      + ∑ l : Fin 2500, f (node 2 l)) + ∑ l : Fin 2500, f (node 3 l) := by
  rw [← nodeEquiv.sum_comp f, Fintype.sum_prod_type, Fin.sum_univ_four, zero_add]
  rfl

/-- A sum over 512 columns whose terms vanish from column 500 on is the sum over the first 500. -/
theorem sum_pad {M : Type*} [AddCommMonoid M] (g : Fin 512 → M) (hg : ∀ j : Fin 512, 500 ≤ j.val → g j = 0) :
    ∑ j, g j = ∑ j : Fin 500, g ⟨j.val, by have := j.isLt; omega⟩ := by
  symm
  refine Fintype.sum_of_injective (fun j : Fin 500 => (⟨j.val, by have := j.isLt; omega⟩ : Fin 512)) ?_ _ _ ?_ (fun _ => rfl)
  · intro a b h
    exact Fin.ext (by simpa using congrArg Fin.val h)
  · intro j hj
    apply hg
    by_contra hlt
    exact hj ⟨⟨j.val, by omega⟩, rfl⟩

variable (X : Fin 10000 → Fin 1433 → EReal) (A : Fin 10000 → Fin 10000 → EReal)
  (W1 : Fin 1433 → Fin 500 → EReal) (b1 : Fin 500 → EReal) (W2 : Fin 500 → Fin 7 → EReal) (b2 : Fin 7 → EReal)
  (W1p : Fin 1433 → Fin 512 → EReal) (b1p : Fin 512 → EReal) (W2p : Fin 512 → Fin 128 → EReal) (b2p : Fin 128 → EReal)

theorem s1_eq (hW1 : ∀ k (j : Fin 512), W1p k j = if h : j.val < 500 then W1 k ⟨j.val, h⟩ else 0)
    (i : Fin 10000) (j : Fin 512) (h : j.val < 500) : s1 X W1p i j = sup1 X W1 i ⟨j.val, h⟩ := by
  unfold s1 sup1
  refine Finset.sum_congr rfl fun k _ => ?_
  rw [hW1 k j, dif_pos h]

theorem acc_eq (i : Fin 10000) (j : Fin 512) : acc X A W1p i j = ∑ l : Fin 10000, A i l * s1 X W1p l j := by
  unfold acc run
  exact (sum_runs (M := EReal) fun l => A i l * s1 X W1p l j).symm

theorem hidp_eq (hW1 : ∀ k (j : Fin 512), W1p k j = if h : j.val < 500 then W1 k ⟨j.val, h⟩ else 0)
    (hb1 : ∀ j : Fin 512, b1p j = if h : j.val < 500 then b1 ⟨j.val, h⟩ else 0)
    (i : Fin 10000) (j : Fin 512) (h : j.val < 500) : hidp X A W1p b1p i j = hid X A W1 b1 i ⟨j.val, h⟩ := by
  unfold hidp hid
  rw [acc_eq, hb1 j, dif_pos h]
  congr 2
  refine Finset.sum_congr rfl fun l _ => ?_
  rw [s1_eq X W1 W1p hW1 l j h]

theorem s2_eq (hW1 : ∀ k (j : Fin 512), W1p k j = if h : j.val < 500 then W1 k ⟨j.val, h⟩ else 0)
    (hb1 : ∀ j : Fin 512, b1p j = if h : j.val < 500 then b1 ⟨j.val, h⟩ else 0)
    (hW2 : ∀ (j : Fin 512) (c : Fin 128), W2p j c = if h : j.val < 500 ∧ c.val < 7 then W2 ⟨j.val, h.1⟩ ⟨c.val, h.2⟩ else 0)
    (i : Fin 10000) (c : Fin 128) (h : c.val < 7) :
    s2 X A W1p b1p W2p i c = sup2 X A W1 b1 W2 i ⟨c.val, h⟩ := by
  unfold s2 sup2
  rw [sum_pad]
  · refine Finset.sum_congr rfl fun j _ => ?_
    have hj : (⟨j.val, by have := j.isLt; omega⟩ : Fin 512).val < 500 := j.isLt
    rw [hidp_eq X A W1 b1 W1p b1p hW1 hb1 i _ hj, hW2, dif_pos ⟨hj, h⟩]
  · intro j hj
    rw [hW2, dif_neg (by intro hh; omega), mul_zero]

theorem tiled_eq
    (hW1 : ∀ k (j : Fin 512), W1p k j = if h : j.val < 500 then W1 k ⟨j.val, h⟩ else 0)
    (hb1 : ∀ j : Fin 512, b1p j = if h : j.val < 500 then b1 ⟨j.val, h⟩ else 0)
    (hW2 : ∀ (j : Fin 512) (c : Fin 128), W2p j c = if h : j.val < 500 ∧ c.val < 7 then W2 ⟨j.val, h.1⟩ ⟨c.val, h.2⟩ else 0)
    (hb2 : ∀ c : Fin 128, b2p c = if h : c.val < 7 then b2 ⟨c.val, h⟩ else 0)
    (i : Fin 10000) (c : Fin 7) :
    outp X A W1p b1p W2p b2p i ⟨c.val, by have := c.isLt; omega⟩ = out X A W1 b1 W2 b2 i c := by
  have hc : (⟨c.val, by have := c.isLt; omega⟩ : Fin 128).val < 7 := c.isLt
  unfold outp out
  rw [hb2, dif_pos hc]
  congr 1
  refine Finset.sum_congr rfl fun l _ => ?_
  rw [s2_eq X A W1 b1 W2 W1p b1p W2p hW1 hb1 hW2 l _ hc]

end Cert.Gcn

end
-- ==== Proof.Algebraic.lean ====
/-
  The two idealized programs compute one function.

  The kernel's result is the first 7 columns of the padded array the third phase stores, which — read through the
  three phases' payloads — is the tiled form of the two-layer graph convolution over the zero-padded weights; the
  reference's result is the plain form. The two agree on the first 7 columns (`Cert.Gcn.tiled_eq`), with no
  finiteness assumption: the padding contributes products with 0, and the four runs of the first aggregation are
  one sum regrouped.
-/
import proofs.«139825_g28415503630501_cont_9to1_332_19_alg».proof.Defs
import proofs.«139825_g28415503630501_cont_9to1_332_19_alg».proof.Proof.ValueI
import proofs.«139825_g28415503630501_cont_9to1_332_19_alg».proof.Proof.JoinI
import proofs.«139825_g28415503630501_cont_9to1_332_19_alg».proof.Proof.Padding
import proofs.«139825_g28415503630501_cont_9to1_332_19_alg».proof.Proof.RefSide
import proofs.«139825_g28415503630501_cont_9to1_332_19_alg».proof.Proof.SpecJoin
import proofs.«139825_g28415503630501_cont_9to1_332_19_alg».proof.Proof.Gen.ReferenceIdeal.Run
import proofs.«139825_g28415503630501_cont_9to1_332_19_alg».proof.Proof.Gen.Pre_finite_inputs

noncomputable section

namespace Cert.Proof.Alg

open Idealize.ShloMosaic Idealize.ShloMosaic.TcCoe Idealize.SL.Sem Idealize.ShloMosaic.ValueIdx
open Cert.KernelIdeal Cert.KernelIdeal.Gen

/-- The kernel's result, index by index, is the reference's function of the argument arrays. -/
theorem kernel_result (m : (ℓ : Loc nD τ sig) → Buf (Elt Ideal) ℓ) (c : Dev nD) :
    extractStridedSlice S10000x7 ![0, 0] (G6 (F := Ideal) m c) slices_S10000x128_S10000x7_0_0
      = fun i : S10000x7.Idx =>
        Cert.Gcn.out (fun a b => m ((c.tc : Thread nD τ).loc main_arg0) (ix2 a b))
          (fun a b => m ((c.tc : Thread nD τ).loc main_arg1) (ix2 a b))
          (fun a b => m ((c.tc : Thread nD τ).loc main_arg2) (ix2 a b))
          (fun a => m ((c.tc : Thread nD τ).loc main_arg3) (ix1 a))
          (fun a b => m ((c.tc : Thread nD τ).loc main_arg4) (ix2 a b))
          (fun a => m ((c.tc : Thread nD τ).loc main_arg5) (ix1 a)) (i 0) (i 1) := by
  funext i
  rw [Cert.Padding.out_slice_apply]
  refine (Cert.Join.G6_apply m c (i 0) ⟨(i 1).val, by have := idx2_lt1 i; omega⟩).trans ?_
  have hX : Cert.Join.aX m c = fun a b => m ((c.tc : Thread nD τ).loc main_arg0) (ix2 a b) :=
    funext fun a => funext fun b => congrFun (V_main_arg0 m c) (ix2 a b)
  have hA : Cert.Join.aA m c = fun a b => m ((c.tc : Thread nD τ).loc main_arg1) (ix2 a b) :=
    funext fun a => funext fun b => congrFun (V_main_arg1 m c) (ix2 a b)
  have hW1 : ∀ (k : Fin 1433) (j : Fin 512), Cert.Join.aW1p m c k j
      = (if h : j.val < 500 then m ((c.tc : Thread nD τ).loc main_arg2) (ix2 k ⟨j.val, h⟩) else 0 : EReal) :=
    fun k j => Cert.Padding.w1p_apply m c (ix2 k j)
  have hb1 : ∀ j : Fin 512, Cert.Join.ab1p m c j
      = (if h : j.val < 500 then m ((c.tc : Thread nD τ).loc main_arg3) (ix1 ⟨j.val, h⟩) else 0 : EReal) :=
    fun j => Cert.Padding.b1p_apply m c (ix2 0 j)
  have hW2 : ∀ (j : Fin 512) (c' : Fin 128), Cert.Join.aW2p m c j c'
      = (if h : j.val < 500 ∧ c'.val < 7 then m ((c.tc : Thread nD τ).loc main_arg4) (ix2 ⟨j.val, h.1⟩ ⟨c'.val, h.2⟩) else 0 : EReal) :=
    fun j c' => Cert.Padding.w2p_apply m c (ix2 j c')
  have hb2 : ∀ c' : Fin 128, Cert.Join.ab2p m c c'
      = (if h : c'.val < 7 then m ((c.tc : Thread nD τ).loc main_arg5) (ix1 ⟨c'.val, h⟩) else 0 : EReal) :=
    fun c' => Cert.Padding.b2p_apply m c (ix2 0 c')
  rw [hX, hA]
  exact Cert.Gcn.tiled_eq _ _ _ _ _ _ _ _ _ _ hW1 hb1 hW2 hb2 (i 0) (i 1)

/-- The reference's run with its result read: the plain two-layer graph convolution of its arguments. -/
theorem ref_run (m : (ℓ : Loc Cert.ReferenceIdeal.nD Cert.ReferenceIdeal.τ Cert.ReferenceIdeal.sig) → Buf (Elt Ideal) ℓ) (ρ : Dev Cert.ReferenceIdeal.nD → PrngReg) :
    θ_run Cert.ReferenceIdeal.defs (onTc (τ := Cert.ReferenceIdeal.τ) (Cert.ReferenceIdeal.main (F := Ideal))) ⟨m, fun _ => 0, ρ⟩ fun r => ∀ c : Dev Cert.ReferenceIdeal.nD,
      r.2.mem ((c.tc : Thread Cert.ReferenceIdeal.nD Cert.ReferenceIdeal.τ).loc Cert.ReferenceIdeal.main_v10) = (fun i : Cert.ReferenceIdeal.S10000x7.Idx =>
        Cert.Gcn.out (fun a b => m ((c.tc : Thread Cert.ReferenceIdeal.nD Cert.ReferenceIdeal.τ).loc Cert.ReferenceIdeal.main_arg0) (ix2 a b))
          (fun a b => m ((c.tc : Thread Cert.ReferenceIdeal.nD Cert.ReferenceIdeal.τ).loc Cert.ReferenceIdeal.main_arg1) (ix2 a b))
          (fun a b => m ((c.tc : Thread Cert.ReferenceIdeal.nD Cert.ReferenceIdeal.τ).loc Cert.ReferenceIdeal.main_arg2) (ix2 a b))
          (fun a => m ((c.tc : Thread Cert.ReferenceIdeal.nD Cert.ReferenceIdeal.τ).loc Cert.ReferenceIdeal.main_arg3) (ix1 a))
          (fun a b => m ((c.tc : Thread Cert.ReferenceIdeal.nD Cert.ReferenceIdeal.τ).loc Cert.ReferenceIdeal.main_arg4) (ix2 a b))
          (fun a => m ((c.tc : Thread Cert.ReferenceIdeal.nD Cert.ReferenceIdeal.τ).loc Cert.ReferenceIdeal.main_arg5) (ix1 a)) (i 0) (i 1))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5) :=
  (θ_run Cert.ReferenceIdeal.defs _ _).mono (fun _ h c => ⟨by rw [(h c).1]; exact Cert.RefSide.run_term_eq _ _ _ _ _ _, (h c).2⟩)
    (Cert.ReferenceIdeal.Value.run (F := Ideal) m ρ)

/-- From memories agreeing on the arguments both idealized programs end with that function of the arguments. -/
theorem algebraic : Cert.algebraic_KernelIdeal_ReferenceIdeal := by
  intro m ρ m' ρ' _ hagree
  refine ⟨_, run_value (F := Ideal) m ρ, ?_⟩
  refine (θ_run Cert.ReferenceIdeal.defs _ _).mono (fun _ h c => ⟨(h c).1.trans ?_, (h c).2⟩) (ref_run m' ρ')
  rw [(hagree c).1, (hagree c).2.1, (hagree c).2.2.1, (hagree c).2.2.2.1, (hagree c).2.2.2.2.1, (hagree c).2.2.2.2.2]
  exact (kernel_result m c).symm

end Cert.Proof.Alg

end
-- ==== Proof.lean ====
/-
  A two-layer graph convolution with a dense adjacency matrix, out = A · (relu (A · (X · W1) + b1) · W2) + b2, as ONE
  kernel of three phases over a grid of 60 points — X · W1 into a first scratch array (points 0–9), the first
  aggregation, bias, rectification and the product with W2 into a second scratch array (points 10–34), the second
  aggregation and bias into the result (points 35–59) — with the hidden width padded from 500 to 512 and the class
  count from 7 to 128 by zeros, against the plain jnp composition.

  Frames (Proof/Frames.lean): the body is run once per phase (Proof/Runs*.lean); what is known of the scratch arrays
  grows by one band of rows per point (Proof/Scratch*.lean) and is carried in the region's invariant
  (Proof/Body*.lean), once at the word level and once on the extended reals. The ideal pass rewrote nothing.
  Value (Proof/ValueI.lean, PayloadsI.lean, JoinI.lean, Padding.lean): the result array is, index by index, the
  tiled form of the convolution over the zero-padded weights. Reference (Proof/RefSide.lean): the plain form.
  The two agree on the first 7 columns (Proof/Spec.lean, SpecJoin.lean): the padding contributes products with 0
  and the four runs of the first aggregation are one sum regrouped, so no finiteness is needed
  (Proof/Algebraic.lean).
-/
import proofs.«139825_g28415503630501_cont_9to1_332_19_alg».proof.Defs
import proofs.«139825_g28415503630501_cont_9to1_332_19_alg».proof.Proof.Frames
import proofs.«139825_g28415503630501_cont_9to1_332_19_alg».proof.Proof.Algebraic
import proofs.«139825_g28415503630501_cont_9to1_332_19_alg».proof.Proof.Gen.Kernel
import proofs.«139825_g28415503630501_cont_9to1_332_19_alg».proof.Proof.Gen.Kernel.Skeleton
import proofs.«139825_g28415503630501_cont_9to1_332_19_alg».proof.Proof.Gen.Kernel.Launch
import proofs.«139825_g28415503630501_cont_9to1_332_19_alg».proof.Proof.Gen.Kernel.Points
import proofs.«139825_g28415503630501_cont_9to1_332_19_alg».proof.Proof.Gen.Kernel.Frame
import proofs.«139825_g28415503630501_cont_9to1_332_19_alg».proof.Proof.Gen.KernelIdeal
import proofs.«139825_g28415503630501_cont_9to1_332_19_alg».proof.Proof.Gen.KernelIdeal.Skeleton
import proofs.«139825_g28415503630501_cont_9to1_332_19_alg».proof.Proof.Gen.KernelIdeal.Launch
import proofs.«139825_g28415503630501_cont_9to1_332_19_alg».proof.Proof.Gen.KernelIdeal.Points
import proofs.«139825_g28415503630501_cont_9to1_332_19_alg».proof.Proof.Gen.KernelIdeal.Frame
import proofs.«139825_g28415503630501_cont_9to1_332_19_alg».proof.Proof.Gen.ReferenceIdeal
import proofs.«139825_g28415503630501_cont_9to1_332_19_alg».proof.Proof.Gen.Pre_finite_inputs
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Frames.frame_k, Frames.frame_ki, Frames.frame_ri, Frames.preserves, Alg.algebraic⟩

end Cert.Proof

end
